-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144 : Shape := ⟨2, ![32, 262144]⟩
abbrev S1835008 : Shape := ⟨1, ![1835008]⟩
abbrev S_ : Shape := ⟨0, ![]⟩
abbrev S1835008x1 : Shape := ⟨2, ![1835008, 1]⟩
abbrev S32x1835008 : Shape := ⟨2, ![32, 1835008]⟩
abbrev S1x1835008 : Shape := ⟨2, ![1, 1835008]⟩
abbrev S1835008x32 : Shape := ⟨2, ![1835008, 32]⟩
abbrev S262144x32 : Shape := ⟨2, ![262144, 32]⟩
abbrev S32 : Shape := ⟨1, ![32]⟩

class Facts : Prop where
  bcast_S_S32x262144 : S_.BroadcastsInDim S32x262144 (![] : Fin 0 → Fin S32x262144.rank)
  reducesTo_S32x262144_S_d0_1 : S32x262144.ReducesTo [0, 1] S_
  h_S_ : 0 < S_.numel
  bcast_S_S1835008 : S_.BroadcastsInDim S1835008 (![] : Fin 0 → Fin S1835008.rank)
  reducesTo_S1835008_S_d0 : S1835008.ReducesTo [0] S_
  bcast_S1835008_S1835008x1_0 : S1835008.BroadcastsInDim S1835008x1 (![0] : Fin 1 → Fin S1835008x1.rank)
  bcast_S1835008_S1x1835008_1 : S1835008.BroadcastsInDim S1x1835008 (![1] : Fin 1 → Fin S1x1835008.rank)
  bcast_S1x1835008_S32x1835008_0_1 : S1x1835008.BroadcastsInDim S32x1835008 (![0, 1] : Fin 2 → Fin S32x1835008.rank)
  transposes_S32x1835008_S1835008x32_1_0 : S32x1835008.Transposes [1, 0] S1835008x32
  bcast_S_S262144x32 : S_.BroadcastsInDim S262144x32 (![] : Fin 0 → Fin S262144x32.rank)
  transposes_S262144x32_S32x262144_1_0 : S262144x32.Transposes [1, 0] S32x262144
  reducesTo_S32x262144_S32_d1 : S32x262144.ReducesTo [1] S32
  bcast_S_S32 : S_.BroadcastsInDim S32 (![] : Fin 0 → Fin S32.rank)
  reducesTo_S32_S_d0 : S32.ReducesTo [0] S_
  gather_S32x262144_S1835008x1_S32x1835008_0_1_n_n_1_1_321_wf : GatherDims.WF S32x262144 S1835008x1 S32x1835008 [0] [1] [] [1] [] 1 ![32, 1]
  scatter_S262144x32_S1835008x1_S1835008x32_1_0_0_1_wf : ScatterDims.WF S262144x32 S1835008x1 S1835008x32 [1] [0] [0] 1

variable [Facts]

def gather_S32x262144_S1835008x1_S32x1835008_0_1_n_n_1_1_321 : GatherDims S32x262144 S1835008x1 S32x1835008 where
  offsetDims := [0]
  collapsedSliceDims := [1]
  operandBatchingDims := []
  startIndicesBatchingDims := []
  startIndexMap := [1]
  indexVectorDim := 1
  sliceSizes := ![32, 1]
  wf := gather_S32x262144_S1835008x1_S32x1835008_0_1_n_n_1_1_321_wf
def scatter_S262144x32_S1835008x1_S1835008x32_1_0_0_1 : ScatterDims S262144x32 S1835008x1 S1835008x32 where
  updateWindowDims := [1]
  insertedWindowDims := [0]
  scatterDimsToOperandDims := [0]
  indexVectorDim := 1
  wf := scatter_S262144x32_S1835008x1_S1835008x32_1_0_0_1_wf
def fn_part1 {F : FTy → Type} [FloatOps F] (main_arg0 : FVec F S32x262144 .f32) (main_arg2 : FVec F S1835008 .f32) (main_arg3 : IVec S1835008 32) (main_arg4 : IVec S1835008 32) (main_v13 : IVec S_ 1) (main_v15 : IVec S1835008 1) (main_c_5 : IVec S_ 32) : IVec S_ 1 :=
  let main_v16 : IVec S1835008 32 := broadcastInDim S1835008 ![] bcast_S_S1835008 main_c_5
  let main_v17 : IVec S1835008 32 := addi main_arg4 main_v16
  let main_v18 : IVec S1835008 32 := select main_v15 main_v17 main_arg4
  let main_v19 : IVec S1835008x1 32 := broadcastInDim S1835008x1 ![0] bcast_S1835008_S1835008x1_0 main_v18
  let main_v20 : FVec F S32x1835008 .f32 := (fun x i => Host.gather gather_S32x262144_S1835008x1_S32x1835008_0_1_n_n_1_1_321 x i) main_arg0 main_v19
  let main_v21 : FVec F S1x1835008 .f32 := broadcastInDim S1x1835008 ![1] bcast_S1835008_S1x1835008_1 main_arg2
  let main_v22 : FVec F S32x1835008 .f32 := broadcastInDim S32x1835008 ![0, 1] bcast_S1x1835008_S32x1835008_0_1 main_v21
  let main_v23 : FVec F S32x1835008 .f32 := mulf main_v20 main_v22
  let main_v24 : FVec F S1835008x32 .f32 := (transpose S1835008x32 [1, 0] · transposes_S32x1835008_S1835008x32_1_0) main_v23
  let main_cst_6 : FVec F S_ .f32 := constant S_ .f32 0x00000000#32
  let main_v25 : FVec F S262144x32 .f32 := broadcastInDim S262144x32 ![] bcast_S_S262144x32 main_cst_6
  let main_v26 : IVec S1835008x1 32 := broadcastInDim S1835008x1 ![0] bcast_S1835008_S1835008x1_0 main_arg3
  let main_v27 : FVec F S262144x32 .f32 := (fun x i u => Host.scatterAdd scatter_S262144x32_S1835008x1_S1835008x32_1_0_0_1 x i u) main_v25 main_v26 main_v24
  let main_v28 : FVec F S32x262144 .f32 := (transpose S32x262144 [1, 0] · transposes_S262144x32_S32x262144_1_0) main_v27
  let main_v29 : FVec F S32x262144 .f32 := mulf main_arg0 main_v28
  let main_cst_7 : FVec F S_ .f32 := constant S_ .f32 0x00000000#32
  let main_v30 : FVec F S32 .f32 := (fun x v => Host.reduceAdd x v reducesTo_S32x262144_S32_d1 h_S_) main_v29 main_cst_7
  let main_cst_8 : FVec F S_ .f32 := constant S_ .f32 0x00000000#32
  let main_v31 : FVec F S32 .f32 := broadcastInDim S32 ![] bcast_S_S32 main_cst_8
  let main_v32 : IVec S32 1 := cmpf .une main_v30 main_v31
  let main_c_9 : IVec S_ 1 := constantI S_ 1 1#1
  let main_v33 : IVec S_ 1 := (fun x v => Host.reduce IntOp.andi x v reducesTo_S32_S_d0 h_S_) main_v32 main_c_9
  let main_v34 : IVec S_ 1 := andi main_v13 main_v33
  main_v34

def fn {F : FTy → Type} [FloatOps F] (main_arg0 : FVec F S32x262144 .f32) (main_arg1 : FVec F S32x262144 .f32) (main_arg2 : FVec F S1835008 .f32) (main_arg3 : IVec S1835008 32) (main_arg4 : IVec S1835008 32) : IVec S_ 1 :=
  let main_v0 : FVec F S32x262144 .f32 := Host.absf main_arg0
  let main_cst : FVec F S_ .f32 := constant S_ .f32 0x7F800000#32
  let main_v1 : FVec F S32x262144 .f32 := broadcastInDim S32x262144 ![] bcast_S_S32x262144 main_cst
  let main_v2 : IVec S32x262144 1 := cmpf .olt main_v0 main_v1
  let main_c : IVec S_ 1 := constantI S_ 1 1#1
  let main_v3 : IVec S_ 1 := (fun x v => Host.reduce IntOp.andi x v reducesTo_S32x262144_S_d0_1 h_S_) main_v2 main_c
  let main_v4 : FVec F S32x262144 .f32 := Host.absf main_arg1
  let main_cst_0 : FVec F S_ .f32 := constant S_ .f32 0x7F800000#32
  let main_v5 : FVec F S32x262144 .f32 := broadcastInDim S32x262144 ![] bcast_S_S32x262144 main_cst_0
  let main_v6 : IVec S32x262144 1 := cmpf .olt main_v4 main_v5
  let main_c_1 : IVec S_ 1 := constantI S_ 1 1#1
  let main_v7 : IVec S_ 1 := (fun x v => Host.reduce IntOp.andi x v reducesTo_S32x262144_S_d0_1 h_S_) main_v6 main_c_1
  let main_v8 : IVec S_ 1 := andi main_v3 main_v7
  let main_v9 : FVec F S1835008 .f32 := Host.absf main_arg2
  let main_cst_2 : FVec F S_ .f32 := constant S_ .f32 0x7F800000#32
  let main_v10 : FVec F S1835008 .f32 := broadcastInDim S1835008 ![] bcast_S_S1835008 main_cst_2
  let main_v11 : IVec S1835008 1 := cmpf .olt main_v9 main_v10
  let main_c_3 : IVec S_ 1 := constantI S_ 1 1#1
  let main_v12 : IVec S_ 1 := (fun x v => Host.reduce IntOp.andi x v reducesTo_S1835008_S_d0 h_S_) main_v11 main_c_3
  let main_v13 : IVec S_ 1 := andi main_v8 main_v12
  let main_c_4 : IVec S_ 32 := constantI S_ 32 0#32
  let main_v14 : IVec S1835008 32 := broadcastInDim S1835008 ![] bcast_S_S1835008 main_c_4
  let main_v15 : IVec S1835008 1 := cmpi .slt main_arg4 main_v14
  let main_c_5 : IVec S_ 32 := constantI S_ 32 262144#32
  fn_part1 (F := F) main_arg0 main_arg2 main_arg3 main_arg4 main_v13 main_v15 main_c_5
-- ==== Kernel.lean ====
abbrev S32x262144 : Shape := ⟨2, ![32, 262144]⟩
abbrev S1835008 : Shape := ⟨1, ![1835008]⟩
abbrev S262144x32 : Shape := ⟨2, ![262144, 32]⟩
abbrev S_ : Shape := ⟨0, ![]⟩
abbrev S262144 : Shape := ⟨1, ![262144]⟩
abbrev S262144x1 : Shape := ⟨2, ![262144, 1]⟩
abbrev S2x32x1 : Shape := ⟨3, ![2, 32, 1]⟩
abbrev S32x16384 : Shape := ⟨2, ![32, 16384]⟩
abbrev S1x32x1 : Shape := ⟨3, ![1, 32, 1]⟩
abbrev S32x1 : Shape := ⟨2, ![32, 1]⟩
abbrev S32 : Shape := ⟨1, ![32]⟩

abbrev nBuf : Space → Nat
  | .hbm => 182
  | .vmem => 16
  | .smem => 0
  | _ => 0

abbrev hbmTy0_0 (i : Nat) : BufTy := match i % 128 with
  | 0 => ⟨S32x262144, .f32⟩
  | 1 => ⟨S32x262144, .f32⟩
  | 2 => ⟨S1835008, .f32⟩
  | 3 => ⟨S1835008, .i32⟩
  | 4 => ⟨S1835008, .i32⟩
  | 5 => ⟨S262144x32, .f32⟩
  | 6 => ⟨S_, .f32⟩
  | 7 => ⟨S262144x32, .f32⟩
  | 8 => ⟨S262144, .f32⟩
  | 9 => ⟨S262144, .i32⟩
  | 10 => ⟨S262144, .i32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S262144x32, .f32⟩
  | 20 => ⟨S262144x1, .f32⟩
  | 21 => ⟨S262144x32, .f32⟩
  | 22 => ⟨S262144x32, .f32⟩
  | 23 => ⟨S_, .f32⟩
  | 24 => ⟨S262144x32, .f32⟩
  | 25 => ⟨S262144x1, .i32⟩
  | 26 => ⟨S262144x32, .f32⟩
  | 27 => ⟨S262144x32, .f32⟩
  | 28 => ⟨S262144, .f32⟩
  | 29 => ⟨S262144, .i32⟩
  | 30 => ⟨S262144, .i32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x32, .f32⟩
  | 40 => ⟨S262144x1, .f32⟩
  | 41 => ⟨S262144x32, .f32⟩
  | 42 => ⟨S262144x32, .f32⟩
  | 43 => ⟨S_, .f32⟩
  | 44 => ⟨S262144x32, .f32⟩
  | 45 => ⟨S262144x1, .i32⟩
  | 46 => ⟨S262144x32, .f32⟩
  | 47 => ⟨S262144x32, .f32⟩
  | 48 => ⟨S262144, .f32⟩
  | 49 => ⟨S262144, .i32⟩
  | 50 => ⟨S262144, .i32⟩
  | 51 => ⟨S_, .i32⟩
  | 52 => ⟨S262144, .i32⟩
  | 53 => ⟨S262144, .i1⟩
  | 54 => ⟨S_, .i32⟩
  | 55 => ⟨S262144, .i32⟩
  | 56 => ⟨S262144, .i32⟩
  | 57 => ⟨S262144, .i32⟩
  | 58 => ⟨S262144x1, .i32⟩
  | 59 => ⟨S262144x32, .f32⟩
  | 60 => ⟨S262144x1, .f32⟩
  | 61 => ⟨S262144x32, .f32⟩
  | 62 => ⟨S262144x32, .f32⟩
  | 63 => ⟨S_, .f32⟩
  | 64 => ⟨S262144x32, .f32⟩
  | 65 => ⟨S262144x1, .i32⟩
  | 66 => ⟨S262144x32, .f32⟩
  | 67 => ⟨S262144x32, .f32⟩
  | 68 => ⟨S262144, .f32⟩
  | 69 => ⟨S262144, .i32⟩
  | 70 => ⟨S262144, .i32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x32, .f32⟩
  | 80 => ⟨S262144x1, .f32⟩
  | 81 => ⟨S262144x32, .f32⟩
  | 82 => ⟨S262144x32, .f32⟩
  | 83 => ⟨S_, .f32⟩
  | 84 => ⟨S262144x32, .f32⟩
  | 85 => ⟨S262144x1, .i32⟩
  | 86 => ⟨S262144x32, .f32⟩
  | 87 => ⟨S262144x32, .f32⟩
  | 88 => ⟨S262144, .f32⟩
  | 89 => ⟨S262144, .i32⟩
  | 90 => ⟨S262144, .i32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S262144x32, .f32⟩
  | 100 => ⟨S262144x1, .f32⟩
  | 101 => ⟨S262144x32, .f32⟩
  | 102 => ⟨S262144x32, .f32⟩
  | 103 => ⟨S_, .f32⟩
  | 104 => ⟨S262144x32, .f32⟩
  | 105 => ⟨S262144x1, .i32⟩
  | 106 => ⟨S262144x32, .f32⟩
  | 107 => ⟨S262144x32, .f32⟩
  | 108 => ⟨S262144, .f32⟩
  | 109 => ⟨S262144, .i32⟩
  | 110 => ⟨S262144, .i32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x32, .f32⟩
  | 120 => ⟨S262144x1, .f32⟩
  | 121 => ⟨S262144x32, .f32⟩
  | 122 => ⟨S262144x32, .f32⟩
  | 123 => ⟨S_, .f32⟩
  | 124 => ⟨S262144x32, .f32⟩
  | 125 => ⟨S262144x1, .i32⟩
  | 126 => ⟨S262144x32, .f32⟩
  | 127 => ⟨S262144x32, .f32⟩
  | _ => ⟨S32x262144, .f32⟩

abbrev hbmTy0_1 (i : Nat) : BufTy := match i % 128 with
  | 0 => ⟨S262144, .f32⟩
  | 1 => ⟨S262144, .i32⟩
  | 2 => ⟨S262144, .i32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S262144x1, .i32⟩
  | 11 => ⟨S262144x32, .f32⟩
  | 12 => ⟨S262144x1, .f32⟩
  | 13 => ⟨S262144x32, .f32⟩
  | 14 => ⟨S262144x32, .f32⟩
  | 15 => ⟨S_, .f32⟩
  | 16 => ⟨S262144x32, .f32⟩
  | 17 => ⟨S262144x1, .i32⟩
  | 18 => ⟨S262144x32, .f32⟩
  | 19 => ⟨S262144x32, .f32⟩
  | 20 => ⟨S32x262144, .f32⟩
  | 21 => ⟨S2x32x1, .f32⟩
  | 22 => ⟨S2x32x1, .f32⟩
  | 23 => ⟨S2x32x1, .f32⟩
  | 24 => ⟨S2x32x1, .f32⟩
  | 25 => ⟨S2x32x1, .f32⟩
  | 26 => ⟨S_, .f32⟩
  | 27 => ⟨S32x1, .f32⟩
  | 28 => ⟨S32, .f32⟩
  | 29 => ⟨S_, .f32⟩
  | 30 => ⟨S32x1, .f32⟩
  | 31 => ⟨S32, .f32⟩
  | 32 => ⟨S_, .f32⟩
  | 33 => ⟨S32x1, .f32⟩
  | 34 => ⟨S32, .f32⟩
  | 35 => ⟨S_, .f32⟩
  | 36 => ⟨S32x1, .f32⟩
  | 37 => ⟨S32, .f32⟩
  | 38 => ⟨S_, .f32⟩
  | 39 => ⟨S32x1, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S32, .f32⟩
  | 48 => ⟨S32, .f32⟩
  | 49 => ⟨S32, .f32⟩
  | 50 => ⟨S_, .f32⟩
  | 51 => ⟨S_, .f32⟩
  | 52 => ⟨S_, .f32⟩
  | 53 => ⟨S_, .f32⟩
  | _ => ⟨S32x262144, .f32⟩

abbrev hbmTy (i : Nat) : BufTy := match i / 128 with
  | 0 => hbmTy0_0 i
  | 1 => hbmTy0_1 i
  | _ => ⟨S32x262144, .f32⟩

abbrev bufTy : (tb : Table) → Fin (tcTables nBuf tb) → BufTy
  | .hbm, ⟨i, _⟩ => hbmTy i
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x16384, .f32⟩
  | .local _ .vmem, ⟨5, _⟩ => ⟨S32x16384, .f32⟩
  | .local _ .vmem, ⟨6, _⟩ => ⟨S1x32x1, .f32⟩
  | .local _ .vmem, ⟨7, _⟩ => ⟨S1x32x1, .f32⟩
  | .local _ .vmem, ⟨8, _⟩ => ⟨S1x32x1, .f32⟩
  | .local _ .vmem, ⟨9, _⟩ => ⟨S1x32x1, .f32⟩
  | .local _ .vmem, ⟨10, _⟩ => ⟨S1x32x1, .f32⟩
  | .local _ .vmem, ⟨11, _⟩ => ⟨S1x32x1, .f32⟩
  | .local _ .vmem, ⟨12, _⟩ => ⟨S1x32x1, .f32⟩
  | .local _ .vmem, ⟨13, _⟩ => ⟨S1x32x1, .f32⟩
  | .local _ .vmem, ⟨14, _⟩ => ⟨S1x32x1, .f32⟩
  | .local _ .vmem, ⟨15, _⟩ => ⟨S1x32x1, .f32⟩
  | _, _ => ⟨S32x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_8 : Ref sig .tc := ⟨.hbm, 71, rfl⟩
abbrev main_v56 : Ref sig .tc := ⟨.hbm, 72, rfl⟩
abbrev main_v57 : Ref sig .tc := ⟨.hbm, 73, rfl⟩
abbrev main_c_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_11 : Ref sig .tc := ⟨.hbm, 91, rfl⟩
abbrev main_v73 : Ref sig .tc := ⟨.hbm, 92, rfl⟩
abbrev main_v74 : Ref sig .tc := ⟨.hbm, 93, rfl⟩
abbrev main_c_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_13 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_c_14 : Ref sig .tc := ⟨.hbm, 111, rfl⟩
abbrev main_v90 : Ref sig .tc := ⟨.hbm, 112, rfl⟩
abbrev main_v91 : Ref sig .tc := ⟨.hbm, 113, rfl⟩
abbrev main_c_15 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_16 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_c_17 : Ref sig .tc := ⟨.hbm, 131, rfl⟩
abbrev main_v107 : Ref sig .tc := ⟨.hbm, 132, rfl⟩
abbrev main_v108 : Ref sig .tc := ⟨.hbm, 133, rfl⟩
abbrev main_c_18 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_19 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122_0 : Ref sig .tc := ⟨.hbm, 149, rfl⟩
abbrev main_v122_1 : Ref sig .tc := ⟨.hbm, 150, rfl⟩
abbrev main_v122_2 : Ref sig .tc := ⟨.hbm, 151, rfl⟩
abbrev main_v122_3 : Ref sig .tc := ⟨.hbm, 152, rfl⟩
abbrev main_v122_4 : Ref sig .tc := ⟨.hbm, 153, rfl⟩
abbrev main_cst_20 : Ref sig .tc := ⟨.hbm, 154, rfl⟩
abbrev main_v123 : Ref sig .tc := ⟨.hbm, 155, rfl⟩
abbrev main_v124 : Ref sig .tc := ⟨.hbm, 156, rfl⟩
abbrev main_cst_21 : Ref sig .tc := ⟨.hbm, 157, rfl⟩
abbrev main_v125 : Ref sig .tc := ⟨.hbm, 158, rfl⟩
abbrev main_v126 : Ref sig .tc := ⟨.hbm, 159, rfl⟩
abbrev main_cst_22 : Ref sig .tc := ⟨.hbm, 160, rfl⟩
abbrev main_v127 : Ref sig .tc := ⟨.hbm, 161, rfl⟩
abbrev main_v128 : Ref sig .tc := ⟨.hbm, 162, rfl⟩
abbrev main_cst_23 : Ref sig .tc := ⟨.hbm, 163, rfl⟩
abbrev main_v129 : Ref sig .tc := ⟨.hbm, 164, rfl⟩
abbrev main_v130 : Ref sig .tc := ⟨.hbm, 165, rfl⟩
abbrev main_cst_24 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_25 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_26 : Ref sig .tc := ⟨.hbm, 178, rfl⟩
abbrev main_v141 : Ref sig .tc := ⟨.hbm, 179, rfl⟩
abbrev main_cst_27 : Ref sig .tc := ⟨.hbm, 180, rfl⟩
abbrev main_v142 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S32x262144_S262144x32_1_0 : S32x262144.Transposes [1, 0] S262144x32
  bcast_S_S262144x32 : S_.BroadcastsInDim S262144x32 (![] : Fin 0 → Fin S262144x32.rank)
  slices_S1835008_S262144_0 : S1835008.Slices ![0] S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x32_0_1 : S262144x1.BroadcastsInDim S262144x32 (![0, 1] : Fin 2 → Fin S262144x32.rank)
  slices_S1835008_S262144_262144 : S1835008.Slices ![262144] S262144
  slices_S1835008_S262144_524288 : S1835008.Slices ![524288] S262144
  slices_S1835008_S262144_786432 : S1835008.Slices ![786432] S262144
  slices_S1835008_S262144_1048576 : S1835008.Slices ![1048576] S262144
  slices_S1835008_S262144_1310720 : S1835008.Slices ![1310720] S262144
  slices_S1835008_S262144_1572864 : S1835008.Slices ![1572864] S262144
  transposes_S262144x32_S32x262144_1_0 : S262144x32.Transposes [1, 0] S32x262144
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  reduces_S32x16384_S32 : S32x16384.Reduces [1] S32
  shapeCasts_S32_S32x1 : S32.ShapeCasts S32x1
  reducesTo_S2x32x1_S32x1_d0 : S2x32x1.ReducesTo [0] S32x1
  h_S_ : 0 < S_.numel
  shapeCasts_S32x1_S32 : S32x1.ShapeCasts S32
  bcast_S_S32 : S_.BroadcastsInDim S32 (![] : Fin 0 → Fin S32.rank)
  reducesTo_S32_S_d0 : S32.ReducesTo [0] S_
  gather_S262144x32_S262144x1_S262144x32_1_0_n_n_0_1_132_wf : GatherDims.WF S262144x32 S262144x1 S262144x32 [1] [0] [] [0] [] 1 ![1, 32]
  scatter_S262144x32_S262144x1_S262144x32_1_0_0_1_wf : ScatterDims.WF S262144x32 S262144x1 S262144x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x262144.size a
  hwx0_0 : ∀ i : grid0.Coords, EltTy.bits .f32 = 32 ∨ (Rect.block (s := S32x262144) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x262144.size a
  hwx0_1 : ∀ i : grid0.Coords, EltTy.bits .f32 = 32 ∨ (Rect.block (s := S32x262144) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x262144.size a
  hwx0_2 : ∀ i : grid0.Coords, EltTy.bits .f32 = 32 ∨ (Rect.block (s := S32x262144) S32x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S2x32x1.size a
  hwx0_3 : ∀ i : grid0.Coords, EltTy.bits .f32 = 32 ∨ (Rect.block (s := S2x32x1) S1x32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1.size a ≤ S2x32x1.size a
  hwx0_4 : ∀ i : grid0.Coords, EltTy.bits .f32 = 32 ∨ (Rect.block (s := S2x32x1) S1x32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x1.size a ≤ S2x32x1.size a
  hwx0_5 : ∀ i : grid0.Coords, EltTy.bits .f32 = 32 ∨ (Rect.block (s := S2x32x1) S1x32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x1.size a ≤ S2x32x1.size a
  hwx0_6 : ∀ i : grid0.Coords, EltTy.bits .f32 = 32 ∨ (Rect.block (s := S2x32x1) S1x32x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x1.size a ≤ S2x32x1.size a
  hwx0_7 : ∀ i : grid0.Coords, EltTy.bits .f32 = 32 ∨ (Rect.block (s := S2x32x1) S1x32x1.size (cc0_transform_7 i) (hinb0_7 i)).WholeWords (EltTy.packing .f32)

variable [Facts₀]

def gather_S262144x32_S262144x1_S262144x32_1_0_n_n_0_1_132 : GatherDims S262144x32 S262144x1 S262144x32 where
  offsetDims := [1]
  collapsedSliceDims := [0]
  operandBatchingDims := []
  startIndicesBatchingDims := []
  startIndexMap := [0]
  indexVectorDim := 1
  sliceSizes := ![1, 32]
  wf := gather_S262144x32_S262144x1_S262144x32_1_0_n_n_0_1_132_wf
def scatter_S262144x32_S262144x1_S262144x32_1_0_0_1 : ScatterDims S262144x32 S262144x1 S262144x32 where
  updateWindowDims := [1]
  insertedWindowDims := [0]
  scatterDimsToOperandDims := [0]
  indexVectorDim := 1
  wf := scatter_S262144x32_S262144x1_S262144x32_1_0_0_1_wf

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v121) S32x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v122_0) S1x32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v122_1) S1x32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v122_2) S1x32x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v122_3) S1x32x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v122_4) S1x32x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x262144 : Shape := ⟨2, ![32, 262144]⟩
abbrev S1835008 : Shape := ⟨1, ![1835008]⟩
abbrev S_ : Shape := ⟨0, ![]⟩
abbrev S32 : Shape := ⟨1, ![32]⟩
abbrev S1835008x1 : Shape := ⟨2, ![1835008, 1]⟩
abbrev S32x1835008 : Shape := ⟨2, ![32, 1835008]⟩
abbrev S1x1835008 : Shape := ⟨2, ![1, 1835008]⟩
abbrev S1835008x32 : Shape := ⟨2, ![1835008, 32]⟩
abbrev S262144x32 : Shape := ⟨2, ![262144, 32]⟩
abbrev S32x1 : Shape := ⟨2, ![32, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x262144, .f32⟩
  | .hbm, ⟨1, _⟩ => ⟨S32x262144, .f32⟩
  | .hbm, ⟨2, _⟩ => ⟨S1835008, .f32⟩
  | .hbm, ⟨3, _⟩ => ⟨S1835008, .i32⟩
  | .hbm, ⟨4, _⟩ => ⟨S1835008, .i32⟩
  | .hbm, ⟨5, _⟩ => ⟨S32x262144, .f32⟩
  | .hbm, ⟨6, _⟩ => ⟨S_, .f32⟩
  | .hbm, ⟨7, _⟩ => ⟨S32, .f32⟩
  | .hbm, ⟨8, _⟩ => ⟨S_, .i32⟩
  | .hbm, ⟨9, _⟩ => ⟨S1835008, .i32⟩
  | .hbm, ⟨10, _⟩ => ⟨S1835008, .i1⟩
  | .hbm, ⟨11, _⟩ => ⟨S_, .i32⟩
  | .hbm, ⟨12, _⟩ => ⟨S1835008, .i32⟩
  | .hbm, ⟨13, _⟩ => ⟨S1835008, .i32⟩
  | .hbm, ⟨14, _⟩ => ⟨S1835008, .i32⟩
  | .hbm, ⟨15, _⟩ => ⟨S1835008x1, .i32⟩
  | .hbm, ⟨16, _⟩ => ⟨S32x1835008, .f32⟩
  | .hbm, ⟨17, _⟩ => ⟨S1x1835008, .f32⟩
  | .hbm, ⟨18, _⟩ => ⟨S32x1835008, .f32⟩
  | .hbm, ⟨19, _⟩ => ⟨S32x1835008, .f32⟩
  | .hbm, ⟨20, _⟩ => ⟨S1835008x32, .f32⟩
  | .hbm, ⟨21, _⟩ => ⟨S_, .f32⟩
  | .hbm, ⟨22, _⟩ => ⟨S262144x32, .f32⟩
  | .hbm, ⟨23, _⟩ => ⟨S1835008x1, .i32⟩
  | .hbm, ⟨24, _⟩ => ⟨S262144x32, .f32⟩
  | .hbm, ⟨25, _⟩ => ⟨S32x262144, .f32⟩
  | .hbm, ⟨26, _⟩ => ⟨S32x262144, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32x1, .f32⟩
  | .hbm, ⟨31, _⟩ => ⟨S32x262144, .f32⟩
  | .hbm, ⟨32, _⟩ => ⟨S32x262144, .f32⟩
  | .hbm, ⟨33, _⟩ => ⟨S32x262144, .f32⟩
  | .hbm, ⟨34, _⟩ => ⟨S32x262144, .f32⟩
  | .hbm, ⟨35, _⟩ => ⟨S_, .f32⟩
  | .hbm, ⟨36, _⟩ => ⟨S32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S32x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S32x262144_S32_d1 : S32x262144.ReducesTo [1] S32
  h_S_ : 0 < S_.numel
  bcast_S_S1835008 : S_.BroadcastsInDim S1835008 (![] : Fin 0 → Fin S1835008.rank)
  bcast_S1835008_S1835008x1_0 : S1835008.BroadcastsInDim S1835008x1 (![0] : Fin 1 → Fin S1835008x1.rank)
  bcast_S1835008_S1x1835008_1 : S1835008.BroadcastsInDim S1x1835008 (![1] : Fin 1 → Fin S1x1835008.rank)
  bcast_S1x1835008_S32x1835008_0_1 : S1x1835008.BroadcastsInDim S32x1835008 (![0, 1] : Fin 2 → Fin S32x1835008.rank)
  transposes_S32x1835008_S1835008x32_1_0 : S32x1835008.Transposes [1, 0] S1835008x32
  bcast_S_S262144x32 : S_.BroadcastsInDim S262144x32 (![] : Fin 0 → Fin S262144x32.rank)
  transposes_S262144x32_S32x262144_1_0 : S262144x32.Transposes [1, 0] S32x262144
  bcast_S32_S32x1_0 : S32.BroadcastsInDim S32x1 (![0] : Fin 1 → Fin S32x1.rank)
  bcast_S32x1_S32x262144_0_1 : S32x1.BroadcastsInDim S32x262144 (![0, 1] : Fin 2 → Fin S32x262144.rank)
  reducesTo_S32_S_d0 : S32.ReducesTo [0] S_
  gather_S32x262144_S1835008x1_S32x1835008_0_1_n_n_1_1_321_wf : GatherDims.WF S32x262144 S1835008x1 S32x1835008 [0] [1] [] [1] [] 1 ![32, 1]
  scatter_S262144x32_S1835008x1_S1835008x32_1_0_0_1_wf : ScatterDims.WF S262144x32 S1835008x1 S1835008x32 [1] [0] [0] 1

variable [Facts₀]

def gather_S32x262144_S1835008x1_S32x1835008_0_1_n_n_1_1_321 : GatherDims S32x262144 S1835008x1 S32x1835008 where
  offsetDims := [0]
  collapsedSliceDims := [1]
  operandBatchingDims := []
  startIndicesBatchingDims := []
  startIndexMap := [1]
  indexVectorDim := 1
  sliceSizes := ![32, 1]
  wf := gather_S32x262144_S1835008x1_S32x1835008_0_1_n_n_1_1_321_wf
def scatter_S262144x32_S1835008x1_S1835008x32_1_0_0_1 : ScatterDims S262144x32 S1835008x1 S1835008x32 where
  updateWindowDims := [1]
  insertedWindowDims := [0]
  scatterDimsToOperandDims := [0]
  indexVectorDim := 1
  wf := scatter_S262144x32_S1835008x1_S1835008x32_1_0_0_1_wf

class Facts : Prop extends Facts₀ where

variable [Facts]
-- ==== Proof.Spec.lean ====
/-
  THE MATHEMATICS OF THE RIDGE LOSS, stated once over the argument arrays and read at the extended reals.

  `yp`, `yt : [32, 262144]` are the predictions and the targets, `v : [1835008]` the values of a sparse matrix `A`
  in coordinate form, `rows`, `cols : [1835008]` its row and column indices (32-bit words).  Entry `e` of the matrix
  reads column `col e` — its column word wrapped (a negative word has `262144` added) and clamped into
  `[0, 262143]`, the way an indexed read treats it — and lands on the row whose number equals its row word read
  signed; an entry whose row word names no row lands nowhere.

    `ya b n   = ∑ (e lands on n) yp b (col e) · v e`                       (the product  A · yp[b])
    `dot f g b = ∑ n, f b n · g b n`
    `alpha b  = dot yt yp b / dot yp ya b`
    `lossSq   = (∑ b, ∑ n, (yt b n − alpha b · ya b n)²) / 32`              (the residual squared and summed)
    `lossQuad = (∑ b, (dot yt yt b − (2 · alpha b) · dot yt ya b) + (alpha b · alpha b) · dot ya ya b) / 32`
                                                                            (the same square, expanded)
  The two losses are the two programs' last lines; `Algebra.lean` proves them equal where every float input is a
  real number and no denominator `dot yp ya b` is zero.
-/
import Idealize.ShloMosaic.Lib.ValueIdx
import Idealize.ShloMosaic.PureOps.Ideal

noncomputable section

open scoped BigOperators

namespace RidgeSpec

open Idealize.ShloMosaic Idealize.ShloMosaic.ValueIdx

/-- The shape of the predictions and of the targets: 32 batch rows of 262144 unknowns. -/
abbrev SBN : Shape := ⟨2, ![32, 262144]⟩
/-- The shape of the matrix's coordinate lists: 7 · 262144 entries. -/
abbrev SE : Shape := ⟨1, ![1835008]⟩

/-- An index word wrapped as an indexed read wraps it: a negative word (read signed) has the extent `262144` added. -/
def wrap (c : BitVec 32) : BitVec 32 := Scalar.select (IntOp.cmpi .slt c 0#32) (IntOp.addi c 262144#32) c

/-- A word clamped into the range of the 262144 unknowns (read signed; below `0` goes to `0`, above to `262143`). -/
def clamp (c : BitVec 32) : Fin 262144 := ⟨min c.toInt.toNat (262144 - 1), by omega⟩

/-- The column that entry `e` of the matrix reads: its column word wrapped, then clamped. -/
def col (cols : SE.Idx → BitVec 32) (e : Fin 1835008) : Fin 262144 := clamp (wrap (cols (ix1 e)))

/-- The entries of the matrix that land on row `n`: those whose row word, read signed, is `n`. -/
def lands (rows : SE.Idx → BitVec 32) (n : Fin 262144) : Finset (Fin 1835008) :=
  Finset.univ.filter (fun e : Fin 1835008 => (rows (ix1 e)).toInt = (n.val : ℤ))

/-- The sparse product `A · yp[b]` at row `n`. -/
def ya (yp : SBN.Idx → EReal) (v : SE.Idx → EReal) (rows cols : SE.Idx → BitVec 32) (b : Fin 32) (n : Fin 262144) : EReal :=
  ∑ e ∈ lands rows n, yp (ix2 b (col cols e)) * v (ix1 e)

/-- The same product laid out as the array `[32, 262144]`. -/
def yaArr (yp : SBN.Idx → EReal) (v : SE.Idx → EReal) (rows cols : SE.Idx → BitVec 32) : SBN.Idx → EReal :=
  fun i => ya yp v rows cols (i 0) (i 1)

/-- The dot product of row `b` of two arrays. -/
def dot (f g : SBN.Idx → EReal) (b : Fin 32) : EReal := ∑ n : Fin 262144, f (ix2 b n) * g (ix2 b n)

/-- The denominator of the fitted scale: `⟨yp[b], A · yp[b]⟩`. -/
def den (yp : SBN.Idx → EReal) (v : SE.Idx → EReal) (rows cols : SE.Idx → BitVec 32) (b : Fin 32) : EReal :=
  dot yp (yaArr yp v rows cols) b

/-- The fitted scale of batch row `b`: `⟨yt[b], yp[b]⟩ / ⟨yp[b], A · yp[b]⟩`. -/
def alpha (yp yt : SBN.Idx → EReal) (v : SE.Idx → EReal) (rows cols : SE.Idx → BitVec 32) (b : Fin 32) : EReal :=
  Ideal.div (dot yt yp b) (den yp v rows cols b)

/-- The loss as the residual squared and summed: the mean over the batch of `∑ n, (yt − alpha · ya)²`. -/
def lossSq (yp yt : SBN.Idx → EReal) (v : SE.Idx → EReal) (rows cols : SE.Idx → BitVec 32) : EReal :=
  Ideal.div (∑ b : Fin 32, ∑ n : Fin 262144,
      (yt (ix2 b n) - alpha yp yt v rows cols b * ya yp v rows cols b n)
        * (yt (ix2 b n) - alpha yp yt v rows cols b * ya yp v rows cols b n))
    (Ideal.ofBits .f32 0x42000000#32)

/-- The loss with the square expanded: the mean over the batch of
    `(⟨yt, yt⟩ − (2 · alpha) · ⟨yt, ya⟩) + (alpha · alpha) · ⟨ya, ya⟩`. -/
def lossQuad (yp yt : SBN.Idx → EReal) (v : SE.Idx → EReal) (rows cols : SE.Idx → BitVec 32) : EReal :=
  Ideal.div (∑ b : Fin 32,
      ((dot yt yt b - (Ideal.ofBits .f32 0x40000000#32 * alpha yp yt v rows cols b) * dot yt (yaArr yp v rows cols) b)
        + (alpha yp yt v rows cols b * alpha yp yt v rows cols b) * dot (yaArr yp v rows cols) (yaArr yp v rows cols) b))
    (Ideal.ofBits .f32 0x42000000#32)

end RidgeSpec

end
-- ==== Proof.Algebra.lean ====
/-
  THE TWO FORMS OF THE LOSS AGREE where every float input is a real number and no denominator is zero.

  With real inputs every entry of the sparse product is a finite sum of products of reals, hence real; so are the five
  dot products; a nonzero real denominator makes the fitted scale `a = ⟨yt, yp⟩ / ⟨yp, ya⟩` real; and over the reals

      ∑ n, (t n − a · y n)² = ∑ n, t n² − (2 a) · ∑ n, t n · y n + (a · a) · ∑ n, y n²,

  the square expanded term by term and the constant factors moved out of the sums.  (Over the extended reals the identity
  FAILS at a zero denominator: the scale is then infinite, and `(… − ∞) + ∞` is `−∞` where the sum of squares is `+∞`.)
-/
import proofs.«111848_j11364483465834_2_alg».proof.Proof.Spec

noncomputable section

open scoped BigOperators

namespace RidgeSpec

open Idealize.ShloMosaic Idealize.ShloMosaic.ValueIdx

/-- The float word of `2.0` denotes the real number `2`. -/
theorem ofBits_two : Ideal.ofBits .f32 0x40000000#32 = ((2 : ℝ) : EReal) := by
  simp [Ideal.ofBits, Ideal.ieee, -EReal.coe_mul]; norm_num

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of a residual, summed, with the square expanded: over the reals. -/
theorem sq_expand {ι : Type*} (s : Finset ι) (t y : ι → ℝ) (a : ℝ) :
    ∑ n ∈ s, (t n - a * y n) * (t n - a * y n)
      = ((∑ n ∈ s, t n * t n) - (2 * a) * ∑ n ∈ s, t n * y n) + (a * a) * ∑ n ∈ s, y n * y n := by
  rw [Finset.mul_sum, Finset.mul_sum, ← Finset.sum_sub_distrib, ← Finset.sum_add_distrib]
  exact Finset.sum_congr rfl fun n _ => by ring

/-- A dot product of two arrays of reals is the real dot product. -/
theorem dot_coe (f g : SBN.Idx → ℝ) (b : Fin 32) :
    dot (fun i => (f i : EReal)) (fun i => (g i : EReal)) b = ((∑ n : Fin 262144, f (ix2 b n) * g (ix2 b n) : ℝ) : EReal) := by
  unfold dot
  rw [coe_sum]
  exact Finset.sum_congr rfl fun n _ => (EReal.coe_mul _ _).symm

/-- THE TWO FORMS AGREE. -/
theorem loss_eq (yp yt : SBN.Idx → EReal) (v : SE.Idx → EReal) (rows cols : SE.Idx → BitVec 32)
    (hyp : ∀ i, ∃ r : ℝ, yp i = (r : EReal)) (hyt : ∀ i, ∃ r : ℝ, yt i = (r : EReal)) (hv : ∀ i, ∃ r : ℝ, v i = (r : EReal))
    (hden : ∀ b : Fin 32, den yp v rows cols b ≠ 0) :
    lossSq yp yt v rows cols = lossQuad yp yt v rows cols := by
  choose p hp using hyp
  choose t ht using hyt
  choose w hw using hv
  obtain rfl : yp = fun i => (p i : EReal) := funext hp
  obtain rfl : yt = fun i => (t i : EReal) := funext ht
  obtain rfl : v = fun i => (w i : EReal) := funext hw
  -- the sparse product is real
  have hya : ∀ b n, ya (fun i => (p i : EReal)) (fun i => (w i : EReal)) rows cols b n
      = ((∑ e ∈ lands rows n, p (ix2 b (col cols e)) * w (ix1 e) : ℝ) : EReal) := fun b n => by
    unfold ya
    rw [coe_sum]
    exact Finset.sum_congr rfl fun e _ => (EReal.coe_mul _ _).symm
  have hyaArr : yaArr (fun i => (p i : EReal)) (fun i => (w i : EReal)) rows cols
      = fun i => ((∑ e ∈ lands rows (i 1), p (ix2 (i 0) (col cols e)) * w (ix1 e) : ℝ) : EReal) :=
    funext fun i => hya (i 0) (i 1)
  -- the denominators are nonzero reals, so the scales are real
  have hD : ∀ b : Fin 32, (∑ n : Fin 262144, p (ix2 b n) * ∑ e ∈ lands rows n, p (ix2 b (col cols e)) * w (ix1 e)) ≠ 0 := by
    intro b h0
    apply hden b
    unfold den
    rw [hyaArr, dot_coe p (fun i => ∑ e ∈ lands rows (i 1), p (ix2 (i 0) (col cols e)) * w (ix1 e)) b]
    exact congrArg _ h0
  have halpha : ∀ b : Fin 32, alpha (fun i => (p i : EReal)) (fun i => (t i : EReal)) (fun i => (w i : EReal)) rows cols b
      = (((∑ n : Fin 262144, t (ix2 b n) * p (ix2 b n))
          * (1 / ∑ n : Fin 262144, p (ix2 b n) * ∑ e ∈ lands rows n, p (ix2 b (col cols e)) * w (ix1 e)) : ℝ) : EReal) := by
    intro b
    unfold alpha den
    rw [hyaArr, dot_coe p (fun i => ∑ e ∈ lands rows (i 1), p (ix2 (i 0) (col cols e)) * w (ix1 e)) b, dot_coe t p b,
      Ideal.div_coe (hD b), ← EReal.coe_mul]
  unfold lossSq lossQuad
  refine congrArg (fun x => Ideal.div x (Ideal.ofBits .f32 0x42000000#32)) ?_
  refine Finset.sum_congr rfl fun b _ => ?_
  rw [hyaArr, dot_coe t t b, dot_coe t (fun i => ∑ e ∈ lands rows (i 1), p (ix2 (i 0) (col cols e)) * w (ix1 e)) b,
    dot_coe (fun i => ∑ e ∈ lands rows (i 1), p (ix2 (i 0) (col cols e)) * w (ix1 e))
      (fun i => ∑ e ∈ lands rows (i 1), p (ix2 (i 0) (col cols e)) * w (ix1 e)) b, halpha b, ofBits_two]
  simp only [hya]
  simp only [← EReal.coe_mul, ← EReal.coe_sub, ← EReal.coe_add, ← coe_sum]
  exact congrArg _ (sq_expand Finset.univ _ _ _)

end RidgeSpec

end
-- ==== Proof.LibRowGatherScatter.lean ====
/-
  ROW GATHER AND ROW SCATTER-ADD READ AT AN INDEX.

  Two host shape operations with fixed dimension numbers, for generic extents `N`, `M`, `C`:

  * the gather of WHOLE ROWS of a matrix `[N, C]` at a column `[M, 1]` of start indices: result element `(e, k)` is the
    operand at row `clamp (idx[e, 0])` — the start index read as a signed integer and clamped into `[0, N − 1]` — and
    column `k`;
  * the scatter-ADD of `M` update rows `[M, C]` into a matrix `[N, C]` at a column `[M, 1]` of scatter indices, over the
    extended reals: element `(i, k)` of the result is the operand's `(i, k)` plus the sum of the update elements `(e, k)`
    over the `e` whose index `idx[e, 0]`, read signed and NOT clamped, equals `i` (an update landing outside is dropped).
-/
import Idealize.ShloMosaic.Lib.ValueIdx

noncomputable section

open scoped BigOperators

namespace RowGatherScatter

open Idealize.ShloMosaic Idealize.ShloMosaic.ValueIdx

/-! ## The gather of whole rows -/

section Gather
variable {α : Type}

/-- The dimension numbers of a gather of whole rows: operand `[N, C]`, start indices `[M, 1]` (one scalar row index per
    result row, on the index vector's axis 1), result `[M, C]`; the operand's axis 0 is collapsed and indexed, the result's
    axis 1 is the offset axis running over a whole row (slice sizes `[1, C]`). -/
abbrev rowGather (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, and
    column `k`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowGather N M C wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGather N M C wf).start (ix2 e k) idx 0 + (rowGather N M C wf).batchCoord (ix2 e k) 0
      + (rowGather N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wf).startIndexMap from List.mem_singleton.mpr rfl)]
    have hsi : (rowGather N M C wf).siIdx (ix2 e k) ⟨List.idxOf (0 : Fin 2) (rowGather N M C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGather N M C wf).start (ix2 e k) idx 1 + (rowGather N M C wf).batchCoord (ix2 e k) 1
      + (rowGather N M C wf).offCoord (ix2 e k) 1 = _
    rw [GatherDims.batchCoord_eq_zero _ _ _ List.not_mem_nil]
    unfold GatherDims.start
    rw [dif_neg (show (1 : Fin 2) ∉ (rowGather N M C wf).startIndexMap from
      fun h => absurd (List.mem_singleton.mp h) (show (1 : Fin 2) ≠ 0 by decide))]
    simp only [Nat.add_zero, Nat.zero_add]
    rfl

end Gather

/-! ## The scatter-add of rows -/

section Scatter

/-- The dimension numbers of a scatter of rows: operand `[N, C]`, scatter indices `[M, 1]` (one scalar row index per
    update row, on the index vector's axis 1), updates `[M, C]`; the operand's axis 0 is inserted and indexed, the
    updates' axis 1 is the window axis running over a whole row. -/
abbrev rowScatter (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the row axis the window of update `(e, k)` starts at the scatter index `idx[e, 0]`, read signed. -/
theorem rowScatter_start_zero (idx : IVec ⟨2, ![M, 1]⟩ w) (e : Fin M) (k : Fin C) :
    (rowScatter N M C wf).start (ix2 e k) idx 0 = (idx (ix2 e ⟨0, Nat.one_pos⟩)).toInt := by
  unfold ScatterDims.start
  rw [dif_pos (show (0 : Fin 2) ∈ (rowScatter N M C wf).scatterDimsToOperandDims from List.mem_singleton.mpr rfl)]
  have hsi : (rowScatter N M C wf).siIdx (ix2 e k) ⟨List.idxOf (0 : Fin 2) (rowScatter N M C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which the scatter index does not name, the window starts at `0`. -/
theorem rowScatter_start_one (idx : IVec ⟨2, ![M, 1]⟩ w) (e : Fin M) (k : Fin C) :
    (rowScatter N M C wf).start (ix2 e k) idx 1 = 0 := by
  unfold ScatterDims.start
  rw [dif_neg (show (1 : Fin 2) ∉ (rowScatter N M C wf).scatterDimsToOperandDims from
    fun h => absurd (List.mem_singleton.mp h) (show (1 : Fin 2) ≠ 0 by decide))]

/-- The row axis is inserted: the window coordinate there is `0`. -/
theorem rowScatter_window_zero (e : Fin M) (k : Fin C) :
    (rowScatter N M C wf).window (ix2 e k) 0 = 0 := by
  unfold ScatterDims.window
  rw [dif_neg (show (0 : Fin 2) ∉ (rowScatter N M C wf).sKept from
    fun h => (of_decide_eq_true (List.mem_filter.mp h).2) (List.mem_singleton.mpr rfl))]

/-- The column axis is the window axis: the window coordinate there is the update's column. -/
theorem rowScatter_window_one (e : Fin M) (k : Fin C) :
    (rowScatter N M C wf).window (ix2 e k) 1 = k.val := by
  unfold ScatterDims.window
  rw [dif_pos (show (1 : Fin 2) ∈ (rowScatter N M C wf).sKept from
    List.mem_filter.mpr ⟨List.mem_finRange _, decide_eq_true
      (fun h => absurd (List.mem_singleton.mp h) (show (1 : Fin 2) ≠ 0 by decide))⟩)]
  rfl

/-- WHERE AN UPDATE LANDS: update `(e, k)` lands at operand element `(i, k')` exactly when its scatter index
    `idx[e, 0]`, read signed, is `i`, and `k = k'`. -/
theorem rowScatter_resultIdx?_eq_some_iff (idx : IVec ⟨2, ![M, 1]⟩ w) (e : Fin M) (k : Fin C) (i : Fin N) (k' : Fin C) :
    (rowScatter N M C wf).resultIdx? (ix2 e k) idx = some (ix2 i k')
      ↔ ((idx (ix2 e ⟨0, Nat.one_pos⟩)).toInt = (i.val : ℤ) ∧ k = k') := by
  have h0s := rowScatter_start_zero wf idx e k
  have h1s := rowScatter_start_one wf idx e k
  have h0w := rowScatter_window_zero wf e k
  have h1w := rowScatter_window_one wf e k
  unfold ScatterDims.resultIdx?
  split_ifs with h
  · rw [Option.some.injEq]
    constructor
    · intro heq
      have e0 : ((rowScatter N M C wf).start (ix2 e k) idx 0 + (rowScatter N M C wf).window (ix2 e k) 0).toNat = i.val :=
        congrArg (fun f => (f 0).val) heq
      have e1 : ((rowScatter N M C wf).start (ix2 e k) idx 1 + (rowScatter N M C wf).window (ix2 e k) 1).toNat = k'.val :=
        congrArg (fun f => (f 1).val) heq
      have p0 := (h 0).1
      rw [h0s, h0w] at e0 p0
      rw [h1s, h1w] at e1
      exact ⟨by omega, Fin.ext (by omega)⟩
    · rintro ⟨hi, rfl⟩
      funext a; refine Fin.ext ?_
      match a with
      | ⟨0, _⟩ =>
        show ((rowScatter N M C wf).start (ix2 e k) idx 0 + (rowScatter N M C wf).window (ix2 e k) 0).toNat = i.val
        rw [h0s, h0w, hi]; omega
      | ⟨1, _⟩ =>
        show ((rowScatter N M C wf).start (ix2 e k) idx 1 + (rowScatter N M C wf).window (ix2 e k) 1).toNat = k.val
        rw [h1s, h1w]; omega
  · constructor
    · intro h'; exact absurd h' (by simp)
    · rintro ⟨hi, rfl⟩
      exfalso; apply h; intro a
      match a with
      | ⟨0, _⟩ =>
        show 0 ≤ (rowScatter N M C wf).start (ix2 e k) idx 0 + (rowScatter N M C wf).window (ix2 e k) 0
          ∧ (rowScatter N M C wf).start (ix2 e k) idx 0 + (rowScatter N M C wf).window (ix2 e k) 0 < (N : ℤ)
        rw [h0s, h0w, hi]; have := i.isLt; omega
      | ⟨1, _⟩ =>
        show 0 ≤ (rowScatter N M C wf).start (ix2 e k) idx 1 + (rowScatter N M C wf).window (ix2 e k) 1
          ∧ (rowScatter N M C wf).start (ix2 e k) idx 1 + (rowScatter N M C wf).window (ix2 e k) 1 < (C : ℤ)
        rw [h1s, h1w]; have := k.isLt; omega

/-- THE ROW SCATTER-ADD READ AT `(i, k)`: the operand's element plus the sum of the update elements `(e, k)` over the
    `e` whose scatter index `idx[e, 0]`, read signed and not clamped, is `i`. -/
theorem rowScatterAdd_apply (x : (⟨2, ![N, C]⟩ : Shape).Idx → EReal) (idx : IVec ⟨2, ![M, 1]⟩ w)
    (upd : (⟨2, ![M, C]⟩ : Shape).Idx → EReal) (i : Fin N) (k : Fin C) :
    Ideal.hostScatterAdd (rowScatter N M C wf) x idx upd (ix2 i k)
      = x (ix2 i k) + ∑ e ∈ Finset.univ.filter (fun e : Fin M => (idx (ix2 e ⟨0, Nat.one_pos⟩)).toInt = (i.val : ℤ)),
          upd (ix2 e k) := by
  unfold Ideal.hostScatterAdd
  congr 1
  rw [Finset.sum_filter, sum_idx2, Finset.sum_filter]
  refine Finset.sum_congr rfl (fun e _ => ?_)
  simp only [rowScatter_resultIdx?_eq_some_iff]
  by_cases hi : (idx (ix2 e ⟨0, Nat.one_pos⟩)).toInt = (i.val : ℤ)
  · simp only [hi, true_and, if_true]
    rw [Finset.sum_ite_eq']
    simp
  · simp only [hi, false_and, if_false, Finset.sum_const_zero]

end Scatter

end RowGatherScatter

end
-- ==== Proof.LibColGather.lean ====
/-
  THE GATHER OF WHOLE COLUMNS READ AT AN INDEX.

  A host gather with fixed dimension numbers, for generic extents `B`, `N`, `M`: the operand is a matrix `[B, N]`,
  the start indices a column `[M, 1]` (one scalar column index per result column), the result `[B, M]`.  Result
  element `(b, e)` is the operand at row `b` and column `clamp (idx[e, 0])` — the start index read as a signed
  integer and clamped into `[0, N − 1]`.
-/
import Idealize.ShloMosaic.Lib.ValueIdx

noncomputable section

open scoped BigOperators

namespace ColGather

open Idealize.ShloMosaic Idealize.ShloMosaic.ValueIdx

variable {α : Type}

/-- The dimension numbers of a gather of whole columns: operand `[B, N]`, start indices `[M, 1]` (one scalar column
    index per result column, on the index vector's axis 1), result `[B, M]`; the operand's axis 1 is collapsed and
    indexed, the result's axis 0 is the offset axis running over a whole column (slice sizes `[B, 1]`). -/
abbrev colGather (B N M : Nat)
    (wf : GatherDims.WF ⟨2, ![B, N]⟩ ⟨2, ![M, 1]⟩ ⟨2, ![B, M]⟩ [0] [1] [] [1] [] 1 ![B, 1]) :
    GatherDims ⟨2, ![B, N]⟩ ⟨2, ![M, 1]⟩ ⟨2, ![B, M]⟩ where
  offsetDims := [0]
  collapsedSliceDims := [1]
  operandBatchingDims := []
  startIndicesBatchingDims := []
  startIndexMap := [1]
  indexVectorDim := 1
  sliceSizes := ![B, 1]
  wf := wf

/-- THE COLUMN GATHER READ AT `(b, e)`: the operand at row `b` and column `idx[e, 0]`, read signed and clamped into
    `[0, N − 1]`. -/
theorem colGather_apply {B N M w : Nat} (hN : 0 < N)
    (wf : GatherDims.WF ⟨2, ![B, N]⟩ ⟨2, ![M, 1]⟩ ⟨2, ![B, M]⟩ [0] [1] [] [1] [] 1 ![B, 1])
    (x : (⟨2, ![B, N]⟩ : Shape).Idx → α) (idx : IVec ⟨2, ![M, 1]⟩ w) (b : Fin B) (e : Fin M) :
    Host.gather (colGather B N M wf) x idx (ix2 b e)
      = x (ix2 b ⟨min (idx (ix2 e ⟨0, Nat.one_pos⟩)).toInt.toNat (N - 1), by omega⟩) := by
  unfold Host.gather
  congr 1
  funext a
  refine Fin.ext ?_
  match a with
  | ⟨0, _⟩ =>
    show (colGather B N M wf).start (ix2 b e) idx 0 + (colGather B N M wf).batchCoord (ix2 b e) 0
      + (colGather B N M wf).offCoord (ix2 b e) 0 = _
    rw [GatherDims.batchCoord_eq_zero _ _ _ List.not_mem_nil]
    unfold GatherDims.start
    rw [dif_neg (show (0 : Fin 2) ∉ (colGather B N M wf).startIndexMap from
      fun h => absurd (List.mem_singleton.mp h) (show (0 : Fin 2) ≠ 1 by decide))]
    simp only [Nat.add_zero, Nat.zero_add]
    rfl
  | ⟨1, _⟩ =>
    show (colGather B N M wf).start (ix2 b e) idx 1 + (colGather B N M wf).batchCoord (ix2 b e) 1
      + (colGather B N M wf).offCoord (ix2 b e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGather B N M wf).startIndexMap from List.mem_singleton.mpr rfl)]
    have hsi : (colGather B N M wf).siIdx (ix2 b e) ⟨List.idxOf (1 : Fin 2) (colGather B N M wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl

end ColGather

end
-- ==== Proof.YaStage.lean ====
/-
  THE SPARSE PRODUCT `A · yp[b]` AS THE TWO PROGRAMS' HOST OPERATIONS COMPUTE IT, READ AT AN INDEX.

  Both the reference and the precondition compute the array `ya : [32, 262144]` of `Spec.lean` by the same chain of
  host operations: the column words wrapped (a negative word has `262144` added), a gather of whole columns of `yp`
  at them, a product with the matrix values broadcast over the batch, a transpose, a scatter-add of the rows of that
  product into zeros at the row words, and a transpose back.  Read at `(b, n)` the chain is
  `∑ (e lands on n) yp b (col e) · v e`.  Stated over the literal shapes with the shape relations as arbitrary
  hypotheses, so that it applies to either program's copy of the chain; then the host sum of `yp · ya` along a row is
  the denominator `den`.
-/
import proofs.«111848_j11364483465834_2_alg».proof.Proof.Spec
import proofs.«111848_j11364483465834_2_alg».proof.Proof.LibRowGatherScatter
import proofs.«111848_j11364483465834_2_alg».proof.Proof.LibColGather
import Idealize.ShloMosaic.Lib.Pipeline.Value
import Idealize.ShloMosaic.PureOps.Ideal.Laws

noncomputable section

open scoped BigOperators

namespace RidgeStage

open Idealize.ShloMosaic Idealize.ShloMosaic.ValueIdx RidgeSpec

/-- The scalar shape. -/
abbrev S0 : Shape := ⟨0, ![]⟩
/-- One value per batch row. -/
abbrev SB : Shape := ⟨1, ![32]⟩
/-- The coordinate lists as a column. -/
abbrev SEx1 : Shape := ⟨2, ![1835008, 1]⟩
/-- One value per batch row and matrix entry. -/
abbrev SBxE : Shape := ⟨2, ![32, 1835008]⟩
/-- The coordinate lists as a row. -/
abbrev S1xE : Shape := ⟨2, ![1, 1835008]⟩
/-- One value per matrix entry and batch row. -/
abbrev SExB : Shape := ⟨2, ![1835008, 32]⟩
/-- One value per unknown and batch row. -/
abbrev SNxB : Shape := ⟨2, ![262144, 32]⟩

section Layout
variable {α : Type}

/-- A list laid out as a column, read at `(e, 0)`, is the list at `e`. -/
theorem col1_apply (hb1 : SE.BroadcastsInDim SEx1 (![0] : Fin 1 → Fin SEx1.rank)) (x : SE.Idx → α) (e : Fin 1835008) :
    broadcastInDim SEx1 ![0] hb1 x (ix2 e ⟨0, Nat.one_pos⟩) = x (ix1 e) :=
  broadcastInDim_apply _ hb1 x _ (ix1 e) (fun a => match a with
    | ⟨0, _⟩ => by show e.val = if (1835008 : Nat) = 1 then 0 else e.val; rw [if_neg (by decide)])

/-- A list laid out as a row and repeated over the batch, read at `(b, e)`, is the list at `e`. -/
theorem vbcast_apply (hb2 : SE.BroadcastsInDim S1xE (![1] : Fin 1 → Fin S1xE.rank))
    (hb3 : S1xE.BroadcastsInDim SBxE (![0, 1] : Fin 2 → Fin SBxE.rank)) (v : SE.Idx → α) (b : Fin 32) (e : Fin 1835008) :
    broadcastInDim SBxE ![0, 1] hb3 (broadcastInDim S1xE ![1] hb2 v) (ix2 b e) = v (ix1 e) := by
  rw [broadcastInDim_apply _ hb3 _ (ix2 b e) (ix2 ⟨0, Nat.one_pos⟩ e) (fun a => match a with
    | ⟨0, _⟩ => by show 0 = if (1 : Nat) = 1 then 0 else b.val; rw [if_pos rfl]
    | ⟨1, _⟩ => by show e.val = if (1835008 : Nat) = 1 then 0 else e.val; rw [if_neg (by decide)])]
  exact broadcastInDim_apply _ hb2 v _ (ix1 e) (fun a => match a with
    | ⟨0, _⟩ => by show e.val = if (1835008 : Nat) = 1 then 0 else e.val; rw [if_neg (by decide)])

/-- The transpose `[32, 1835008] → [1835008, 32]` read at `(e, b)`. -/
theorem tr1_apply (ht1 : SBxE.Transposes [1, 0] SExB) (y : SBxE.Idx → α) (e : Fin 1835008) (b : Fin 32) :
    transpose SExB [1, 0] y ht1 (ix2 e b) = y (ix2 b e) :=
  transpose_apply [1, 0] y ht1 (ix2 e b) (ix2 b e) (fun c => match c with
    | ⟨0, _⟩ => rfl
    | ⟨1, _⟩ => rfl)

/-- The transpose `[262144, 32] → [32, 262144]` read at `(b, n)`. -/
theorem tr2_apply (ht2 : SNxB.Transposes [1, 0] SBN) (y : SNxB.Idx → α) (b : Fin 32) (n : Fin 262144) :
    transpose SBN [1, 0] y ht2 (ix2 b n) = y (ix2 n b) :=
  transpose_apply [1, 0] y ht2 (ix2 b n) (ix2 n b) (fun c => match c with
    | ⟨0, _⟩ => rfl
    | ⟨1, _⟩ => rfl)

end Layout

/-- A word repeated over the coordinate list reads that word everywhere. -/
theorem bcastI_apply (hb0 : S0.BroadcastsInDim SE (![] : Fin 0 → Fin SE.rank)) (c : BitVec 32) (j : SE.Idx) :
    broadcastInDim SE ![] hb0 (constantI S0 32 c) j = c :=
  broadcastInDim_apply _ hb0 (constantI S0 32 c) j ix0 (fun a => a.elim0)

/-- The zero float repeated over `[262144, 32]` is the extended real `0` everywhere. -/
theorem zeros_apply (hb4 : S0.BroadcastsInDim SNxB (![] : Fin 0 → Fin SNxB.rank)) (j : SNxB.Idx) :
    broadcastInDim SNxB ![] hb4 (constant (F := Ideal) S0 .f32 0x00000000#32) j = 0 := by
  rw [broadcastInDim_apply _ hb4 _ j ix0 (fun a => a.elim0)]
  exact Ideal.ofBits_zero_f32

/-- The column words as the gather reads them: wrapped, laid out as a column; at `(e, 0)` the wrapped word of entry `e`. -/
theorem wrapIdx_apply (hb0 : S0.BroadcastsInDim SE (![] : Fin 0 → Fin SE.rank))
    (hb1 : SE.BroadcastsInDim SEx1 (![0] : Fin 1 → Fin SEx1.rank)) (cols : IVec SE 32) (e : Fin 1835008) :
    broadcastInDim SEx1 ![0] hb1 (select (cmpi .slt cols (broadcastInDim SE ![] hb0 (constantI S0 32 0#32)))
      (addi cols (broadcastInDim SE ![] hb0 (constantI S0 32 262144#32))) cols) (ix2 e ⟨0, Nat.one_pos⟩)
      = wrap (cols (ix1 e)) := by
  rw [col1_apply hb1 _ e]
  show Scalar.select (IntOp.cmpi .slt (cols (ix1 e)) (broadcastInDim SE ![] hb0 (constantI S0 32 0#32) (ix1 e)))
    (IntOp.addi (cols (ix1 e)) (broadcastInDim SE ![] hb0 (constantI S0 32 262144#32) (ix1 e))) (cols (ix1 e)) = _
  rw [bcastI_apply, bcastI_apply]
  rfl

/-- The host scatter-add of rows at the extended reals, read at `(i, k)`. -/
theorem scatterAdd_apply {N M C w : Nat} (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32) (i : Fin N) (k : Fin C) :
    Host.scatterAdd (RowGatherScatter.rowScatter N M C wf) x idx upd (ix2 i k)
      = x (ix2 i k) + ∑ e ∈ Finset.univ.filter (fun e : Fin M => (idx (ix2 e ⟨0, Nat.one_pos⟩)).toInt = (i.val : ℤ)),
          upd (ix2 e k) :=
  RowGatherScatter.rowScatterAdd_apply wf x idx upd i k

/-- The gather of whole columns of `yp` read at `(b, e)`: row `b` at the column the start word clamps to. -/
theorem gather_apply (wfg : GatherDims.WF SBN SEx1 SBxE [0] [1] [] [1] [] 1 ![32, 1])
    (yp : FVec Ideal SBN .f32) (W : IVec SEx1 32) (b : Fin 32) (e : Fin 1835008) :
    Host.gather (ColGather.colGather 32 262144 1835008 wfg) yp W (ix2 b e)
      = yp (ix2 b (clamp (W (ix2 e ⟨0, Nat.one_pos⟩)))) :=
  ColGather.colGather_apply (by norm_num) wfg yp W b e

/-- THE CHAIN READ AS AN ARRAY: the transpose of the scatter-add, into zeros at the row words, of the transposed product
    of the gathered columns with the matrix values, is `yaArr`. -/
theorem ya_stage
    (hb0 : S0.BroadcastsInDim SE (![] : Fin 0 → Fin SE.rank))
    (hb1 : SE.BroadcastsInDim SEx1 (![0] : Fin 1 → Fin SEx1.rank))
    (hb2 : SE.BroadcastsInDim S1xE (![1] : Fin 1 → Fin S1xE.rank))
    (hb3 : S1xE.BroadcastsInDim SBxE (![0, 1] : Fin 2 → Fin SBxE.rank))
    (ht1 : SBxE.Transposes [1, 0] SExB)
    (hb4 : S0.BroadcastsInDim SNxB (![] : Fin 0 → Fin SNxB.rank))
    (ht2 : SNxB.Transposes [1, 0] SBN)
    (wfg : GatherDims.WF SBN SEx1 SBxE [0] [1] [] [1] [] 1 ![32, 1])
    (wfs : ScatterDims.WF SNxB SEx1 SExB [1] [0] [0] 1)
    (yp : FVec Ideal SBN .f32) (v : FVec Ideal SE .f32) (rows cols : IVec SE 32) :
    transpose SBN [1, 0]
      (Host.scatterAdd (RowGatherScatter.rowScatter 262144 1835008 32 wfs)
        (broadcastInDim SNxB ![] hb4 (constant S0 .f32 0x00000000#32))
        (broadcastInDim SEx1 ![0] hb1 rows)
        (transpose SExB [1, 0]
          (mulf (Host.gather (ColGather.colGather 32 262144 1835008 wfg) yp
              (broadcastInDim SEx1 ![0] hb1 (select (cmpi .slt cols (broadcastInDim SE ![] hb0 (constantI S0 32 0#32)))
                (addi cols (broadcastInDim SE ![] hb0 (constantI S0 32 262144#32))) cols)))
            (broadcastInDim SBxE ![0, 1] hb3 (broadcastInDim S1xE ![1] hb2 v))) ht1)) ht2
      = yaArr yp v rows cols := by
  funext i
  obtain ⟨b, n, rfl⟩ : ∃ b n, i = ix2 b n := ⟨i 0, i 1, eq_ix2 i⟩
  rw [tr2_apply, scatterAdd_apply, zeros_apply, zero_add]
  show _ = ya yp v rows cols b n
  unfold ya lands
  refine Finset.sum_congr (Finset.filter_congr (fun e _ => ?_)) (fun e _ => ?_)
  · rw [col1_apply]
  · rw [tr1_apply, mulf_apply, gather_apply, wrapIdx_apply, vbcast_apply]
    rfl

/-- The host sum of an array along a row, from the zero float: the sum of the row. -/
theorem rowsum_apply (hr : SBN.ReducesTo [1] SB) (h0 : 0 < S0.numel) (y : FVec Ideal SBN .f32) (b : Fin 32) :
    Host.reduceAdd y (constant (F := Ideal) S0 .f32 0x00000000#32) hr h0 (ix1 b) = ∑ n : Fin 262144, y (ix2 b n) := by
  simp only [Host.reduceAdd, Ideal.hostReduceAdd_def]
  rw [Ideal.hostReduceAdd_single hr (by decide)]
  rw [show constant (F := Ideal) S0 .f32 0x00000000#32 (Shape.Idx.first h0) = 0 from Ideal.ofBits_zero_f32, zero_add]
  refine Finset.sum_congr rfl fun k _ => ?_
  exact congrArg y (funext fun a => Fin.ext (by match a with | ⟨0, _⟩ => rfl | ⟨1, _⟩ => rfl))

/-- THE HOST SUM OF A PRODUCT ALONG A ROW, from the zero float: the dot product of row `b` of the two arrays. -/
theorem rowdot_apply (hr : SBN.ReducesTo [1] SB) (h0 : 0 < S0.numel) (f g : FVec Ideal SBN .f32) (b : Fin 32) :
    Host.reduceAdd (mulf f g) (constant (F := Ideal) S0 .f32 0x00000000#32) hr h0 (ix1 b) = dot f g b :=
  rowsum_apply hr h0 (mulf f g) b

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end RidgeStage

end
-- ==== Proof.RefValue.lean ====
/-
  THE REFERENCE'S RESULT IS THE RIDGE LOSS OF `Spec.lean`, the residual squared and summed.

  The reference's operations, read one at a time at the extended reals: the sparse product (a gather of columns, a
  product, a scatter-add of rows into zeros, two transposes) is `yaArr`; the two row sums `⟨yt, yp⟩` and `⟨yp, ya⟩`
  are `dot yt yp` and `den`; their quotient is `alpha`; the residual `yt − alpha · ya` is squared, summed along each
  row and over the batch, and divided by the batch size.
-/
import proofs.«111848_j11364483465834_2_alg».proof.Proof.Gen.ReferenceIdeal.Read
import proofs.«111848_j11364483465834_2_alg».proof.Proof.Spec
import proofs.«111848_j11364483465834_2_alg».proof.Proof.YaStage

noncomputable section

open scoped BigOperators

namespace Cert.ReferenceIdeal.RefValue

open Cert.ReferenceIdeal Cert.ReferenceIdeal.Gen Idealize.ShloMosaic Idealize.ShloMosaic.ValueIdx RidgeSpec

/-- The gather's printed dimension numbers are those of a gather of whole columns. -/
theorem gather_rec_eq :
    gather_S32x262144_S1835008x1_S32x1835008_0_1_n_n_1_1_321
      = ColGather.colGather 32 262144 1835008 Facts₀.gather_S32x262144_S1835008x1_S32x1835008_0_1_n_n_1_1_321_wf := rfl

/-- The scatter's printed dimension numbers are those of a scatter of rows. -/
theorem scatter_rec_eq :
    scatter_S262144x32_S1835008x1_S1835008x32_1_0_0_1
      = RowGatherScatter.rowScatter 262144 1835008 32 Facts₀.scatter_S262144x32_S1835008x1_S1835008x32_1_0_0_1_wf := rfl

/-- THE SPARSE PRODUCT: the reference's transposed scatter-add is `yaArr`. -/
theorem ya_eq (yp : FVec Ideal S32x262144 .f32) (v : FVec Ideal S1835008 .f32) (rows cols : IVec S1835008 32) :
    Read.val_main_v16 (F := Ideal) yp v rows cols = yaArr yp v rows cols := by
  unfold Read.val_main_v16 Read.val_main_v15 Read.val_main_v14 Read.val_main_v13 Read.val_main_cst_1 Read.val_main_v12
    Read.val_main_v11 Read.val_main_v10 Read.val_main_v9 Read.val_main_v8 Read.val_main_v7 Read.val_main_v6
    Read.val_main_v5 Read.val_main_v4 Read.val_main_c_0 Read.val_main_v3 Read.val_main_v2 Read.val_main_c
  rw [gather_rec_eq, scatter_rec_eq]
  exact RidgeStage.ya_stage _ _ _ _ _ _ _ _ _ yp v rows cols

/-- THE DENOMINATOR: the reference's row sum of `yp · ya` at `b` is `den`. -/
theorem den_eq (yp : FVec Ideal S32x262144 .f32) (v : FVec Ideal S1835008 .f32) (rows cols : IVec S1835008 32) (b : Fin 32) :
    Read.val_main_v18 (F := Ideal) yp v rows cols (ix1 b) = den yp v rows cols b := by
  unfold Read.val_main_v18 Read.val_main_v17 Read.val_main_cst_2
  rw [ya_eq]
  exact RidgeStage.rowdot_apply _ _ yp (yaArr yp v rows cols) b

/-- The numerator: the reference's row sum of `yt · yp` at `b`. -/
theorem num_eq (yp yt : FVec Ideal S32x262144 .f32) (b : Fin 32) :
    Read.val_main_v1 (F := Ideal) yp yt (ix1 b) = dot yt yp b := by
  unfold Read.val_main_v1 Read.val_main_v0 Read.val_main_cst
  exact RidgeStage.rowdot_apply _ _ yt yp b

/-- THE FITTED SCALE: the reference's quotient at `b` is `alpha`. -/
theorem alpha_eq (yp yt : FVec Ideal S32x262144 .f32) (v : FVec Ideal S1835008 .f32) (rows cols : IVec S1835008 32) (b : Fin 32) :
    Read.val_main_v19 (F := Ideal) yp yt v rows cols (ix1 b) = alpha yp yt v rows cols b := by
  rw [Read.val_main_v19_apply, Ideal.hostDivf_def, num_eq, den_eq]
  rfl

/-- The scale repeated along the row reads the scale of the row. -/
theorem idx_scale (b : Fin 32) (n : Fin 262144) : Read.idx_main_v20 (Read.idx_main_v21 (ix2 b n)) = ix1 b := by
  funext a
  match a with
  | ⟨0, _⟩ => rfl

/-- THE RESIDUAL at `(b, n)`: `yt − alpha · ya`. -/
theorem resid_eq (yp yt : FVec Ideal S32x262144 .f32) (v : FVec Ideal S1835008 .f32) (rows cols : IVec S1835008 32)
    (b : Fin 32) (n : Fin 262144) :
    Read.val_main_v23 (F := Ideal) yp yt v rows cols (ix2 b n)
      = yt (ix2 b n) - alpha yp yt v rows cols b * ya yp v rows cols b n := by
  rw [Read.val_main_v23_apply, Ideal.subf_def, Read.val_main_v22_apply, Ideal.mulf_def, Read.val_main_v21_apply,
    Read.val_main_v20_apply, idx_scale, alpha_eq, ya_eq]
  rfl

/-- The squared residual summed along row `b`. -/
theorem rowsq_eq (yp yt : FVec Ideal S32x262144 .f32) (v : FVec Ideal S1835008 .f32) (rows cols : IVec S1835008 32) (b : Fin 32) :
    Read.val_main_v25 (F := Ideal) yp yt v rows cols (ix1 b)
      = ∑ n : Fin 262144, (yt (ix2 b n) - alpha yp yt v rows cols b * ya yp v rows cols b n)
          * (yt (ix2 b n) - alpha yp yt v rows cols b * ya yp v rows cols b n) := by
  unfold Read.val_main_v25 Read.val_main_v24 Read.val_main_cst_3
  rw [RidgeStage.rowdot_apply]
  unfold dot
  refine Finset.sum_congr rfl (fun n _ => ?_)
  rw [resid_eq]

/-- THE REFERENCE'S RESULT: the loss as the residual squared and summed. -/
theorem result_eq (yp yt : FVec Ideal S32x262144 .f32) (v : FVec Ideal S1835008 .f32) (rows cols : IVec S1835008 32) :
    Read.val_main_v27 (F := Ideal) yp yt v rows cols = fun _ => lossSq yp yt v rows cols := by
  funext i
  rw [Read.val_main_v27_apply, Ideal.hostDivf_def, Read.val_main_cst_5_apply, Ideal.ofBits_def, Read.val_main_v26_apply,
    Read.val_main_cst_4_apply, Ideal.ofBits_def, Ideal.ofBits_zero_f32, zero_add, RidgeStage.sum_idx1]
  have hs : (∑ a : Fin 32, Read.val_main_v25 (F := Ideal) yp yt v rows cols (ix1 a))
      = ∑ b : Fin 32, ∑ n : Fin 262144, (yt (ix2 b n) - alpha yp yt v rows cols b * ya yp v rows cols b n)
          * (yt (ix2 b n) - alpha yp yt v rows cols b * ya yp v rows cols b n) :=
    Finset.sum_congr rfl (fun b _ => rowsq_eq yp yt v rows cols b)
  rw [hs]
  rfl

end Cert.ReferenceIdeal.RefValue

end
-- ==== Proof.PreDecode.lean ====
/-
  THE PRECONDITION DECODED.

  The printed precondition is the conjunction of four `all`s: every element of `yp`, of `yt` and of `v` is smaller in
  absolute value than `+∞`, and every denominator `⟨yp[b], A · yp[b]⟩` — computed by the reference's own operations —
  differs from zero.  At the extended reals the first three say that every float input is a real number, and the
  fourth that `den b ≠ 0` for every batch row `b`.
-/
import proofs.«111848_j11364483465834_2_alg».proof.Pre_finite_inputs
import proofs.«111848_j11364483465834_2_alg».proof.Proof.Spec
import proofs.«111848_j11364483465834_2_alg».proof.Proof.YaStage
import Idealize.ShloMosaic.Lib.ReduceAll

noncomputable section

open scoped BigOperators

namespace Cert.PreDecode

open Idealize.ShloMosaic Idealize.ShloMosaic.ValueIdx RidgeSpec

/-- The scalar shape has one index. -/
instance : Subsingleton Cert.Pre_finite_inputs.S_.Idx := ⟨fun a b => funext fun d => d.elim0⟩

/-- An extended real whose absolute value is below the float `+∞` is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- Where the comparison `|x| < +∞` holds, the element is a real number. -/
theorem finite_at {s : Shape} (hb : RidgeStage.S0.BroadcastsInDim s (![] : Fin 0 → Fin s.rank)) (x : FVec Ideal s .f32)
    (i : s.Idx)
    (h : cmpf .olt (Host.absf x) (broadcastInDim s ![] hb (constant RidgeStage.S0 .f32 0x7F800000#32)) i = 1#1) :
    ∃ r : ℝ, x i = (r : EReal) := by
  refine real_of_abs_lt_top (x i) ?_
  rw [← h, cmpf_apply, broadcastInDim_apply _ hb _ i ix0 (fun a => a.elim0)]
  rfl

/-- Where the comparison `x ≠ 0` holds, the element is not zero. -/
theorem ne_zero_at {s : Shape} (hb : RidgeStage.S0.BroadcastsInDim s (![] : Fin 0 → Fin s.rank)) (x : FVec Ideal s .f32)
    (i : s.Idx)
    (h : cmpf .une x (broadcastInDim s ![] hb (constant RidgeStage.S0 .f32 0x00000000#32)) i = 1#1) :
    x i ≠ 0 := by
  rw [cmpf_apply, broadcastInDim_apply _ hb _ i ix0 (fun a => a.elim0)] at h
  have h' : Ideal.cmp .une (x i) 0 = 1#1 := by rw [← Ideal.ofBits_zero_f32]; exact h
  intro h0
  rw [h0] at h'
  simp [Ideal.cmp] at h'

section
variable [Cert.Pre_finite_inputs.Facts]
open Cert.Pre_finite_inputs Cert.Pre_finite_inputs.Facts

/-- The gather's printed dimension numbers are those of a gather of whole columns. -/
theorem gather_rec_eq :
    gather_S32x262144_S1835008x1_S32x1835008_0_1_n_n_1_1_321
      = ColGather.colGather 32 262144 1835008 gather_S32x262144_S1835008x1_S32x1835008_0_1_n_n_1_1_321_wf := rfl

/-- The scatter's printed dimension numbers are those of a scatter of rows. -/
theorem scatter_rec_eq :
    scatter_S262144x32_S1835008x1_S1835008x32_1_0_0_1
      = RowGatherScatter.rowScatter 262144 1835008 32 scatter_S262144x32_S1835008x1_S1835008x32_1_0_0_1_wf := rfl

/-- THE PRECONDITION'S DENOMINATOR: its row sum of `yp` times its own copy of the sparse product, at `b`, is `den`. -/
theorem den_eq (yp : FVec Ideal S32x262144 .f32) (v : FVec Ideal S1835008 .f32) (rows cols : IVec S1835008 32) (b : Fin 32) :
    Host.reduceAdd
        (mulf yp (transpose S32x262144 [1, 0]
          (Host.scatterAdd scatter_S262144x32_S1835008x1_S1835008x32_1_0_0_1
            (broadcastInDim S262144x32 ![] bcast_S_S262144x32 (constant S_ .f32 0x00000000#32))
            (broadcastInDim S1835008x1 ![0] bcast_S1835008_S1835008x1_0 rows)
            (transpose S1835008x32 [1, 0]
              (mulf (Host.gather gather_S32x262144_S1835008x1_S32x1835008_0_1_n_n_1_1_321 yp
                  (broadcastInDim S1835008x1 ![0] bcast_S1835008_S1835008x1_0
                    (select (cmpi .slt cols (broadcastInDim S1835008 ![] bcast_S_S1835008 (constantI S_ 32 0#32)))
                      (addi cols (broadcastInDim S1835008 ![] bcast_S_S1835008 (constantI S_ 32 262144#32))) cols)))
                (broadcastInDim S32x1835008 ![0, 1] bcast_S1x1835008_S32x1835008_0_1
                  (broadcastInDim S1x1835008 ![1] bcast_S1835008_S1x1835008_1 v)))
              transposes_S32x1835008_S1835008x32_1_0))
          transposes_S262144x32_S32x262144_1_0))
        (constant (F := Ideal) S_ .f32 0x00000000#32) reducesTo_S32x262144_S32_d1 h_S_ (ix1 b)
      = den yp v rows cols b := by
  rw [gather_rec_eq, scatter_rec_eq, RidgeStage.ya_stage]
  exact RidgeStage.rowdot_apply _ _ yp (yaArr yp v rows cols) b

/-- THE PRECONDITION DECODED: every float input is a real number and no denominator is zero. -/
theorem of_pre (yp yt : FVec Ideal S32x262144 .f32) (v : FVec Ideal S1835008 .f32) (rows cols : IVec S1835008 32)
    (h : fn (F := Ideal) yp yt v rows cols = fun _ => 1#1) :
    (∀ i, ∃ r : ℝ, yp i = (r : EReal)) ∧ (∀ i, ∃ r : ℝ, yt i = (r : EReal)) ∧ (∀ i, ∃ r : ℝ, v i = (r : EReal))
      ∧ ∀ b : Fin 32, den yp v rows cols b ≠ 0 := by
  have e := congrFun h ix0
  change IntOp.andi (IntOp.andi (IntOp.andi _ _) _) _ = 1#1 at e
  rw [IntOp.andi_eq_one, IntOp.andi_eq_one, IntOp.andi_eq_one] at e
  obtain ⟨⟨⟨hA, hB⟩, hC⟩, hD⟩ := e
  refine ⟨fun i => ?_, fun i => ?_, fun i => ?_, fun b => ?_⟩
  · exact finite_at _ yp i (Host.reduce_andi_all _ _ _ _ _ hA i)
  · exact finite_at _ yt i (Host.reduce_andi_all _ _ _ _ _ hB i)
  · exact finite_at _ v i (Host.reduce_andi_all _ _ _ _ _ hC i)
  · rw [← den_eq yp v rows cols b]
    exact ne_zero_at _ _ (ix1 b) (Host.reduce_andi_all _ _ _ _ _ hD (ix1 b))

end

end Cert.PreDecode

end
-- ==== Proof.RegionCases.lean ====
/-
  WHAT ONE GRID POINT LEAVES IN THE FIVE RUNNING BLOCKS.

  The region runs 16 points, 8 for each half of the 262144 unknowns.  At the first point of a half the body first
  stores a zero block into each of its five running blocks and then accumulates into it; at the other seven points
  it accumulates into what the point before left.  Each running block receives ONE accumulating store per point, which
  covers the block whole; so what the block holds after the point is that store's value: at a first point the
  accumulation over the zero block just stored (read back through the reset store), at a later point the accumulation
  over the block's previous contents.  This module states that, for each of the five blocks and both kinds of point,
  at every float instance.
-/
import proofs.«111848_j11364483465834_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later point of a half, dot product 1 (targets · predictions): its one covering store's value over the block's previous contents. -/
theorem out_B_3 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : ¬cond0_0 i) (x0 x1 x2 : Vec F S32x16384 .f32) (xo3 xo4 xo5 xo6 xo7 : Vec F S1x32x1 .f32) :
    out0_B_3 c i a2 h2 a3 h3 a4 h4 a5 h5 a6 h6 a7 h7 a8 h8 a9 h9 hc x0 x1 x2 xo3 xo4 xo5 xo6 xo7 = k0_pay10 x0 x1 xo3 := by
  unfold out0_B_3
  rw [View.read_writes_eq_canon _ _ _ (cover0_B_3 c i a2 h2 a3 h3 a4 h4 a5 h5 a6 h6 a7 h7 a8 h8 a9 h9 hc x0 x1 x2 xo3 xo4 xo5 xo6 xo7)]
  unfold kernelRun0_B
  dsimp only
  rw [View.canon_unit_zero hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- The first point of a half, dot product 1 (targets · predictions): the accumulating store's value over the zero block the reset just stored. -/
theorem out_A_3 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : cond0_0 i) (x0 x1 x2 : Vec F S32x16384 .f32) :
    out0_A_3 c i a2 h2 a3 h3 a4 h4 a5 h5 a6 h6 a7 h7 a8 h8 a9 h9 hc x0 x1 x2 = k0_pay10 x0 x1 k0_pay4 := by
  unfold out0_A_3
  rw [View.read_writes_eq_canon _ _ _ (cover0_A_3 c i a2 h2 a3 h3 a4 h4 a5 h5 a6 h6 a7 h7 a8 h8 a9 h9 hc x0 x1 x2)]
  unfold kernelRun0_A
  dsimp only
  sl_unfold_words
  rw [View.canon_cons_unit_zero (S := S1x32x1) hz3, View.readCov_unit_zero (S := S1x32x1) _ hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- A later point of a half, dot product 2 (predictions · product): its one covering store's value over the block's previous contents. -/
theorem out_B_4 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : ¬cond0_0 i) (x0 x1 x2 : Vec F S32x16384 .f32) (xo3 xo4 xo5 xo6 xo7 : Vec F S1x32x1 .f32) :
    out0_B_4 c i a2 h2 a3 h3 a4 h4 a5 h5 a6 h6 a7 h7 a8 h8 a9 h9 hc x0 x1 x2 xo3 xo4 xo5 xo6 xo7 = k0_pay11 x0 x2 xo4 := by
  unfold out0_B_4
  rw [View.read_writes_eq_canon _ _ _ (cover0_B_4 c i a2 h2 a3 h3 a4 h4 a5 h5 a6 h6 a7 h7 a8 h8 a9 h9 hc x0 x1 x2 xo3 xo4 xo5 xo6 xo7)]
  unfold kernelRun0_B
  dsimp only
  rw [View.canon_unit_zero hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- The first point of a half, dot product 2 (predictions · product): the accumulating store's value over the zero block the reset just stored. -/
theorem out_A_4 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : cond0_0 i) (x0 x1 x2 : Vec F S32x16384 .f32) :
    out0_A_4 c i a2 h2 a3 h3 a4 h4 a5 h5 a6 h6 a7 h7 a8 h8 a9 h9 hc x0 x1 x2 = k0_pay11 x0 x2 k0_pay5 := by
  unfold out0_A_4
  rw [View.read_writes_eq_canon _ _ _ (cover0_A_4 c i a2 h2 a3 h3 a4 h4 a5 h5 a6 h6 a7 h7 a8 h8 a9 h9 hc x0 x1 x2)]
  unfold kernelRun0_A
  dsimp only
  sl_unfold_words
  rw [View.canon_cons_unit_zero (S := S1x32x1) hz3, View.readCov_unit_zero (S := S1x32x1) _ hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- A later point of a half, dot product 3 (targets · targets): its one covering store's value over the block's previous contents. -/
theorem out_B_5 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : ¬cond0_0 i) (x0 x1 x2 : Vec F S32x16384 .f32) (xo3 xo4 xo5 xo6 xo7 : Vec F S1x32x1 .f32) :
    out0_B_5 c i a2 h2 a3 h3 a4 h4 a5 h5 a6 h6 a7 h7 a8 h8 a9 h9 hc x0 x1 x2 xo3 xo4 xo5 xo6 xo7 = k0_pay1 (k0_pay12 xo5) (k0_pay13 x1) := by
  unfold out0_B_5
  rw [View.read_writes_eq_canon _ _ _ (cover0_B_5 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- The first point of a half, dot product 3 (targets · targets): the accumulating store's value over the zero block the reset just stored. -/
theorem out_A_5 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : cond0_0 i) (x0 x1 x2 : Vec F S32x16384 .f32) :
    out0_A_5 c i a2 h2 a3 h3 a4 h4 a5 h5 a6 h6 a7 h7 a8 h8 a9 h9 hc x0 x1 x2 = k0_pay1 (k0_pay12 k0_pay6) (k0_pay13 x1) := by
  unfold out0_A_5
  rw [View.read_writes_eq_canon _ _ _ (cover0_A_5 c i a2 h2 a3 h3 a4 h4 a5 h5 a6 h6 a7 h7 a8 h8 a9 h9 hc x0 x1 x2)]
  unfold kernelRun0_A
  dsimp only
  sl_unfold_words
  rw [View.canon_cons_unit_zero (S := S1x32x1) hz3, View.readCov_unit_zero (S := S1x32x1) _ hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- A later point of a half, dot product 4 (targets · product): its one covering store's value over the block's previous contents. -/
theorem out_B_6 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : ¬cond0_0 i) (x0 x1 x2 : Vec F S32x16384 .f32) (xo3 xo4 xo5 xo6 xo7 : Vec F S1x32x1 .f32) :
    out0_B_6 c i a2 h2 a3 h3 a4 h4 a5 h5 a6 h6 a7 h7 a8 h8 a9 h9 hc x0 x1 x2 xo3 xo4 xo5 xo6 xo7 = k0_pay2 x1 (k0_pay9 x2) xo6 := by
  unfold out0_B_6
  rw [View.read_writes_eq_canon _ _ _ (cover0_B_6 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- The first point of a half, dot product 4 (targets · product): the accumulating store's value over the zero block the reset just stored. -/
theorem out_A_6 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : cond0_0 i) (x0 x1 x2 : Vec F S32x16384 .f32) :
    out0_A_6 c i a2 h2 a3 h3 a4 h4 a5 h5 a6 h6 a7 h7 a8 h8 a9 h9 hc x0 x1 x2 = k0_pay2 x1 (k0_pay9 x2) k0_pay7 := by
  unfold out0_A_6
  rw [View.read_writes_eq_canon _ _ _ (cover0_A_6 c i a2 h2 a3 h3 a4 h4 a5 h5 a6 h6 a7 h7 a8 h8 a9 h9 hc x0 x1 x2)]
  unfold kernelRun0_A
  dsimp only
  sl_unfold_words
  rw [View.canon_cons_unit_zero (S := S1x32x1) hz3, View.readCov_unit_zero (S := S1x32x1) _ hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- A later point of a half, dot product 5 (product · product): its one covering store's value over the block's previous contents. -/
theorem out_B_7 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : ¬cond0_0 i) (x0 x1 x2 : Vec F S32x16384 .f32) (xo3 xo4 xo5 xo6 xo7 : Vec F S1x32x1 .f32) :
    out0_B_7 c i a2 h2 a3 h3 a4 h4 a5 h5 a6 h6 a7 h7 a8 h8 a9 h9 hc x0 x1 x2 xo3 xo4 xo5 xo6 xo7 = k0_pay3 (k0_pay9 x2) xo7 := by
  unfold out0_B_7
  rw [View.read_writes_eq_canon _ _ _ (cover0_B_7 c i a2 h2 a3 h3 a4 h4 a5 h5 a6 h6 a7 h7 a8 h8 a9 h9 hc x0 x1 x2 xo3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

/-- The first point of a half, dot product 5 (product · product): the accumulating store's value over the zero block the reset just stored. -/
theorem out_A_7 (c : Dev nD) (i : grid0.Coords) (a2 : Memref sig .tc .vmem S32x16384 .f32) (h2 : a2.IsWhole) (a3 : Memref sig .tc .vmem S32x16384 .f32) (h3 : a3.IsWhole) (a4 : Memref sig .tc .vmem S32x16384 .f32) (h4 : a4.IsWhole) (a5 : Memref sig .tc .vmem S1x32x1 .f32) (h5 : a5.IsWhole) (a6 : Memref sig .tc .vmem S1x32x1 .f32) (h6 : a6.IsWhole) (a7 : Memref sig .tc .vmem S1x32x1 .f32) (h7 : a7.IsWhole) (a8 : Memref sig .tc .vmem S1x32x1 .f32) (h8 : a8.IsWhole) (a9 : Memref sig .tc .vmem S1x32x1 .f32) (h9 : a9.IsWhole) (hc : cond0_0 i) (x0 x1 x2 : Vec F S32x16384 .f32) :
    out0_A_7 c i a2 h2 a3 h3 a4 h4 a5 h5 a6 h6 a7 h7 a8 h8 a9 h9 hc x0 x1 x2 = k0_pay3 (k0_pay9 x2) k0_pay8 := by
  unfold out0_A_7
  rw [View.read_writes_eq_canon _ _ _ (cover0_A_7 c i a2 h2 a3 h3 a4 h4 a5 h5 a6 h6 a7 h7 a8 h8 a9 h9 hc x0 x1 x2)]
  unfold kernelRun0_A
  dsimp only
  sl_unfold_words
  rw [View.canon_cons_unit_zero (S := S1x32x1) hz3, View.readCov_unit_zero (S := S1x32x1) _ hz3]
  simp only [View.readAt_eq_ld, h2.read_unread, h3.read_unread, h4.read_unread, h5.read_unread, h6.read_unread, h7.read_unread, h8.read_unread, h9.read_unread, View.ld_unit_zero (S := S32x16384) hz2, View.ld_unit_zero (S := S1x32x1) hz3]

variable (m : (ℓ : Loc nD τ sig) → Buf (Elt F) ℓ)

/-- The five running blocks after the FIRST point `t` of a half: each the accumulation, over a zero block, of the
    point's input blocks. -/
theorem outs_first (c : Dev nD) (t : Fin cfg0.N) (h0 : t.val % 8 = 0) :
    outsAt0 m c t.val t.isLt
      = (k0_pay10 (iblk m c 0 t) (iblk m c 1 t) k0_pay4,
         k0_pay11 (iblk m c 0 t) (iblk m c 2 t) k0_pay5,
         k0_pay1 (k0_pay12 k0_pay6) (k0_pay13 (iblk m c 1 t)),
         k0_pay2 (iblk m c 1 t) (k0_pay9 (iblk m c 2 t)) k0_pay7,
         k0_pay3 (k0_pay9 (iblk m c 2 t)) k0_pay8) :=
  (outsAt0_A m c t h0).trans
    (congrArg₂ Prod.mk (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))
    (congrArg₂ Prod.mk (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))
    (congrArg₂ Prod.mk (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))
    (congrArg₂ Prod.mk (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))
      (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t))))))

/-- The five running blocks after a LATER point `t` of a half: each the accumulation, over what the point before left,
    of the point's input blocks. -/
theorem outs_later (c : Dev nD) (t : Fin cfg0.N) (h0 : ¬t.val % 8 = 0) :
    outsAt0 m c t.val t.isLt
      = (k0_pay10 (iblk m c 0 t) (iblk m c 1 t) (outsAt0 m c (t.val - 1) (Nat.lt_of_le_of_lt (Nat.sub_le _ _) t.isLt)).1,
         k0_pay11 (iblk m c 0 t) (iblk m c 2 t) (outsAt0 m c (t.val - 1) (Nat.lt_of_le_of_lt (Nat.sub_le _ _) t.isLt)).2.1,
         k0_pay1 (k0_pay12 (outsAt0 m c (t.val - 1) (Nat.lt_of_le_of_lt (Nat.sub_le _ _) t.isLt)).2.2.1) (k0_pay13 (iblk m c 1 t)),
         k0_pay2 (iblk m c 1 t) (k0_pay9 (iblk m c 2 t)) (outsAt0 m c (t.val - 1) (Nat.lt_of_le_of_lt (Nat.sub_le _ _) t.isLt)).2.2.2.1,
         k0_pay3 (k0_pay9 (iblk m c 2 t)) (outsAt0 m c (t.val - 1) (Nat.lt_of_le_of_lt (Nat.sub_le _ _) t.isLt)).2.2.2.2) :=
  (outsAt0_B m c t h0).trans
    (congrArg₂ Prod.mk (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
    (congrArg₂ Prod.mk (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
    (congrArg₂ Prod.mk (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
    (congrArg₂ Prod.mk (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
      (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)))))

end Cert.KernelIdeal.Region

end
-- ==== Proof.RegionPay.lean ====
/-
  THE BODY'S ARITHMETIC AT AN ENTRY.

  At every grid point the body holds three input blocks `[32, 16384]` — `x0` of the predictions, `x1` of the targets,
  `x2` of the sparse product — and five running blocks `[1, 32, 1]`, one per dot product.  Each of its five accumulating
  stores writes, at batch row `b`, the running entry plus ONE LANE SUM: the sum over the 16384 lanes of the block of a
  product of two input blocks' entries on row `b`,

      targets · predictions,  predictions · product,  targets · targets,  targets · product,  product · product.

  This module reads each of those five stored values at the entry `(0, b, 0)`, over the extended reals.
-/
import proofs.«111848_j11364483465834_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RegionPay

open Idealize.ShloMosaic Idealize.ShloMosaic.ValueIdx Cert.KernelIdeal Cert.KernelIdeal.Gen

variable [Cert.KernelIdeal.Facts]

/-- The lane sum on batch row `b` of the product of two blocks. -/
def lane (f g : S32x16384.Idx → EReal) (b : Fin 32) : EReal := ∑ l : Fin 16384, f (ix2 b l) * g (ix2 b l)

/-- A vector `[32]` recast as a column `[32, 1]` reads, at `(b, 0)`, the vector at `b`. -/
theorem cast_32_32x1 {α : Type} (x : S32.Idx → α) (h : S32.ShapeCasts S32x1) (b : Fin 32) (u : Fin 1) :
    shapeCast S32x1 x h (ix2 b u) = x (ix1 b) :=
  shapeCast_apply x h _ _ (by
    have hu : u.val = 0 := by omega
    rw [Shape.rowMajor_val_two, Shape.rowMajor_val_one]
    show b.val = b.val * 1 + u.val
    rw [hu]; omega)

/-- Reducing the lane axis of a block `[32, 16384]`: the entries that fold onto row `b` are `(b, l)`. -/
theorem lift_row (h : S32x16384.Reduces [1] S32) (b : Fin 32) (l : Fin 16384) :
    h.lift (ix1 b) l = ix2 b l := by
  funext a
  match a with
  | ⟨0, _⟩ => rfl
  | ⟨1, _⟩ => rfl

/-- The lane reduction of a product of two blocks, at row `b`, is the lane sum. -/
theorem reduce_mul_apply (f g : Vec Ideal S32x16384 .f32) (h : S32x16384.Reduces [1] S32)
    (hφ : FKind.Formats .f32) (hacc : (0x00000000#32 : BitVec 32) = FKind.add.neutral .f32 hφ) (b : Fin 32) :
    multiReduction (F := Ideal) .add [1] S32 (mulf f g) 0x00000000#32 h hφ hacc (ix1 b) = lane f g b := by
  rw [Ideal.multiReduction_add_single]
  refine Finset.sum_congr rfl (fun l _ => ?_)
  exact congrArg (fun i => f i * g i) (lift_row h b l)

/-- The identity recast of a block. -/
theorem pay9_eq (x2 : Vec Ideal S32x16384 .f32) : k0_pay9 (F := Ideal) x2 = x2 := by
  unfold k0_pay9
  exact shapeCast_self _ _

/-- The zero block a reset stores reads `0` everywhere (the five resets are one term each). -/
theorem zero_apply (i : S1x32x1.Idx) :
    shapeCast S1x32x1 (broadcast S32x1 (Scalar.ofBits (F := Ideal) .f32 0x00000000#32)) shapeCasts_S32x1_S1x32x1 i = 0 := by
  unfold shapeCast
  show Ideal.ofBits .f32 0x00000000#32 = 0
  exact Ideal.ofBits_zero_f32

/-- The first dot product's store, at row `b`: the running entry plus the lane sum of targets · predictions. -/
theorem pay10_apply (x0 x1 : Vec Ideal S32x16384 .f32) (acc : Vec Ideal S1x32x1 .f32) (b : Fin 32) :
    k0_pay10 (F := Ideal) x0 x1 acc (ix3 (0 : Fin 1) b (0 : Fin 1)) = acc (ix3 (0 : Fin 1) b (0 : Fin 1)) + lane x1 x0 b := by
  unfold k0_pay10
  dsimp only
  refine (shapeCast_ab_1ab_apply _ _ (0 : Fin 1) b (0 : Fin 1)).trans ?_
  refine congrArg₂ (· + ·) ?_ ?_
  · exact shapeCast_1ab_ab_apply acc _ b (0 : Fin 1)
  · exact (cast_32_32x1 _ _ b (0 : Fin 1)).trans (reduce_mul_apply x1 x0 _ _ _ b)

/-- The second dot product's store: the running entry plus the lane sum of predictions · product. -/
theorem pay11_apply (x0 x2 : Vec Ideal S32x16384 .f32) (acc : Vec Ideal S1x32x1 .f32) (b : Fin 32) :
    k0_pay11 (F := Ideal) x0 x2 acc (ix3 (0 : Fin 1) b (0 : Fin 1)) = acc (ix3 (0 : Fin 1) b (0 : Fin 1)) + lane x0 x2 b := by
  unfold k0_pay11
  dsimp only
  rw [pay9_eq]
  refine (shapeCast_ab_1ab_apply _ _ (0 : Fin 1) b (0 : Fin 1)).trans ?_
  refine congrArg₂ (· + ·) ?_ ?_
  · exact shapeCast_1ab_ab_apply acc _ b (0 : Fin 1)
  · exact (cast_32_32x1 _ _ b (0 : Fin 1)).trans (reduce_mul_apply x0 x2 _ _ _ b)

/-- The third dot product's store (its running entry and its lane reduction are read before the store's own payload):
    the running entry plus the lane sum of targets · targets. -/
theorem pay1_apply (x1 : Vec Ideal S32x16384 .f32) (acc : Vec Ideal S1x32x1 .f32) (b : Fin 32) :
    k0_pay1 (F := Ideal) (k0_pay12 acc) (k0_pay13 x1) (ix3 (0 : Fin 1) b (0 : Fin 1))
      = acc (ix3 (0 : Fin 1) b (0 : Fin 1)) + lane x1 x1 b := by
  unfold k0_pay1 k0_pay12 k0_pay13
  dsimp only
  refine (shapeCast_ab_1ab_apply _ _ (0 : Fin 1) b (0 : Fin 1)).trans ?_
  refine congrArg₂ (· + ·) ?_ ?_
  · exact shapeCast_1ab_ab_apply acc _ b (0 : Fin 1)
  · exact (cast_32_32x1 _ _ b (0 : Fin 1)).trans (reduce_mul_apply x1 x1 _ _ _ b)

/-- The fourth dot product's store: the running entry plus the lane sum of targets · product. -/
theorem pay2_apply (x1 x2 : Vec Ideal S32x16384 .f32) (acc : Vec Ideal S1x32x1 .f32) (b : Fin 32) :
    k0_pay2 (F := Ideal) x1 (k0_pay9 x2) acc (ix3 (0 : Fin 1) b (0 : Fin 1)) = acc (ix3 (0 : Fin 1) b (0 : Fin 1)) + lane x1 x2 b := by
  rw [pay9_eq]
  unfold k0_pay2
  dsimp only
  refine (shapeCast_ab_1ab_apply _ _ (0 : Fin 1) b (0 : Fin 1)).trans ?_
  refine congrArg₂ (· + ·) ?_ ?_
  · exact shapeCast_1ab_ab_apply acc _ b (0 : Fin 1)
  · exact (cast_32_32x1 _ _ b (0 : Fin 1)).trans (reduce_mul_apply x1 x2 _ _ _ b)

/-- The fifth dot product's store: the running entry plus the lane sum of product · product. -/
theorem pay3_apply (x2 : Vec Ideal S32x16384 .f32) (acc : Vec Ideal S1x32x1 .f32) (b : Fin 32) :
    k0_pay3 (F := Ideal) (k0_pay9 x2) acc (ix3 (0 : Fin 1) b (0 : Fin 1)) = acc (ix3 (0 : Fin 1) b (0 : Fin 1)) + lane x2 x2 b := by
  rw [pay9_eq]
  unfold k0_pay3
  dsimp only
  refine (shapeCast_ab_1ab_apply _ _ (0 : Fin 1) b (0 : Fin 1)).trans ?_
  refine congrArg₂ (· + ·) ?_ ?_
  · exact shapeCast_1ab_ab_apply acc _ b (0 : Fin 1)
  · exact (cast_32_32x1 _ _ b (0 : Fin 1)).trans (reduce_mul_apply x2 x2 _ _ _ b)

end Cert.KernelIdeal.RegionPay

end
-- ==== Proof.RegionSum.lean ====
/-
  THE RUNNING BLOCKS ARE SUMS OF LANE SUMS.

  Point `n` of the region (`n = 8 p + k`: point `k` of half `p`) holds, of each of the three input arrays, the block of
  columns `[16384 n, 16384 (n + 1))`.  At the first point of a half each running entry is `0` plus the point's lane sum, at a
  later point the previous entry plus the point's lane sum; so after the last point of half `p` the entry of batch row `b`
  is the sum over the half's eight points of their lane sums — the dot product of row `b` restricted to the half's 131072
  columns.  This module proves that over the extended reals, for the five dot products, and reads an input block at an
  entry of its array.
-/
import proofs.«111848_j11364483465834_2_alg».proof.Proof.RegionCases
import proofs.«111848_j11364483465834_2_alg».proof.Proof.RegionPay

noncomputable section

open scoped BigOperators

namespace Cert.KernelIdeal.RegionSum

open Idealize.ShloMosaic Idealize.ShloMosaic.ValueIdx Idealize.ShloMosaic.TcCoe Idealize.SL.Sem
open Cert.KernelIdeal Cert.KernelIdeal.Gen Cert.KernelIdeal.RegionPay Cert.KernelIdeal.Region

/-- A sequence that restarts from `0` at every multiple of 8 and otherwise adds a term to its predecessor holds, at
    position `8 p + j`, the sum of the terms of positions `8 p, …, 8 p + j`. -/
theorem chain8 (a s : ℕ → EReal) (N : ℕ) (hA : ∀ n, n < N → n % 8 = 0 → a n = 0 + s n)
    (hB : ∀ n, n < N → ¬n % 8 = 0 → a n = a (n - 1) + s n) (p : ℕ) :
    ∀ j : ℕ, j < 8 → p * 8 + j < N → a (p * 8 + j) = ∑ k ∈ Finset.range (j + 1), s (p * 8 + k)
  | 0, _, hN => by
    rw [hA (p * 8 + 0) hN (by omega), zero_add]
    simp
  | j + 1, hj, hN => by
    rw [hB (p * 8 + (j + 1)) hN (by omega), Finset.sum_range_succ,
      ← chain8 a s N hA hB p j (by omega) (by omega)]
    rfl

variable (m : (ℓ : Loc nD τ sig) → Buf (Elt Ideal) ℓ)

theorem hN16 : cfg0.N = 16 := N_0

/-- The block of the predictions that point `n` holds (nothing beyond the grid). -/
def b0 (c : Dev nD) (n : ℕ) : Vec Ideal S32x16384 .f32 := if h : n < cfg0.N then iblk m c 0 ⟨n, h⟩ else fun _ => 0
/-- The block of the targets that point `n` holds. -/
def b1 (c : Dev nD) (n : ℕ) : Vec Ideal S32x16384 .f32 := if h : n < cfg0.N then iblk m c 1 ⟨n, h⟩ else fun _ => 0
/-- The block of the sparse product that point `n` holds. -/
def b2 (c : Dev nD) (n : ℕ) : Vec Ideal S32x16384 .f32 := if h : n < cfg0.N then iblk m c 2 ⟨n, h⟩ else fun _ => 0

/-- The five running blocks after point `n` (nothing beyond the grid). -/
def outs (c : Dev nD) (n : ℕ) :
    Vec Ideal S1x32x1 .f32 × Vec Ideal S1x32x1 .f32 × Vec Ideal S1x32x1 .f32 × Vec Ideal S1x32x1 .f32 × Vec Ideal S1x32x1 .f32 :=
  if h : n < cfg0.N then outsAt0 m c n h else (fun _ => 0, fun _ => 0, fun _ => 0, fun _ => 0, fun _ => 0)

theorem outs_of_lt (c : Dev nD) (n : ℕ) (h : n < cfg0.N) : outs m c n = outsAt0 m c n h := dif_pos h

/-- A reset's zero block reads `0`. -/
theorem k0_pay4_apply (i : S1x32x1.Idx) : k0_pay4 (F := Ideal) i = 0 := by
  unfold k0_pay4
  exact zero_apply i

/-- A reset's zero block reads `0`. -/
theorem k0_pay5_apply (i : S1x32x1.Idx) : k0_pay5 (F := Ideal) i = 0 := by
  unfold k0_pay5
  exact zero_apply i

/-- A reset's zero block reads `0`. -/
theorem k0_pay6_apply (i : S1x32x1.Idx) : k0_pay6 (F := Ideal) i = 0 := by
  unfold k0_pay6
  exact zero_apply i

/-- A reset's zero block reads `0`. -/
theorem k0_pay7_apply (i : S1x32x1.Idx) : k0_pay7 (F := Ideal) i = 0 := by
  unfold k0_pay7
  exact zero_apply i

/-- A reset's zero block reads `0`. -/
theorem k0_pay8_apply (i : S1x32x1.Idx) : k0_pay8 (F := Ideal) i = 0 := by
  unfold k0_pay8
  exact zero_apply i

/-- Dot product 1 (targets · predictions) at a first point of a half: `0` plus the point's lane sum. -/
theorem e3_first (c : Dev nD) (b : Fin 32) (n : ℕ) (hn : n < cfg0.N) (h0 : n % 8 = 0) :
    (outs m c n).1 (ix3 (0 : Fin 1) b (0 : Fin 1)) = 0 + lane (b1 m c n) (b0 m c n) b := by
  rw [outs_of_lt m c n hn, outs_first m c ⟨n, hn⟩ h0]
  unfold b1 b0
  simp only [dif_pos hn]
  refine (pay10_apply _ _ _ b).trans ?_
  rw [k0_pay4_apply]

/-- Dot product 1 (targets · predictions) at a later point of a half: the previous entry plus the point's lane sum. -/
theorem e3_later (c : Dev nD) (b : Fin 32) (n : ℕ) (hn : n < cfg0.N) (h0 : ¬n % 8 = 0) :
    (outs m c n).1 (ix3 (0 : Fin 1) b (0 : Fin 1))
      = (outs m c (n - 1)).1 (ix3 (0 : Fin 1) b (0 : Fin 1)) + lane (b1 m c n) (b0 m c n) b := by
  rw [outs_of_lt m c n hn, outs_of_lt m c (n - 1) (Nat.lt_of_le_of_lt (Nat.sub_le _ _) hn), outs_later m c ⟨n, hn⟩ h0]
  unfold b1 b0
  simp only [dif_pos hn]
  exact pay10_apply _ _ _ b

/-- Dot product 1 after the last point of half `p`: the sum of the half's eight lane sums. -/
theorem e3_sum (c : Dev nD) (b : Fin 32) (p : ℕ) (hp : p * 8 + 7 < cfg0.N) :
    (outs m c (p * 8 + 7)).1 (ix3 (0 : Fin 1) b (0 : Fin 1))
      = ∑ k ∈ Finset.range 8, lane (b1 m c (p * 8 + k)) (b0 m c (p * 8 + k)) b :=
  chain8 (fun n => (outs m c n).1 (ix3 (0 : Fin 1) b (0 : Fin 1))) (fun n => lane (b1 m c n) (b0 m c n) b) cfg0.N
    (e3_first m c b) (e3_later m c b) p 7 (by omega) hp

/-- Dot product 2 (predictions · product) at a first point of a half: `0` plus the point's lane sum. -/
theorem e4_first (c : Dev nD) (b : Fin 32) (n : ℕ) (hn : n < cfg0.N) (h0 : n % 8 = 0) :
    (outs m c n).2.1 (ix3 (0 : Fin 1) b (0 : Fin 1)) = 0 + lane (b0 m c n) (b2 m c n) b := by
  rw [outs_of_lt m c n hn, outs_first m c ⟨n, hn⟩ h0]
  unfold b0 b2
  simp only [dif_pos hn]
  refine (pay11_apply _ _ _ b).trans ?_
  rw [k0_pay5_apply]

/-- Dot product 2 (predictions · product) at a later point of a half: the previous entry plus the point's lane sum. -/
theorem e4_later (c : Dev nD) (b : Fin 32) (n : ℕ) (hn : n < cfg0.N) (h0 : ¬n % 8 = 0) :
    (outs m c n).2.1 (ix3 (0 : Fin 1) b (0 : Fin 1))
      = (outs m c (n - 1)).2.1 (ix3 (0 : Fin 1) b (0 : Fin 1)) + lane (b0 m c n) (b2 m c n) b := by
  rw [outs_of_lt m c n hn, outs_of_lt m c (n - 1) (Nat.lt_of_le_of_lt (Nat.sub_le _ _) hn), outs_later m c ⟨n, hn⟩ h0]
  unfold b0 b2
  simp only [dif_pos hn]
  exact pay11_apply _ _ _ b

/-- Dot product 2 after the last point of half `p`: the sum of the half's eight lane sums. -/
theorem e4_sum (c : Dev nD) (b : Fin 32) (p : ℕ) (hp : p * 8 + 7 < cfg0.N) :
    (outs m c (p * 8 + 7)).2.1 (ix3 (0 : Fin 1) b (0 : Fin 1))
      = ∑ k ∈ Finset.range 8, lane (b0 m c (p * 8 + k)) (b2 m c (p * 8 + k)) b :=
  chain8 (fun n => (outs m c n).2.1 (ix3 (0 : Fin 1) b (0 : Fin 1))) (fun n => lane (b0 m c n) (b2 m c n) b) cfg0.N
    (e4_first m c b) (e4_later m c b) p 7 (by omega) hp

/-- Dot product 3 (targets · targets) at a first point of a half: `0` plus the point's lane sum. -/
theorem e5_first (c : Dev nD) (b : Fin 32) (n : ℕ) (hn : n < cfg0.N) (h0 : n % 8 = 0) :
    (outs m c n).2.2.1 (ix3 (0 : Fin 1) b (0 : Fin 1)) = 0 + lane (b1 m c n) (b1 m c n) b := by
  rw [outs_of_lt m c n hn, outs_first m c ⟨n, hn⟩ h0]
  unfold b1
  simp only [dif_pos hn]
  refine (pay1_apply _ _ b).trans ?_
  rw [k0_pay6_apply]

/-- Dot product 3 (targets · targets) at a later point of a half: the previous entry plus the point's lane sum. -/
theorem e5_later (c : Dev nD) (b : Fin 32) (n : ℕ) (hn : n < cfg0.N) (h0 : ¬n % 8 = 0) :
    (outs m c n).2.2.1 (ix3 (0 : Fin 1) b (0 : Fin 1))
      = (outs m c (n - 1)).2.2.1 (ix3 (0 : Fin 1) b (0 : Fin 1)) + lane (b1 m c n) (b1 m c n) b := by
  rw [outs_of_lt m c n hn, outs_of_lt m c (n - 1) (Nat.lt_of_le_of_lt (Nat.sub_le _ _) hn), outs_later m c ⟨n, hn⟩ h0]
  unfold b1
  simp only [dif_pos hn]
  exact pay1_apply _ _ b

/-- Dot product 3 after the last point of half `p`: the sum of the half's eight lane sums. -/
theorem e5_sum (c : Dev nD) (b : Fin 32) (p : ℕ) (hp : p * 8 + 7 < cfg0.N) :
    (outs m c (p * 8 + 7)).2.2.1 (ix3 (0 : Fin 1) b (0 : Fin 1))
      = ∑ k ∈ Finset.range 8, lane (b1 m c (p * 8 + k)) (b1 m c (p * 8 + k)) b :=
  chain8 (fun n => (outs m c n).2.2.1 (ix3 (0 : Fin 1) b (0 : Fin 1))) (fun n => lane (b1 m c n) (b1 m c n) b) cfg0.N
    (e5_first m c b) (e5_later m c b) p 7 (by omega) hp

/-- Dot product 4 (targets · product) at a first point of a half: `0` plus the point's lane sum. -/
theorem e6_first (c : Dev nD) (b : Fin 32) (n : ℕ) (hn : n < cfg0.N) (h0 : n % 8 = 0) :
    (outs m c n).2.2.2.1 (ix3 (0 : Fin 1) b (0 : Fin 1)) = 0 + lane (b1 m c n) (b2 m c n) b := by
  rw [outs_of_lt m c n hn, outs_first m c ⟨n, hn⟩ h0]
  unfold b1 b2
  simp only [dif_pos hn]
  refine (pay2_apply _ _ _ b).trans ?_
  rw [k0_pay7_apply]

/-- Dot product 4 (targets · product) at a later point of a half: the previous entry plus the point's lane sum. -/
theorem e6_later (c : Dev nD) (b : Fin 32) (n : ℕ) (hn : n < cfg0.N) (h0 : ¬n % 8 = 0) :
    (outs m c n).2.2.2.1 (ix3 (0 : Fin 1) b (0 : Fin 1))
      = (outs m c (n - 1)).2.2.2.1 (ix3 (0 : Fin 1) b (0 : Fin 1)) + lane (b1 m c n) (b2 m c n) b := by
  rw [outs_of_lt m c n hn, outs_of_lt m c (n - 1) (Nat.lt_of_le_of_lt (Nat.sub_le _ _) hn), outs_later m c ⟨n, hn⟩ h0]
  unfold b1 b2
  simp only [dif_pos hn]
  exact pay2_apply _ _ _ b

/-- Dot product 4 after the last point of half `p`: the sum of the half's eight lane sums. -/
theorem e6_sum (c : Dev nD) (b : Fin 32) (p : ℕ) (hp : p * 8 + 7 < cfg0.N) :
    (outs m c (p * 8 + 7)).2.2.2.1 (ix3 (0 : Fin 1) b (0 : Fin 1))
      = ∑ k ∈ Finset.range 8, lane (b1 m c (p * 8 + k)) (b2 m c (p * 8 + k)) b :=
  chain8 (fun n => (outs m c n).2.2.2.1 (ix3 (0 : Fin 1) b (0 : Fin 1))) (fun n => lane (b1 m c n) (b2 m c n) b) cfg0.N
    (e6_first m c b) (e6_later m c b) p 7 (by omega) hp

/-- Dot product 5 (product · product) at a first point of a half: `0` plus the point's lane sum. -/
theorem e7_first (c : Dev nD) (b : Fin 32) (n : ℕ) (hn : n < cfg0.N) (h0 : n % 8 = 0) :
    (outs m c n).2.2.2.2 (ix3 (0 : Fin 1) b (0 : Fin 1)) = 0 + lane (b2 m c n) (b2 m c n) b := by
  rw [outs_of_lt m c n hn, outs_first m c ⟨n, hn⟩ h0]
  unfold b2
  simp only [dif_pos hn]
  refine (pay3_apply _ _ b).trans ?_
  rw [k0_pay8_apply]

/-- Dot product 5 (product · product) at a later point of a half: the previous entry plus the point's lane sum. -/
theorem e7_later (c : Dev nD) (b : Fin 32) (n : ℕ) (hn : n < cfg0.N) (h0 : ¬n % 8 = 0) :
    (outs m c n).2.2.2.2 (ix3 (0 : Fin 1) b (0 : Fin 1))
      = (outs m c (n - 1)).2.2.2.2 (ix3 (0 : Fin 1) b (0 : Fin 1)) + lane (b2 m c n) (b2 m c n) b := by
  rw [outs_of_lt m c n hn, outs_of_lt m c (n - 1) (Nat.lt_of_le_of_lt (Nat.sub_le _ _) hn), outs_later m c ⟨n, hn⟩ h0]
  unfold b2
  simp only [dif_pos hn]
  exact pay3_apply _ _ b

/-- Dot product 5 after the last point of half `p`: the sum of the half's eight lane sums. -/
theorem e7_sum (c : Dev nD) (b : Fin 32) (p : ℕ) (hp : p * 8 + 7 < cfg0.N) :
    (outs m c (p * 8 + 7)).2.2.2.2 (ix3 (0 : Fin 1) b (0 : Fin 1))
      = ∑ k ∈ Finset.range 8, lane (b2 m c (p * 8 + k)) (b2 m c (p * 8 + k)) b :=
  chain8 (fun n => (outs m c n).2.2.2.2 (ix3 (0 : Fin 1) b (0 : Fin 1))) (fun n => lane (b2 m c n) (b2 m c n) b) cfg0.N
    (e7_first m c b) (e7_later m c b) p 7 (by omega) hp

/-! ## An input block at an entry of its array -/

/-- The input windows' index maps, decided over the grid: point `t` holds block `(0, t)`. -/
theorem idx_in : ∀ t : Fin cfg0.N, (win0_0.index t 0 = 0 ∧ win0_0.index t 1 = t.val)
    ∧ (win0_1.index t 0 = 0 ∧ win0_1.index t 1 = t.val) ∧ (win0_2.index t 0 = 0 ∧ win0_2.index t 1 = t.val) :=
  (by decide +kernel : ∀ t : Fin grid0.N, (win0_0.index t 0 = 0 ∧ win0_0.index t 1 = t.val)
    ∧ (win0_1.index t 0 = 0 ∧ win0_1.index t 1 = t.val) ∧ (win0_2.index t 0 = 0 ∧ win0_2.index t 1 = t.val))

/-- Column `l` of the block of point `n` is column `16384 n + l` of the array. -/
theorem col_lt {n : ℕ} (hn : n < cfg0.N) (l : Fin 16384) : n * 16384 + l.val < 262144 := by
  have := hN16; have := l.isLt; omega

/-- The predictions' block at point `n`, entry `(b, l)`: the array, as the region finds it, at `(b, 16384 n + l)`. -/
theorem b0_apply (c : Dev nD) (n : ℕ) (hn : n < cfg0.N) (b : Fin 32) (l : Fin 16384) :
    b0 m c n (ix2 b l) = (V m c main_arg0 : S32x262144.Idx → EReal) (ix2 b ⟨n * 16384 + l.val, col_lt hn l⟩) := by
  obtain ⟨⟨e0, e1⟩, -, -⟩ := idx_in ⟨n, hn⟩
  unfold b0
  rw [dif_pos hn]
  unfold iblk
  rw [View.read_apply]
  show V m c main_arg0 _ = V m c main_arg0 _
  congr 1
  funext a; apply Fin.ext
  match a with
  | ⟨0, _⟩ => show win0_0.index ⟨n, hn⟩ 0 * 32 + 1 * b.val = b.val; rw [e0]; omega
  | ⟨1, _⟩ =>
    have e1' : win0_0.index ⟨n, hn⟩ 1 = n := e1
    show win0_0.index ⟨n, hn⟩ 1 * 16384 + 1 * l.val = n * 16384 + l.val; rw [e1']; omega

/-- The targets' block at point `n`, entry `(b, l)`. -/
theorem b1_apply (c : Dev nD) (n : ℕ) (hn : n < cfg0.N) (b : Fin 32) (l : Fin 16384) :
    b1 m c n (ix2 b l) = (V m c main_arg1 : S32x262144.Idx → EReal) (ix2 b ⟨n * 16384 + l.val, col_lt hn l⟩) := by
  obtain ⟨-, ⟨e0, e1⟩, -⟩ := idx_in ⟨n, hn⟩
  unfold b1
  rw [dif_pos hn]
  unfold iblk
  rw [View.read_apply]
  show V m c main_arg1 _ = V m c main_arg1 _
  congr 1
  funext a; apply Fin.ext
  match a with
  | ⟨0, _⟩ => show win0_1.index ⟨n, hn⟩ 0 * 32 + 1 * b.val = b.val; rw [e0]; omega
  | ⟨1, _⟩ =>
    have e1' : win0_1.index ⟨n, hn⟩ 1 = n := e1
    show win0_1.index ⟨n, hn⟩ 1 * 16384 + 1 * l.val = n * 16384 + l.val; rw [e1']; omega

/-- The sparse product's block at point `n`, entry `(b, l)`. -/
theorem b2_apply (c : Dev nD) (n : ℕ) (hn : n < cfg0.N) (b : Fin 32) (l : Fin 16384) :
    b2 m c n (ix2 b l) = (V m c main_v121 : S32x262144.Idx → EReal) (ix2 b ⟨n * 16384 + l.val, col_lt hn l⟩) := by
  obtain ⟨-, -, ⟨e0, e1⟩⟩ := idx_in ⟨n, hn⟩
  unfold b2
  rw [dif_pos hn]
  unfold iblk
  rw [View.read_apply]
  show V m c main_v121 _ = V m c main_v121 _
  congr 1
  funext a; apply Fin.ext
  match a with
  | ⟨0, _⟩ => show win0_2.index ⟨n, hn⟩ 0 * 32 + 1 * b.val = b.val; rw [e0]; omega
  | ⟨1, _⟩ =>
    have e1' : win0_2.index ⟨n, hn⟩ 1 = n := e1
    show win0_2.index ⟨n, hn⟩ 1 * 16384 + 1 * l.val = n * 16384 + l.val; rw [e1']; omega

end Cert.KernelIdeal.RegionSum

end
-- ==== Proof.RegionFinal.lean ====
/-
  WHAT THE FIVE OUTPUT ARRAYS HOLD AFTER THE REGION.

  Each output array is `[2, 32, 1]`: one block `[1, 32, 1]` per half of the unknowns.  Point `t` works on block
  `(t / 8, 0, 0)`; the block is written back once, after the last point of its half (`t ≡ 7` mod 8), and the two blocks
  cover the array.  So the array ends holding, at `(p, b, 0)`, the running entry of row `b` after point `8 p + 7`.
-/
import proofs.«111848_j11364483465834_2_alg».proof.Proof.RegionSum
import Idealize.ShloMosaic.Lib.Pipeline.Value

noncomputable section

open scoped BigOperators

namespace Cert.KernelIdeal.RegionFinal

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.RegionPay Cert.KernelIdeal.Region Cert.KernelIdeal.RegionSum

variable (m : (ℓ : Loc nD τ sig) → Buf (Elt Ideal) ℓ)

/-- The output windows' index maps, decided over the grid: point `t` works on block `(t / 8, 0, 0)`. -/
theorem idx_out : ∀ t : Fin cfg0.N,
    (win0_3.index t 0 = t.val / 8 ∧ win0_3.index t 1 = 0 ∧ win0_3.index t 2 = 0)
    ∧ (win0_4.index t 0 = t.val / 8 ∧ win0_4.index t 1 = 0 ∧ win0_4.index t 2 = 0)
    ∧ (win0_5.index t 0 = t.val / 8 ∧ win0_5.index t 1 = 0 ∧ win0_5.index t 2 = 0)
    ∧ (win0_6.index t 0 = t.val / 8 ∧ win0_6.index t 1 = 0 ∧ win0_6.index t 2 = 0)
    ∧ (win0_7.index t 0 = t.val / 8 ∧ win0_7.index t 1 = 0 ∧ win0_7.index t 2 = 0) :=
  (by decide +kernel : ∀ t : Fin grid0.N,
    (win0_3.index t 0 = t.val / 8 ∧ win0_3.index t 1 = 0 ∧ win0_3.index t 2 = 0)
    ∧ (win0_4.index t 0 = t.val / 8 ∧ win0_4.index t 1 = 0 ∧ win0_4.index t 2 = 0)
    ∧ (win0_5.index t 0 = t.val / 8 ∧ win0_5.index t 1 = 0 ∧ win0_5.index t 2 = 0)
    ∧ (win0_6.index t 0 = t.val / 8 ∧ win0_6.index t 1 = 0 ∧ win0_6.index t 2 = 0)
    ∧ (win0_7.index t 0 = t.val / 8 ∧ win0_7.index t 1 = 0 ∧ win0_7.index t 2 = 0))

/-- An entry of a block `[1, 32, 1]` from the last two coordinates of an entry of the array `[2, 32, 1]`. -/
def inBlock (i : S2x32x1.Idx) : S1x32x1.Idx :=
  ix3 (0 : Fin 1) (⟨(i 1).val, (i 1).isLt⟩ : Fin 32) (⟨(i 2).val, (i 2).isLt⟩ : Fin 1)

/-! ## Output 1: targets · predictions -/

/-- What output array 1 ends holding: at `(p, b, 0)` the running entry of row `b` after point `8 p + 7`. -/
def G3 (c : Dev nD) : S2x32x1.Idx → EReal := fun i => (outs m c ((i 0).val * 8 + 7)).1 (inBlock i)

/-- The block of output 1 at point `t` starts at row `t / 8` of its array: an entry of the block, in the array, has
    leading coordinate `t / 8`; at the last point of a half, `8 (t / 8) + 7` is `t` itself. -/
theorem embRow3 (t : Fin cfg0.N) (h7 : t.val % 8 = 7) (y : ((cfg0.win 3).xblock (grid0.coords t)).Idx) :
    ((((cfg0.win 3).blk t).view.emb y) 0).val * 8 + 7 = t.val := by
  obtain ⟨⟨e0, e1, e2⟩, -⟩ := idx_out t
  have hy0 : (y 0).val < 1 := (y 0).isLt
  show (win0_3.index t 0 * 1 + 1 * (y 0).val) * 8 + 7 = t.val
  rw [e0]; omega

/-- … and its two trailing coordinates are the entry's own. -/
theorem embIn3 (t : Fin cfg0.N) (y : ((cfg0.win 3).xblock (grid0.coords t)).Idx) :
    inBlock (((cfg0.win 3).blk t).view.emb y) = y := by
  obtain ⟨⟨e0, e1, e2⟩, -⟩ := idx_out t
  have hy0 : (y 0).val < 1 := (y 0).isLt
  funext a; apply Fin.ext
  match a with
  | ⟨0, _⟩ => show 0 = (y 0).val; omega
  | ⟨1, _⟩ => show win0_3.index t 1 * 32 + 1 * (y 1).val = (y 1).val; rw [e1]; omega
  | ⟨2, _⟩ => show win0_3.index t 2 * 1 + 1 * (y 2).val = (y 2).val; rw [e2]; omega

/-- What a write-back of output 1 writes is the block of `G3` it lands on. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3]
  funext y
  rw [View.read_apply]
  show (outsAt0 m c t.val t.isLt).1 y = (outs m c (((((cfg0.win 3).blk t).view.emb y) 0).val * 8 + 7)).1 (inBlock (((cfg0.win 3).blk t).view.emb y))
  exact (congrArg (fun o => o.1 y) (outs_of_lt m c t.val t.isLt)).symm.trans
    (congrArg₂ (fun n z => (outs m c n).1 z) (embRow3 t h7 y) (embIn3 t y)).symm

/-- An entry of the array lies in point `t`'s block iff each coordinate lies in the block's range on its axis. -/
theorem mem_blk3 (t : Fin cfg0.N) (i : S2x32x1.Idx) :
    i ∈ ((cfg0.win 3).blk t).view.set
      ↔ ∀ a : Fin 3, win0_3.index t a * S1x32x1.size a ≤ (i a).val ∧ (i a).val < win0_3.index t a * S1x32x1.size a + S1x32x1.size a := by
  show i ∈ ((View.whole main_v122_0).slice (win0_3.rect t)).set ↔ _
  rw [View.set_slice_whole, Rect.mem_set_unit]
  exact Iff.rfl

/-- Every entry `(p, b, 0)` of output array 1 lies in the block written back after point `8 p + 7`. -/
theorem cover3 (i : S2x32x1.Idx) : ∃ t : Fin cfg0.N, (cfg0.win 3).flush t = true ∧ i ∈ ((cfg0.win 3).blk t).view.set := by
  have h0 : (i 0).val < 2 := (i 0).isLt
  have h1 : (i 1).val < 32 := (i 1).isLt
  have h2 : (i 2).val < 1 := (i 2).isLt
  have hN := hN16
  have hlt : (i 0).val * 8 + 7 < cfg0.N := by omega
  refine ⟨⟨(i 0).val * 8 + 7, hlt⟩, (flush0_3 _).mpr (by show ((i 0).val * 8 + 7) % 8 = 7; omega), ?_⟩
  obtain ⟨⟨e0, e1, e2⟩, -⟩ := idx_out ⟨(i 0).val * 8 + 7, hlt⟩
  have e0' : win0_3.index ⟨(i 0).val * 8 + 7, hlt⟩ 0 = ((i 0).val * 8 + 7) / 8 := e0
  rw [mem_blk3]
  intro a
  match a with
  | ⟨0, _⟩ =>
    show win0_3.index ⟨(i 0).val * 8 + 7, hlt⟩ 0 * 1 ≤ (i 0).val ∧ (i 0).val < win0_3.index ⟨(i 0).val * 8 + 7, hlt⟩ 0 * 1 + 1
    rw [e0']; omega
  | ⟨1, _⟩ =>
    show win0_3.index ⟨(i 0).val * 8 + 7, hlt⟩ 1 * 32 ≤ (i 1).val ∧ (i 1).val < win0_3.index ⟨(i 0).val * 8 + 7, hlt⟩ 1 * 32 + 32
    rw [e1]; omega
  | ⟨2, _⟩ =>
    show win0_3.index ⟨(i 0).val * 8 + 7, hlt⟩ 2 * 1 ≤ (i 2).val ∧ (i 2).val < win0_3.index ⟨(i 0).val * 8 + 7, hlt⟩ 2 * 1 + 1
    rw [e2]; omega

/-- Output array 1 after the run. -/
theorem final3 (c : Dev nD) : (dats m 0 c).arrAt 3 cfg0.N = G3 m c :=
  (dats m 0 c).arrAt_eq_of_cover 3 (G3 m c) (flushed3_eq m c) (cover3)

/-- … and at `(p, b, 0)`: the sum of the eight lane sums of half `p`. -/
theorem G3_apply (c : Dev nD) (p : Fin 2) (b : Fin 32) :
    G3 m c (ix3 p b (0 : Fin 1)) = ∑ k ∈ Finset.range 8, lane (b1 m c (p.val * 8 + k)) (b0 m c (p.val * 8 + k)) b :=
  e3_sum m c b p.val (by have := hN16; have := p.isLt; omega)

/-! ## Output 2: predictions · product -/

/-- What output array 2 ends holding: at `(p, b, 0)` the running entry of row `b` after point `8 p + 7`. -/
def G4 (c : Dev nD) : S2x32x1.Idx → EReal := fun i => (outs m c ((i 0).val * 8 + 7)).2.1 (inBlock i)

/-- The block of output 2 at point `t` starts at row `t / 8` of its array: an entry of the block, in the array, has
    leading coordinate `t / 8`; at the last point of a half, `8 (t / 8) + 7` is `t` itself. -/
theorem embRow4 (t : Fin cfg0.N) (h7 : t.val % 8 = 7) (y : ((cfg0.win 4).xblock (grid0.coords t)).Idx) :
    ((((cfg0.win 4).blk t).view.emb y) 0).val * 8 + 7 = t.val := by
  obtain ⟨-, ⟨e0, e1, e2⟩, -⟩ := idx_out t
  have hy0 : (y 0).val < 1 := (y 0).isLt
  show (win0_4.index t 0 * 1 + 1 * (y 0).val) * 8 + 7 = t.val
  rw [e0]; omega

/-- … and its two trailing coordinates are the entry's own. -/
theorem embIn4 (t : Fin cfg0.N) (y : ((cfg0.win 4).xblock (grid0.coords t)).Idx) :
    inBlock (((cfg0.win 4).blk t).view.emb y) = y := by
  obtain ⟨-, ⟨e0, e1, e2⟩, -⟩ := idx_out t
  have hy0 : (y 0).val < 1 := (y 0).isLt
  funext a; apply Fin.ext
  match a with
  | ⟨0, _⟩ => show 0 = (y 0).val; omega
  | ⟨1, _⟩ => show win0_4.index t 1 * 32 + 1 * (y 1).val = (y 1).val; rw [e1]; omega
  | ⟨2, _⟩ => show win0_4.index t 2 * 1 + 1 * (y 2).val = (y 2).val; rw [e2]; omega

/-- What a write-back of output 2 writes is the block of `G4` it lands on. -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  show (cfg0.win 4).cut (grid0.coords t) ((dats m 0 c).after 4 t) = _
  rw [after0_4]
  funext y
  rw [View.read_apply]
  show (outsAt0 m c t.val t.isLt).2.1 y = (outs m c (((((cfg0.win 4).blk t).view.emb y) 0).val * 8 + 7)).2.1 (inBlock (((cfg0.win 4).blk t).view.emb y))
  exact (congrArg (fun o => o.2.1 y) (outs_of_lt m c t.val t.isLt)).symm.trans
    (congrArg₂ (fun n z => (outs m c n).2.1 z) (embRow4 t h7 y) (embIn4 t y)).symm

/-- An entry of the array lies in point `t`'s block iff each coordinate lies in the block's range on its axis. -/
theorem mem_blk4 (t : Fin cfg0.N) (i : S2x32x1.Idx) :
    i ∈ ((cfg0.win 4).blk t).view.set
      ↔ ∀ a : Fin 3, win0_4.index t a * S1x32x1.size a ≤ (i a).val ∧ (i a).val < win0_4.index t a * S1x32x1.size a + S1x32x1.size a := by
  show i ∈ ((View.whole main_v122_1).slice (win0_4.rect t)).set ↔ _
  rw [View.set_slice_whole, Rect.mem_set_unit]
  exact Iff.rfl

/-- Every entry `(p, b, 0)` of output array 2 lies in the block written back after point `8 p + 7`. -/
theorem cover4 (i : S2x32x1.Idx) : ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 1 := (i 2).isLt
  have hN := hN16
  have hlt : (i 0).val * 8 + 7 < cfg0.N := by omega
  refine ⟨⟨(i 0).val * 8 + 7, hlt⟩, (flush0_4 _).mpr (by show ((i 0).val * 8 + 7) % 8 = 7; omega), ?_⟩
  obtain ⟨-, ⟨e0, e1, e2⟩, -⟩ := idx_out ⟨(i 0).val * 8 + 7, hlt⟩
  have e0' : win0_4.index ⟨(i 0).val * 8 + 7, hlt⟩ 0 = ((i 0).val * 8 + 7) / 8 := e0
  rw [mem_blk4]
  intro a
  match a with
  | ⟨0, _⟩ =>
    show win0_4.index ⟨(i 0).val * 8 + 7, hlt⟩ 0 * 1 ≤ (i 0).val ∧ (i 0).val < win0_4.index ⟨(i 0).val * 8 + 7, hlt⟩ 0 * 1 + 1
    rw [e0']; omega
  | ⟨1, _⟩ =>
    show win0_4.index ⟨(i 0).val * 8 + 7, hlt⟩ 1 * 32 ≤ (i 1).val ∧ (i 1).val < win0_4.index ⟨(i 0).val * 8 + 7, hlt⟩ 1 * 32 + 32
    rw [e1]; omega
  | ⟨2, _⟩ =>
    show win0_4.index ⟨(i 0).val * 8 + 7, hlt⟩ 2 * 1 ≤ (i 2).val ∧ (i 2).val < win0_4.index ⟨(i 0).val * 8 + 7, hlt⟩ 2 * 1 + 1
    rw [e2]; omega

/-- Output array 2 after the run. -/
theorem final4 (c : Dev nD) : (dats m 0 c).arrAt 4 cfg0.N = G4 m c :=
  (dats m 0 c).arrAt_eq_of_cover 4 (G4 m c) (flushed4_eq m c) (cover4)

/-- … and at `(p, b, 0)`: the sum of the eight lane sums of half `p`. -/
theorem G4_apply (c : Dev nD) (p : Fin 2) (b : Fin 32) :
    G4 m c (ix3 p b (0 : Fin 1)) = ∑ k ∈ Finset.range 8, lane (b0 m c (p.val * 8 + k)) (b2 m c (p.val * 8 + k)) b :=
  e4_sum m c b p.val (by have := hN16; have := p.isLt; omega)

/-! ## Output 3: targets · targets -/

/-- What output array 3 ends holding: at `(p, b, 0)` the running entry of row `b` after point `8 p + 7`. -/
def G5 (c : Dev nD) : S2x32x1.Idx → EReal := fun i => (outs m c ((i 0).val * 8 + 7)).2.2.1 (inBlock i)

/-- The block of output 3 at point `t` starts at row `t / 8` of its array: an entry of the block, in the array, has
    leading coordinate `t / 8`; at the last point of a half, `8 (t / 8) + 7` is `t` itself. -/
theorem embRow5 (t : Fin cfg0.N) (h7 : t.val % 8 = 7) (y : ((cfg0.win 5).xblock (grid0.coords t)).Idx) :
    ((((cfg0.win 5).blk t).view.emb y) 0).val * 8 + 7 = t.val := by
  obtain ⟨-, -, ⟨e0, e1, e2⟩, -⟩ := idx_out t
  have hy0 : (y 0).val < 1 := (y 0).isLt
  show (win0_5.index t 0 * 1 + 1 * (y 0).val) * 8 + 7 = t.val
  rw [e0]; omega

/-- … and its two trailing coordinates are the entry's own. -/
theorem embIn5 (t : Fin cfg0.N) (y : ((cfg0.win 5).xblock (grid0.coords t)).Idx) :
    inBlock (((cfg0.win 5).blk t).view.emb y) = y := by
  obtain ⟨-, -, ⟨e0, e1, e2⟩, -⟩ := idx_out t
  have hy0 : (y 0).val < 1 := (y 0).isLt
  funext a; apply Fin.ext
  match a with
  | ⟨0, _⟩ => show 0 = (y 0).val; omega
  | ⟨1, _⟩ => show win0_5.index t 1 * 32 + 1 * (y 1).val = (y 1).val; rw [e1]; omega
  | ⟨2, _⟩ => show win0_5.index t 2 * 1 + 1 * (y 2).val = (y 2).val; rw [e2]; omega

/-- What a write-back of output 3 writes is the block of `G5` it lands on. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  show (cfg0.win 5).cut (grid0.coords t) ((dats m 0 c).after 5 t) = _
  rw [after0_5]
  funext y
  rw [View.read_apply]
  show (outsAt0 m c t.val t.isLt).2.2.1 y = (outs m c (((((cfg0.win 5).blk t).view.emb y) 0).val * 8 + 7)).2.2.1 (inBlock (((cfg0.win 5).blk t).view.emb y))
  exact (congrArg (fun o => o.2.2.1 y) (outs_of_lt m c t.val t.isLt)).symm.trans
    (congrArg₂ (fun n z => (outs m c n).2.2.1 z) (embRow5 t h7 y) (embIn5 t y)).symm

/-- An entry of the array lies in point `t`'s block iff each coordinate lies in the block's range on its axis. -/
theorem mem_blk5 (t : Fin cfg0.N) (i : S2x32x1.Idx) :
    i ∈ ((cfg0.win 5).blk t).view.set
      ↔ ∀ a : Fin 3, win0_5.index t a * S1x32x1.size a ≤ (i a).val ∧ (i a).val < win0_5.index t a * S1x32x1.size a + S1x32x1.size a := by
  show i ∈ ((View.whole main_v122_2).slice (win0_5.rect t)).set ↔ _
  rw [View.set_slice_whole, Rect.mem_set_unit]
  exact Iff.rfl

/-- Every entry `(p, b, 0)` of output array 3 lies in the block written back after point `8 p + 7`. -/
theorem cover5 (i : S2x32x1.Idx) : ∃ t : Fin cfg0.N, (cfg0.win 5).flush t = true ∧ i ∈ ((cfg0.win 5).blk t).view.set := by
  have h0 : (i 0).val < 2 := (i 0).isLt
  have h1 : (i 1).val < 32 := (i 1).isLt
  have h2 : (i 2).val < 1 := (i 2).isLt
  have hN := hN16
  have hlt : (i 0).val * 8 + 7 < cfg0.N := by omega
  refine ⟨⟨(i 0).val * 8 + 7, hlt⟩, (flush0_5 _).mpr (by show ((i 0).val * 8 + 7) % 8 = 7; omega), ?_⟩
  obtain ⟨-, -, ⟨e0, e1, e2⟩, -⟩ := idx_out ⟨(i 0).val * 8 + 7, hlt⟩
  have e0' : win0_5.index ⟨(i 0).val * 8 + 7, hlt⟩ 0 = ((i 0).val * 8 + 7) / 8 := e0
  rw [mem_blk5]
  intro a
  match a with
  | ⟨0, _⟩ =>
    show win0_5.index ⟨(i 0).val * 8 + 7, hlt⟩ 0 * 1 ≤ (i 0).val ∧ (i 0).val < win0_5.index ⟨(i 0).val * 8 + 7, hlt⟩ 0 * 1 + 1
    rw [e0']; omega
  | ⟨1, _⟩ =>
    show win0_5.index ⟨(i 0).val * 8 + 7, hlt⟩ 1 * 32 ≤ (i 1).val ∧ (i 1).val < win0_5.index ⟨(i 0).val * 8 + 7, hlt⟩ 1 * 32 + 32
    rw [e1]; omega
  | ⟨2, _⟩ =>
    show win0_5.index ⟨(i 0).val * 8 + 7, hlt⟩ 2 * 1 ≤ (i 2).val ∧ (i 2).val < win0_5.index ⟨(i 0).val * 8 + 7, hlt⟩ 2 * 1 + 1
    rw [e2]; omega

/-- Output array 3 after the run. -/
theorem final5 (c : Dev nD) : (dats m 0 c).arrAt 5 cfg0.N = G5 m c :=
  (dats m 0 c).arrAt_eq_of_cover 5 (G5 m c) (flushed5_eq m c) (cover5)

/-- … and at `(p, b, 0)`: the sum of the eight lane sums of half `p`. -/
theorem G5_apply (c : Dev nD) (p : Fin 2) (b : Fin 32) :
    G5 m c (ix3 p b (0 : Fin 1)) = ∑ k ∈ Finset.range 8, lane (b1 m c (p.val * 8 + k)) (b1 m c (p.val * 8 + k)) b :=
  e5_sum m c b p.val (by have := hN16; have := p.isLt; omega)

/-! ## Output 4: targets · product -/

/-- What output array 4 ends holding: at `(p, b, 0)` the running entry of row `b` after point `8 p + 7`. -/
def G6 (c : Dev nD) : S2x32x1.Idx → EReal := fun i => (outs m c ((i 0).val * 8 + 7)).2.2.2.1 (inBlock i)

/-- The block of output 4 at point `t` starts at row `t / 8` of its array: an entry of the block, in the array, has
    leading coordinate `t / 8`; at the last point of a half, `8 (t / 8) + 7` is `t` itself. -/
theorem embRow6 (t : Fin cfg0.N) (h7 : t.val % 8 = 7) (y : ((cfg0.win 6).xblock (grid0.coords t)).Idx) :
    ((((cfg0.win 6).blk t).view.emb y) 0).val * 8 + 7 = t.val := by
  obtain ⟨-, -, -, ⟨e0, e1, e2⟩, -⟩ := idx_out t
  have hy0 : (y 0).val < 1 := (y 0).isLt
  show (win0_6.index t 0 * 1 + 1 * (y 0).val) * 8 + 7 = t.val
  rw [e0]; omega

/-- … and its two trailing coordinates are the entry's own. -/
theorem embIn6 (t : Fin cfg0.N) (y : ((cfg0.win 6).xblock (grid0.coords t)).Idx) :
    inBlock (((cfg0.win 6).blk t).view.emb y) = y := by
  obtain ⟨-, -, -, ⟨e0, e1, e2⟩, -⟩ := idx_out t
  have hy0 : (y 0).val < 1 := (y 0).isLt
  funext a; apply Fin.ext
  match a with
  | ⟨0, _⟩ => show 0 = (y 0).val; omega
  | ⟨1, _⟩ => show win0_6.index t 1 * 32 + 1 * (y 1).val = (y 1).val; rw [e1]; omega
  | ⟨2, _⟩ => show win0_6.index t 2 * 1 + 1 * (y 2).val = (y 2).val; rw [e2]; omega

/-- What a write-back of output 4 writes is the block of `G6` it lands on. -/
theorem flushed6_eq (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  show (cfg0.win 6).cut (grid0.coords t) ((dats m 0 c).after 6 t) = _
  rw [after0_6]
  funext y
  rw [View.read_apply]
  show (outsAt0 m c t.val t.isLt).2.2.2.1 y = (outs m c (((((cfg0.win 6).blk t).view.emb y) 0).val * 8 + 7)).2.2.2.1 (inBlock (((cfg0.win 6).blk t).view.emb y))
  exact (congrArg (fun o => o.2.2.2.1 y) (outs_of_lt m c t.val t.isLt)).symm.trans
    (congrArg₂ (fun n z => (outs m c n).2.2.2.1 z) (embRow6 t h7 y) (embIn6 t y)).symm

/-- An entry of the array lies in point `t`'s block iff each coordinate lies in the block's range on its axis. -/
theorem mem_blk6 (t : Fin cfg0.N) (i : S2x32x1.Idx) :
    i ∈ ((cfg0.win 6).blk t).view.set
      ↔ ∀ a : Fin 3, win0_6.index t a * S1x32x1.size a ≤ (i a).val ∧ (i a).val < win0_6.index t a * S1x32x1.size a + S1x32x1.size a := by
  show i ∈ ((View.whole main_v122_3).slice (win0_6.rect t)).set ↔ _
  rw [View.set_slice_whole, Rect.mem_set_unit]
  exact Iff.rfl

/-- Every entry `(p, b, 0)` of output array 4 lies in the block written back after point `8 p + 7`. -/
theorem cover6 (i : S2x32x1.Idx) : ∃ t : Fin cfg0.N, (cfg0.win 6).flush t = true ∧ i ∈ ((cfg0.win 6).blk t).view.set := by
  have h0 : (i 0).val < 2 := (i 0).isLt
  have h1 : (i 1).val < 32 := (i 1).isLt
  have h2 : (i 2).val < 1 := (i 2).isLt
  have hN := hN16
  have hlt : (i 0).val * 8 + 7 < cfg0.N := by omega
  refine ⟨⟨(i 0).val * 8 + 7, hlt⟩, (flush0_6 _).mpr (by show ((i 0).val * 8 + 7) % 8 = 7; omega), ?_⟩
  obtain ⟨-, -, -, ⟨e0, e1, e2⟩, -⟩ := idx_out ⟨(i 0).val * 8 + 7, hlt⟩
  have e0' : win0_6.index ⟨(i 0).val * 8 + 7, hlt⟩ 0 = ((i 0).val * 8 + 7) / 8 := e0
  rw [mem_blk6]
  intro a
  match a with
  | ⟨0, _⟩ =>
    show win0_6.index ⟨(i 0).val * 8 + 7, hlt⟩ 0 * 1 ≤ (i 0).val ∧ (i 0).val < win0_6.index ⟨(i 0).val * 8 + 7, hlt⟩ 0 * 1 + 1
    rw [e0']; omega
  | ⟨1, _⟩ =>
    show win0_6.index ⟨(i 0).val * 8 + 7, hlt⟩ 1 * 32 ≤ (i 1).val ∧ (i 1).val < win0_6.index ⟨(i 0).val * 8 + 7, hlt⟩ 1 * 32 + 32
    rw [e1]; omega
  | ⟨2, _⟩ =>
    show win0_6.index ⟨(i 0).val * 8 + 7, hlt⟩ 2 * 1 ≤ (i 2).val ∧ (i 2).val < win0_6.index ⟨(i 0).val * 8 + 7, hlt⟩ 2 * 1 + 1
    rw [e2]; omega

/-- Output array 4 after the run. -/
theorem final6 (c : Dev nD) : (dats m 0 c).arrAt 6 cfg0.N = G6 m c :=
  (dats m 0 c).arrAt_eq_of_cover 6 (G6 m c) (flushed6_eq m c) (cover6)

/-- … and at `(p, b, 0)`: the sum of the eight lane sums of half `p`. -/
theorem G6_apply (c : Dev nD) (p : Fin 2) (b : Fin 32) :
    G6 m c (ix3 p b (0 : Fin 1)) = ∑ k ∈ Finset.range 8, lane (b1 m c (p.val * 8 + k)) (b2 m c (p.val * 8 + k)) b :=
  e6_sum m c b p.val (by have := hN16; have := p.isLt; omega)

/-! ## Output 5: product · product -/

/-- What output array 5 ends holding: at `(p, b, 0)` the running entry of row `b` after point `8 p + 7`. -/
def G7 (c : Dev nD) : S2x32x1.Idx → EReal := fun i => (outs m c ((i 0).val * 8 + 7)).2.2.2.2 (inBlock i)

/-- The block of output 5 at point `t` starts at row `t / 8` of its array: an entry of the block, in the array, has
    leading coordinate `t / 8`; at the last point of a half, `8 (t / 8) + 7` is `t` itself. -/
theorem embRow7 (t : Fin cfg0.N) (h7 : t.val % 8 = 7) (y : ((cfg0.win 7).xblock (grid0.coords t)).Idx) :
    ((((cfg0.win 7).blk t).view.emb y) 0).val * 8 + 7 = t.val := by
  obtain ⟨-, -, -, -, ⟨e0, e1, e2⟩⟩ := idx_out t
  have hy0 : (y 0).val < 1 := (y 0).isLt
  show (win0_7.index t 0 * 1 + 1 * (y 0).val) * 8 + 7 = t.val
  rw [e0]; omega

/-- … and its two trailing coordinates are the entry's own. -/
theorem embIn7 (t : Fin cfg0.N) (y : ((cfg0.win 7).xblock (grid0.coords t)).Idx) :
    inBlock (((cfg0.win 7).blk t).view.emb y) = y := by
  obtain ⟨-, -, -, -, ⟨e0, e1, e2⟩⟩ := idx_out t
  have hy0 : (y 0).val < 1 := (y 0).isLt
  funext a; apply Fin.ext
  match a with
  | ⟨0, _⟩ => show 0 = (y 0).val; omega
  | ⟨1, _⟩ => show win0_7.index t 1 * 32 + 1 * (y 1).val = (y 1).val; rw [e1]; omega
  | ⟨2, _⟩ => show win0_7.index t 2 * 1 + 1 * (y 2).val = (y 2).val; rw [e2]; omega

/-- What a write-back of output 5 writes is the block of `G7` it lands on. -/
theorem flushed7_eq (c : Dev nD) (t : Fin cfg0.N) (hf : (cfg0.win 7).flush t = true) :
    (dats m 0 c).flushed 7 t = ((cfg0.win 7).blk t).view.read (Elt Ideal) (G7 m c) := by
  have h7 : t.val % 8 = 7 := (flush0_7 t).mp hf
  show (cfg0.win 7).cut (grid0.coords t) ((dats m 0 c).after 7 t) = _
  rw [after0_7]
  funext y
  rw [View.read_apply]
  show (outsAt0 m c t.val t.isLt).2.2.2.2 y = (outs m c (((((cfg0.win 7).blk t).view.emb y) 0).val * 8 + 7)).2.2.2.2 (inBlock (((cfg0.win 7).blk t).view.emb y))
  exact (congrArg (fun o => o.2.2.2.2 y) (outs_of_lt m c t.val t.isLt)).symm.trans
    (congrArg₂ (fun n z => (outs m c n).2.2.2.2 z) (embRow7 t h7 y) (embIn7 t y)).symm

/-- An entry of the array lies in point `t`'s block iff each coordinate lies in the block's range on its axis. -/
theorem mem_blk7 (t : Fin cfg0.N) (i : S2x32x1.Idx) :
    i ∈ ((cfg0.win 7).blk t).view.set
      ↔ ∀ a : Fin 3, win0_7.index t a * S1x32x1.size a ≤ (i a).val ∧ (i a).val < win0_7.index t a * S1x32x1.size a + S1x32x1.size a := by
  show i ∈ ((View.whole main_v122_4).slice (win0_7.rect t)).set ↔ _
  rw [View.set_slice_whole, Rect.mem_set_unit]
  exact Iff.rfl

/-- Every entry `(p, b, 0)` of output array 5 lies in the block written back after point `8 p + 7`. -/
theorem cover7 (i : S2x32x1.Idx) : ∃ t : Fin cfg0.N, (cfg0.win 7).flush t = true ∧ i ∈ ((cfg0.win 7).blk t).view.set := by
  have h0 : (i 0).val < 2 := (i 0).isLt
  have h1 : (i 1).val < 32 := (i 1).isLt
  have h2 : (i 2).val < 1 := (i 2).isLt
  have hN := hN16
  have hlt : (i 0).val * 8 + 7 < cfg0.N := by omega
  refine ⟨⟨(i 0).val * 8 + 7, hlt⟩, (flush0_7 _).mpr (by show ((i 0).val * 8 + 7) % 8 = 7; omega), ?_⟩
  obtain ⟨-, -, -, -, ⟨e0, e1, e2⟩⟩ := idx_out ⟨(i 0).val * 8 + 7, hlt⟩
  have e0' : win0_7.index ⟨(i 0).val * 8 + 7, hlt⟩ 0 = ((i 0).val * 8 + 7) / 8 := e0
  rw [mem_blk7]
  intro a
  match a with
  | ⟨0, _⟩ =>
    show win0_7.index ⟨(i 0).val * 8 + 7, hlt⟩ 0 * 1 ≤ (i 0).val ∧ (i 0).val < win0_7.index ⟨(i 0).val * 8 + 7, hlt⟩ 0 * 1 + 1
    rw [e0']; omega
  | ⟨1, _⟩ =>
    show win0_7.index ⟨(i 0).val * 8 + 7, hlt⟩ 1 * 32 ≤ (i 1).val ∧ (i 1).val < win0_7.index ⟨(i 0).val * 8 + 7, hlt⟩ 1 * 32 + 32
    rw [e1]; omega
  | ⟨2, _⟩ =>
    show win0_7.index ⟨(i 0).val * 8 + 7, hlt⟩ 2 * 1 ≤ (i 2).val ∧ (i 2).val < win0_7.index ⟨(i 0).val * 8 + 7, hlt⟩ 2 * 1 + 1
    rw [e2]; omega

/-- Output array 5 after the run. -/
theorem final7 (c : Dev nD) : (dats m 0 c).arrAt 7 cfg0.N = G7 m c :=
  (dats m 0 c).arrAt_eq_of_cover 7 (G7 m c) (flushed7_eq m c) (cover7)

/-- … and at `(p, b, 0)`: the sum of the eight lane sums of half `p`. -/
theorem G7_apply (c : Dev nD) (p : Fin 2) (b : Fin 32) :
    G7 m c (ix3 p b (0 : Fin 1)) = ∑ k ∈ Finset.range 8, lane (b2 m c (p.val * 8 + k)) (b2 m c (p.val * 8 + k)) b :=
  e7_sum m c b p.val (by have := hN16; have := p.isLt; omega)

end Cert.KernelIdeal.RegionFinal

end
-- ==== Proof.LibSumBlocks.lean ====
/-
  Splitting a finite sum over a product extent into nested sums over its factors.
-/
import Mathlib.Algebra.BigOperators.Fin

open scoped BigOperators

namespace Cert.LibSumBlocks

/-- The position of entry `q` of block `p`, for blocks of length `b`, lies below `a * b`
when there are `a` blocks. -/
theorem blk_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

/-- A sum over `Fin (a * b)` is the sum over the `a` consecutive blocks of length `b` of the sum
inside each block: entry `q` of block `p` sits at position `p * b + q`. -/
theorem sum_fin_blocks2 {M : Type*} [AddCommMonoid M] (a b : ℕ) (f : Fin (a * b) → M) :
    ∑ i, f i = ∑ p : Fin a, ∑ q : Fin b, f ⟨p.val * b + q.val, blk_lt p.isLt q.isLt⟩ := by
  rw [← Equiv.sum_comp finProdFinEquiv f, Fintype.sum_prod_type]
  refine Finset.sum_congr rfl fun p _ => Finset.sum_congr rfl fun q _ => congrArg f (Fin.ext ?_)
  show q.val + b * p.val = p.val * b + q.val
  rw [Nat.mul_comm, Nat.add_comm]

/-- A sum over `Fin (a * b * c)` is a triple nested sum: the index range is cut into `a` blocks,
each block into `b` sub-blocks of length `c`; entry `s` of sub-block `q` of block `p` sits at
position `(p * b + q) * c + s`. -/
theorem sum_fin_blocks3 {M : Type*} [AddCommMonoid M] (a b c : ℕ) (f : Fin (a * b * c) → M) :
    ∑ i, f i = ∑ p : Fin a, ∑ q : Fin b, ∑ s : Fin c,
      f ⟨(p.val * b + q.val) * c + s.val, blk_lt (blk_lt p.isLt q.isLt) s.isLt⟩ :=
  (sum_fin_blocks2 (a * b) c f).trans
    (sum_fin_blocks2 a b fun pq : Fin (a * b) =>
      ∑ s : Fin c, f ⟨pq.val * c + s.val, blk_lt pq.isLt s.isLt⟩)

/-- The triple split of `sum_fin_blocks3` for an extent `n` given with a proof that it is the
product `a * b * c`, so that `n` may be a numeral. -/
theorem sum_fin_blocks3_of_eq {M : Type*} [AddCommMonoid M] (n a b c : ℕ) (h : n = a * b * c)
    (f : Fin n → M) :
    ∑ i, f i = ∑ p : Fin a, ∑ q : Fin b, ∑ s : Fin c,
      f ⟨(p.val * b + q.val) * c + s.val, h ▸ blk_lt (blk_lt p.isLt q.isLt) s.isLt⟩ := by
  subst h
  exact sum_fin_blocks3 a b c f

/-- A sum over the 32768 rows, cut into 2 halves of 8 blocks of 2048 rows each: row `s` of block
`q` of half `p` is row `(p * 8 + q) * 2048 + s`. -/
theorem sum_rows_32768 {M : Type*} [AddCommMonoid M] (f : Fin 32768 → M) :
    ∑ i : Fin 32768, f i = ∑ p : Fin 2, ∑ q : Fin 8, ∑ s : Fin 2048,
      f ⟨(p.val * 8 + q.val) * 2048 + s.val, by omega⟩ :=
  sum_fin_blocks3_of_eq 32768 2 8 2048 (by decide) f

end Cert.LibSumBlocks
-- ==== Proof.DotBlocks.lean ====
/-
  THE TWO HALVES MAKE THE WHOLE DOT PRODUCT.

  The 262144 columns are 2 halves of 8 blocks of 16384 lanes: column `(8 p + k) · 16384 + l` is lane `l` of the block of
  point `8 p + k`.  So the sum over the two halves of the eight lane sums of a half is the sum over all the columns:
  the dot product of row `b` of the two arrays the blocks are cut from.
-/
import proofs.«111848_j11364483465834_2_alg».proof.Proof.RegionSum
import proofs.«111848_j11364483465834_2_alg».proof.Proof.LibSumBlocks
import proofs.«111848_j11364483465834_2_alg».proof.Proof.Spec

noncomputable section

open scoped BigOperators

namespace Cert.KernelIdeal.DotBlocks

open Idealize.ShloMosaic Idealize.ShloMosaic.ValueIdx
open Cert.KernelIdeal Cert.KernelIdeal.Gen Cert.KernelIdeal.RegionPay Cert.KernelIdeal.RegionSum

/-- If block `n` of `fX` (of `fY`) is the columns `[16384 n, 16384 (n + 1))` of `X` (of `Y`) for each of the 16 points,
    the lane sums of the 2 × 8 blocks add up to the dot product of row `b` of `X` and `Y`. -/
theorem halves_eq_dot (X Y : S32x262144.Idx → EReal) (fX fY : ℕ → Vec Ideal S32x16384 .f32)
    (hX : ∀ (n : ℕ) (hn : n < cfg0.N) (b : Fin 32) (l : Fin 16384), fX n (ix2 b l) = X (ix2 b ⟨n * 16384 + l.val, col_lt hn l⟩))
    (hY : ∀ (n : ℕ) (hn : n < cfg0.N) (b : Fin 32) (l : Fin 16384), fY n (ix2 b l) = Y (ix2 b ⟨n * 16384 + l.val, col_lt hn l⟩))
    (b : Fin 32) :
    ∑ p : Fin 2, ∑ k ∈ Finset.range 8, lane (fX (p.val * 8 + k)) (fY (p.val * 8 + k)) b = RidgeSpec.dot X Y b := by
  unfold RidgeSpec.dot
  rw [Cert.LibSumBlocks.sum_fin_blocks3_of_eq 262144 2 8 16384 (by norm_num) (fun n => X (ix2 b n) * Y (ix2 b n))]
  refine Finset.sum_congr rfl fun p _ => ?_
  rw [Finset.sum_range]
  refine Finset.sum_congr rfl fun q _ => ?_
  unfold lane
  refine Finset.sum_congr rfl fun s _ => ?_
  have hn : p.val * 8 + q.val < cfg0.N := by have := hN16; have := p.isLt; have := q.isLt; omega
  rw [hX _ hn b s, hY _ hn b s]

end Cert.KernelIdeal.DotBlocks

end
-- ==== Proof.TailValue.lean ====
/-
  THE HOST LINES AFTER THE REGION, as one function of the five output arrays.

  Each output array `[2, 32, 1]` is summed over its two halves to a vector `[32]`:
  `r o b = 0 + ∑ p, o (p, b, 0)`.  With `a = r o3 / r o4` (the fitted scale), the result is the mean over the 32 batch rows of
  `(r o5 − (2 · a) · r o6) + (a · a) · r o7`: the sum over the rows divided by the float `32.0`.
-/
import proofs.«111848_j11364483465834_2_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.TailValue

open Idealize.ShloMosaic Idealize.ShloMosaic.ValueIdx Cert.KernelIdeal

variable [Cert.KernelIdeal.Facts]
open Facts₀ Facts

/-- A sum over the entries of a vector is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

/-- A column `[32, 1]` recast as a vector `[32]` reads, at `b`, the column at `(b, 0)`. -/
theorem cast_32x1_32 {α : Type} (x : S32x1.Idx → α) (h : S32x1.ShapeCasts S32) (b : Fin 32) :
    shapeCast S32 x h (ix1 b) = x (ix2 b (0 : Fin 1)) :=
  shapeCast_apply x h _ _ (by
    rw [Shape.rowMajor_val_two, Shape.rowMajor_val_one]
    show b.val * 1 + 0 = b.val
    omega)

/-- The two halves of an output array summed: the host's reduction over the leading axis, recast to a vector. -/
def rowSum (o : Vec Ideal S2x32x1 .f32) : FVec Ideal S32 .f32 :=
  fun i => shapeCast S32 (Host.reduceAdd (F := Ideal) o (constant (F := Ideal) S_ .f32 0x00000000#32) reducesTo_S2x32x1_S32x1_d0 h_S_)
    shapeCasts_S32x1_S32 i

/-- At batch row `b`: the two halves' entries added. -/
theorem rowSum_apply (o : Vec Ideal S2x32x1 .f32) (b : Fin 32) :
    rowSum o (ix1 b) = ∑ p : Fin 2, o (ix3 p b (0 : Fin 1)) := by
  unfold rowSum
  refine (cast_32x1_32 _ _ b).trans ?_
  simp only [Host.reduceAdd, Ideal.hostReduceAdd_def]
  rw [Ideal.hostReduceAdd_single reducesTo_S2x32x1_S32x1_d0 (by decide)]
  show Ideal.ofBits .f32 0x00000000#32 + _ = _
  rw [Ideal.ofBits_zero_f32, zero_add]
  refine Finset.sum_congr rfl fun p _ => ?_
  exact congrArg o (funext fun a => Fin.ext (by match a with | ⟨0, _⟩ => rfl | ⟨1, _⟩ => rfl | ⟨2, _⟩ => rfl))

/-- The host lines after the region: the five reductions, the scale, the expanded square, the mean. -/
def tail (o3 o4 o5 o6 o7 : Vec Ideal S2x32x1 .f32) : FVec Ideal S_ .f32 :=
  Host.divf (F := Ideal)
    (Host.reduceAdd (F := Ideal)
      (addf
        (subf (rowSum o5)
          (mulf (mulf (broadcastInDim S32 ![] bcast_S_S32 (constant (F := Ideal) S_ .f32 0x40000000#32))
              (Host.divf (F := Ideal) (rowSum o3) (rowSum o4)))
            (rowSum o6)))
        (mulf (mulf (Host.divf (F := Ideal) (rowSum o3) (rowSum o4)) (Host.divf (F := Ideal) (rowSum o3) (rowSum o4))) (rowSum o7)))
      (constant (F := Ideal) S_ .f32 0x00000000#32) reducesTo_S32_S_d0 h_S_)
    (constant (F := Ideal) S_ .f32 0x42000000#32)

/-- The result of the host lines, at its one entry. -/
theorem tail_apply (o3 o4 o5 o6 o7 : Vec Ideal S2x32x1 .f32) (i : S_.Idx) :
    tail o3 o4 o5 o6 o7 i
      = Ideal.div (∑ b : Fin 32,
          ((rowSum o5 (ix1 b)
              - (Ideal.ofBits .f32 0x40000000#32 * Ideal.div (rowSum o3 (ix1 b)) (rowSum o4 (ix1 b))) * rowSum o6 (ix1 b))
            + (Ideal.div (rowSum o3 (ix1 b)) (rowSum o4 (ix1 b)) * Ideal.div (rowSum o3 (ix1 b)) (rowSum o4 (ix1 b)))
                * rowSum o7 (ix1 b)))
        (Ideal.ofBits .f32 0x42000000#32) := by
  unfold tail
  show Ideal.div (Host.reduceAdd (F := Ideal) _ _ reducesTo_S32_S_d0 h_S_ i) (Ideal.ofBits .f32 0x42000000#32) = _
  refine congrArg (fun x => Ideal.div x (Ideal.ofBits .f32 0x42000000#32)) ?_
  simp only [Host.reduceAdd, Ideal.hostReduceAdd_def]
  rw [Ideal.hostReduceAdd_total reducesTo_S32_S_d0 (fun b => b.elim0) _ _ i, sum_idx1]
  show Ideal.ofBits .f32 0x00000000#32 + _ = _
  rw [Ideal.ofBits_zero_f32, zero_add]
  rfl

end Cert.KernelIdeal.TailValue

end
-- ==== Proof.KernelValue.lean ====
/-
  THE KERNEL'S RESULT, as a function of the argument arrays.

  The region leaves in each of the five output arrays, at `(p, b, 0)`, the dot product of row `b` restricted to half `p`
  of the columns; the host lines after it add the two halves — the whole dot products `⟨yt, yp⟩`, `⟨yp, ya⟩`, `⟨yt, yt⟩`,
  `⟨yt, ya⟩`, `⟨ya, ya⟩` of the targets, the predictions and the sparse product the region was handed — and form the
  loss with the square expanded.
-/
import proofs.«111848_j11364483465834_2_alg».proof.Proof.RegionFinal
import proofs.«111848_j11364483465834_2_alg».proof.Proof.DotBlocks
import proofs.«111848_j11364483465834_2_alg».proof.Proof.TailValue
import proofs.«111848_j11364483465834_2_alg».proof.Proof.Spec
import Idealize.ShloMosaic.Lib.StableHlo.Run
import Idealize.ShloMosaic.Lib.Tactic

noncomputable section

open scoped BigOperators

namespace Cert.KernelIdeal.KernelValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.RegionPay Cert.KernelIdeal.RegionSum Cert.KernelIdeal.RegionFinal
open Cert.KernelIdeal.DotBlocks

variable (m : (ℓ : Loc nD τ sig) → Buf (Elt Ideal) ℓ)

set_option maxHeartbeats 2000000 in
/-- The result buffer after the host lines that follow the region: those lines applied to the five output arrays. -/
theorem tail_run (c : Dev nD) :
    Pipeline.afterTail₀ cfgs (dats m) 0 (V0 m) [hostOps1] c main_v142
      = TailValue.tail (G3 m c) (G4 m c) (G5 m c) (G6 m c) (G7 m c) := by
  have h3 : Pipeline.withArrays (cfgs 0).spec c (V0 m c) (fun w => (dats m 0 c).arrAt w (cfgs 0).N) (Proc.devRef .tc main_v122_0)
      = G3 m c := (Pipeline.withArrays_arr spec0 launch0.win.arr_inj c _ _ 3).trans (final3 m c)
  have h4 : Pipeline.withArrays (cfgs 0).spec c (V0 m c) (fun w => (dats m 0 c).arrAt w (cfgs 0).N) (Proc.devRef .tc main_v122_1)
      = G4 m c := (Pipeline.withArrays_arr spec0 launch0.win.arr_inj c _ _ 4).trans (final4 m c)
  have h5 : Pipeline.withArrays (cfgs 0).spec c (V0 m c) (fun w => (dats m 0 c).arrAt w (cfgs 0).N) (Proc.devRef .tc main_v122_2)
      = G5 m c := (Pipeline.withArrays_arr spec0 launch0.win.arr_inj c _ _ 5).trans (final5 m c)
  have h6 : Pipeline.withArrays (cfgs 0).spec c (V0 m c) (fun w => (dats m 0 c).arrAt w (cfgs 0).N) (Proc.devRef .tc main_v122_3)
      = G6 m c := (Pipeline.withArrays_arr spec0 launch0.win.arr_inj c _ _ 6).trans (final6 m c)
  have h7 : Pipeline.withArrays (cfgs 0).spec c (V0 m c) (fun w => (dats m 0 c).arrAt w (cfgs 0).N) (Proc.devRef .tc main_v122_4)
      = G7 m c := (Pipeline.withArrays_arr spec0 launch0.win.arr_inj c _ _ 7).trans (final7 m c)
  unfold Pipeline.afterTail₀
  simp only [hostOps1, List.flatten_cons, List.flatten_nil, List.append_nil]
  after_results_simp
  rw [h3, h4, h5, h6, h7]
  rfl

/-- The host lines' result is the loss with the square expanded, of the arrays the region was handed. -/
theorem value_eq (c : Dev nD) (yp yt : S32x262144.Idx → EReal) (v : S1835008.Idx → EReal) (rows cols : S1835008.Idx → BitVec 32)
    (h0 : (V m c main_arg0 : S32x262144.Idx → EReal) = yp) (h1 : (V m c main_arg1 : S32x262144.Idx → EReal) = yt)
    (h2 : (V m c main_v121 : S32x262144.Idx → EReal) = RidgeSpec.yaArr yp v rows cols) :
    TailValue.tail (G3 m c) (G4 m c) (G5 m c) (G6 m c) (G7 m c) = fun _ => RidgeSpec.lossQuad yp yt v rows cols := by
  have r3 : ∀ b : Fin 32, TailValue.rowSum (G3 m c) (ix1 b) = RidgeSpec.dot yt yp b := fun b => by
    rw [TailValue.rowSum_apply]
    simp only [G3_apply]
    rw [← h0, ← h1]
    exact halves_eq_dot _ _ (b1 m c) (b0 m c) (b1_apply m c) (b0_apply m c) b
  have r4 : ∀ b : Fin 32, TailValue.rowSum (G4 m c) (ix1 b) = RidgeSpec.dot yp (RidgeSpec.yaArr yp v rows cols) b := fun b => by
    rw [TailValue.rowSum_apply]
    simp only [G4_apply]
    rw [← h2, ← h0]
    exact halves_eq_dot _ _ (b0 m c) (b2 m c) (b0_apply m c) (b2_apply m c) b
  have r5 : ∀ b : Fin 32, TailValue.rowSum (G5 m c) (ix1 b) = RidgeSpec.dot yt yt b := fun b => by
    rw [TailValue.rowSum_apply]
    simp only [G5_apply]
    rw [← h1]
    exact halves_eq_dot _ _ (b1 m c) (b1 m c) (b1_apply m c) (b1_apply m c) b
  have r6 : ∀ b : Fin 32, TailValue.rowSum (G6 m c) (ix1 b) = RidgeSpec.dot yt (RidgeSpec.yaArr yp v rows cols) b := fun b => by
    rw [TailValue.rowSum_apply]
    simp only [G6_apply]
    rw [← h1, ← h2]
    exact halves_eq_dot _ _ (b1 m c) (b2 m c) (b1_apply m c) (b2_apply m c) b
  have r7 : ∀ b : Fin 32, TailValue.rowSum (G7 m c) (ix1 b)
      = RidgeSpec.dot (RidgeSpec.yaArr yp v rows cols) (RidgeSpec.yaArr yp v rows cols) b := fun b => by
    rw [TailValue.rowSum_apply]
    simp only [G7_apply]
    rw [← h2]
    exact halves_eq_dot _ _ (b2 m c) (b2 m c) (b2_apply m c) (b2_apply m c) b
  funext i
  rw [TailValue.tail_apply]
  simp only [r3, r4, r5, r6, r7]
  rfl

end Cert.KernelIdeal.KernelValue

end
-- ==== Proof.PrefixValue.lean ====
/-
  THE SPARSE PRODUCT AS THE HOST LINES BEFORE THE REGION COMPUTE IT.

  The matrix's 1835008 entries are taken in 7 chunks of 262144.  For the chunk that starts at entry o the program
  slices the values, the row words and the column words, wraps the column words (a negative word has 262144 added),
  gathers whole rows of the transposed predictions ypT : [262144, 32] at the wrapped columns (an indexed read, so the
  word is clamped into [0, 262143]), multiplies row e by the value of entry o + e, and scatter-adds the 262144
  product rows into a zero matrix [262144, 32] at the row words (read signed, not clamped: a word naming no row is
  dropped).  Element (n, b) of that partial is therefore

      0 + ∑ (q < 262144, row word of entry o + q = n)  yp[b, col (o + q)] · v[o + q].

  The seven partials are added, from a zero matrix, in order, and the sum is transposed back to [32, 262144].  Since
  1835008 = 7 · 262144, the sum over all entries landing on row n splits into the seven block sums, and the result is
  the sparse product RidgeSpec.yaArr.  Only 0 + x = x and the splitting of a finite sum are used: nothing about
  finiteness of the extended reals is needed.
-/
import proofs.«111848_j11364483465834_2_alg».proof.KernelIdeal
import proofs.«111848_j11364483465834_2_alg».proof.Proof.Spec
import proofs.«111848_j11364483465834_2_alg».proof.Proof.LibRowGatherScatter
import proofs.«111848_j11364483465834_2_alg».proof.Proof.LibSumBlocks
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.KernelIdeal.PrefixValue

open Idealize.ShloMosaic Idealize.ShloMosaic.ValueIdx

variable [Facts₀]
open Facts₀

/-! ## The operations of one chunk, as functions of the argument arrays -/

/-- The zero matrix [262144, 32]: the scalar 0.0 broadcast. -/
def zeros : FVec Ideal S262144x32 .f32 :=
  broadcastInDim S262144x32 ![] bcast_S_S262144x32 (constant S_ .f32 0x00000000#32)

/-- A chunk's column words wrapped: where the word is negative (read signed) the extent 262144 is added. -/
def wrapped (c : IVec S262144 32) : IVec S262144 32 :=
  select (cmpi .slt c (broadcastInDim S262144 ![] bcast_S_S262144 (constantI S_ 32 0#32)))
    (addi c (broadcastInDim S262144 ![] bcast_S_S262144 (constantI S_ 32 262144#32))) c

/-- The row words of the chunk starting at entry o, as a column [262144, 1] of scatter indices. -/
def rowIdx (o : Nat) (hs : S1835008.Slices ![o] S262144) (rows : IVec S1835008 32) : IVec S262144x1 32 :=
  broadcastInDim S262144x1 ![0] bcast_S262144_S262144x1_0 (extractStridedSlice S262144 ![o] rows hs)

/-- The wrapped column words of the chunk starting at entry o, as a column [262144, 1] of gather indices. -/
def colIdx (o : Nat) (hs : S1835008.Slices ![o] S262144) (cols : IVec S1835008 32) : IVec S262144x1 32 :=
  broadcastInDim S262144x1 ![0] bcast_S262144_S262144x1_0 (wrapped (extractStridedSlice S262144 ![o] cols hs))

/-- The values of the chunk starting at entry o, each repeated along a row of 32. -/
def vals (o : Nat) (hs : S1835008.Slices ![o] S262144) (v : FVec Ideal S1835008 .f32) : FVec Ideal S262144x32 .f32 :=
  broadcastInDim S262144x32 ![0, 1] bcast_S262144x1_S262144x32_0_1
    (broadcastInDim S262144x1 ![0] bcast_S262144_S262144x1_0 (extractStridedSlice S262144 ![o] v hs))

/-- The partial product of the chunk starting at entry o: the gathered rows of ypT times the values, scatter-added
    into the zero matrix at the row words. -/
def chunk (o : Nat) (hs : S1835008.Slices ![o] S262144) (ypT : FVec Ideal S262144x32 .f32)
    (v : FVec Ideal S1835008 .f32) (rows cols : IVec S1835008 32) : FVec Ideal S262144x32 .f32 :=
  Host.scatterAdd scatter_S262144x32_S262144x1_S262144x32_1_0_0_1 zeros (rowIdx o hs rows)
    (mulf (Host.gather gather_S262144x32_S262144x1_S262144x32_1_0_n_n_0_1_132 ypT (colIdx o hs cols)) (vals o hs v))

/-- The predictions transposed to [262144, 32]. -/
def ypT (yp : FVec Ideal S32x262144 .f32) : FVec Ideal S262144x32 .f32 :=
  transpose S262144x32 [1, 0] yp transposes_S32x262144_S262144x32_1_0

/-- The seven partials added in order, from the zero matrix. -/
def acc (yp : FVec Ideal S32x262144 .f32) (v : FVec Ideal S1835008 .f32) (rows cols : IVec S1835008 32) :
    FVec Ideal S262144x32 .f32 :=
  addf (addf (addf (addf (addf (addf (addf zeros
    (chunk 0 slices_S1835008_S262144_0 (ypT yp) v rows cols))
    (chunk 262144 slices_S1835008_S262144_262144 (ypT yp) v rows cols))
    (chunk 524288 slices_S1835008_S262144_524288 (ypT yp) v rows cols))
    (chunk 786432 slices_S1835008_S262144_786432 (ypT yp) v rows cols))
    (chunk 1048576 slices_S1835008_S262144_1048576 (ypT yp) v rows cols))
    (chunk 1310720 slices_S1835008_S262144_1310720 (ypT yp) v rows cols))
    (chunk 1572864 slices_S1835008_S262144_1572864 (ypT yp) v rows cols)

/-- The value the host lines before the region leave for the region's third input: the accumulated product
    transposed back to [32, 262144]. -/
def prefixVal (yp : FVec Ideal S32x262144 .f32) (v : FVec Ideal S1835008 .f32) (rows cols : IVec S1835008 32) :
    FVec Ideal S32x262144 .f32 :=
  transpose S32x262144 [1, 0] (acc yp v rows cols) transposes_S262144x32_S32x262144_1_0

/-! ## The layout operations read at an index -/

/-- A vector [262144] laid out as a column [262144, 1] reads the vector's entry. -/
theorem colBcast_apply {α : Type} (x : S262144.Idx → α) (e : Fin 262144) (u : Fin 1) :
    broadcastInDim S262144x1 ![0] bcast_S262144_S262144x1_0 x (ix2 e u) = x (ix1 e) :=
  broadcastInDim_apply _ _ x (ix2 e u) (ix1 e) (fun a => match a with | ⟨0, _⟩ => rfl)

/-- A column [262144, 1] repeated along rows of 32 reads the column's entry. -/
theorem rowBcast_apply {α : Type} (x : S262144x1.Idx → α) (e : Fin 262144) (k : Fin 32) :
    broadcastInDim S262144x32 ![0, 1] bcast_S262144x1_S262144x32_0_1 x (ix2 e k) = x (ix2 e ⟨0, Nat.one_pos⟩) :=
  broadcastInDim_apply _ _ x (ix2 e k) (ix2 e ⟨0, Nat.one_pos⟩)
    (fun a => match a with | ⟨0, _⟩ => rfl | ⟨1, _⟩ => rfl)

/-- The slice of 262144 entries starting at entry o reads entry o + e. -/
theorem slice_apply {α : Type} (o : Nat) (hs : S1835008.Slices ![o] S262144) (x : S1835008.Idx → α) (e : Fin 262144)
    (h : o + e.val < 1835008) :
    extractStridedSlice S262144 ![o] x hs (ix1 e) = x (ix1 ⟨o + e.val, h⟩) :=
  extractStridedSlice_apply _ x hs (ix1 e) (ix1 ⟨o + e.val, h⟩) (fun a => match a with | ⟨0, _⟩ => rfl)

/-- The wrapped words read at an entry: the entry's word wrapped. -/
theorem wrapped_apply (c : IVec S262144 32) (e : Fin 262144) : wrapped c (ix1 e) = RidgeSpec.wrap (c (ix1 e)) := rfl

/-- The zero matrix reads 0. -/
theorem zeros_apply (i : S262144x32.Idx) : zeros i = 0 := Ideal.ofBits_zero_f32

theorem off_lt {o q : Nat} (ho : o + 262144 ≤ 1835008) (hq : q < 262144) : o + q < 1835008 := by omega

/-! ## One chunk read at an index -/

/-- The column of row words read at row e of the chunk: the row word of entry o + e. -/
theorem rowIdx_apply (o : Nat) (hs : S1835008.Slices ![o] S262144) (rows : IVec S1835008 32) (e : Fin 262144)
    (h : o + e.val < 1835008) : rowIdx o hs rows (ix2 e ⟨0, Nat.one_pos⟩) = rows (ix1 ⟨o + e.val, h⟩) := by
  unfold rowIdx
  rw [colBcast_apply, slice_apply o hs rows e h]

/-- The column of gather indices read at row e of the chunk: the column word of entry o + e, wrapped. -/
theorem colIdx_apply (o : Nat) (hs : S1835008.Slices ![o] S262144) (cols : IVec S1835008 32) (e : Fin 262144)
    (h : o + e.val < 1835008) :
    colIdx o hs cols (ix2 e ⟨0, Nat.one_pos⟩) = RidgeSpec.wrap (cols (ix1 ⟨o + e.val, h⟩)) := by
  unfold colIdx
  rw [colBcast_apply, wrapped_apply, slice_apply o hs cols e h]

/-- The repeated values read at (e, k): the value of entry o + e. -/
theorem vals_apply (o : Nat) (hs : S1835008.Slices ![o] S262144) (v : FVec Ideal S1835008 .f32) (e : Fin 262144)
    (k : Fin 32) (h : o + e.val < 1835008) : vals o hs v (ix2 e k) = v (ix1 ⟨o + e.val, h⟩) := by
  unfold vals
  rw [rowBcast_apply, colBcast_apply, slice_apply o hs v e h]

/-- The gather of whole rows of the transposed predictions read at (e, k): the prediction of batch row k at the
    unknown named by the index word of row e, clamped. -/
theorem gathered_apply (yp : FVec Ideal S32x262144 .f32) (idx : IVec S262144x1 32) (e : Fin 262144) (k : Fin 32) :
    Host.gather gather_S262144x32_S262144x1_S262144x32_1_0_n_n_0_1_132 (ypT yp) idx (ix2 e k)
      = yp (ix2 k (RidgeSpec.clamp (idx (ix2 e ⟨0, Nat.one_pos⟩)))) := by
  refine (RowGatherScatter.rowGather_apply (N := 262144) (M := 262144) (C := 32) (by norm_num)
    gather_S262144x32_S262144x1_S262144x32_1_0_n_n_0_1_132_wf (ypT yp) idx e k).trans ?_
  exact transpose_ix2_apply yp transposes_S32x262144_S262144x32_1_0 _ k

/-- The scatter-add of 262144 rows into a matrix [262144, 32] at a column of row words, read at (n, b): the operand's
    element plus the sum of the update elements (e, b) over the rows e whose word, read signed, is n. -/
theorem scatterAdd_apply (x : FVec Ideal S262144x32 .f32) (idx : IVec S262144x1 32) (upd : FVec Ideal S262144x32 .f32)
    (n : Fin 262144) (b : Fin 32) :
    Host.scatterAdd scatter_S262144x32_S262144x1_S262144x32_1_0_0_1 x idx upd (ix2 n b)
      = x (ix2 n b) + ∑ e ∈ Finset.univ.filter
            (fun e : Fin 262144 => (idx (ix2 e ⟨0, Nat.one_pos⟩)).toInt = (n.val : ℤ)), upd (ix2 e b) :=
  RowGatherScatter.rowScatterAdd_apply scatter_S262144x32_S262144x1_S262144x32_1_0_0_1_wf x idx upd n b

/-- What entry e of the matrix contributes to element (b, n) of the product: yp[b, col e] · v[e] when its row word,
    read signed, is n, and nothing otherwise. -/
def term (yp : FVec Ideal S32x262144 .f32) (v : FVec Ideal S1835008 .f32) (rows cols : IVec S1835008 32)
    (b : Fin 32) (n : Fin 262144) (e : Fin 1835008) : EReal :=
  if (rows (ix1 e)).toInt = (n.val : ℤ) then yp (ix2 b (RidgeSpec.col cols e)) * v (ix1 e) else 0

/-- The contributions to element (b, n) of the 262144 entries from entry o on. -/
def chunkSum (yp : FVec Ideal S32x262144 .f32) (v : FVec Ideal S1835008 .f32) (rows cols : IVec S1835008 32)
    (b : Fin 32) (n : Fin 262144) (o : Nat) (ho : o + 262144 ≤ 1835008) : EReal :=
  ∑ q : Fin 262144, term yp v rows cols b n ⟨o + q.val, off_lt ho q.isLt⟩

/-- THE PARTIAL OF ONE CHUNK READ AT (n, b), for a chunk starting at any entry o: zero plus the sum, over the
    chunk's entries whose row word read signed is n, of yp[b, col] · v. -/
theorem chunk_apply (o : Nat) (ho : o + 262144 ≤ 1835008) (hs : S1835008.Slices ![o] S262144)
    (yp : FVec Ideal S32x262144 .f32) (v : FVec Ideal S1835008 .f32) (rows cols : IVec S1835008 32)
    (n : Fin 262144) (b : Fin 32) :
    chunk o hs (ypT yp) v rows cols (ix2 n b)
      = 0 + ∑ q ∈ Finset.univ.filter
            (fun q : Fin 262144 => (rows (ix1 ⟨o + q.val, off_lt ho q.isLt⟩)).toInt = (n.val : ℤ)),
          yp (ix2 b (RidgeSpec.col cols ⟨o + q.val, off_lt ho q.isLt⟩)) * v (ix1 ⟨o + q.val, off_lt ho q.isLt⟩) := by
  unfold chunk
  rw [scatterAdd_apply, zeros_apply]
  refine congrArg (fun x : EReal => (0 : EReal) + x) ?_
  rw [Finset.sum_filter, Finset.sum_filter]
  refine Finset.sum_congr rfl (fun q _ => ?_)
  rw [rowIdx_apply o hs rows q (off_lt ho q.isLt), mulf_apply, gathered_apply,
    colIdx_apply o hs cols q (off_lt ho q.isLt), vals_apply o hs v q b (off_lt ho q.isLt)]
  rfl

/-- The same with the sum written over all the chunk's entries. -/
theorem chunk_apply' (o : Nat) (ho : o + 262144 ≤ 1835008) (hs : S1835008.Slices ![o] S262144)
    (yp : FVec Ideal S32x262144 .f32) (v : FVec Ideal S1835008 .f32) (rows cols : IVec S1835008 32)
    (n : Fin 262144) (b : Fin 32) :
    chunk o hs (ypT yp) v rows cols (ix2 n b) = 0 + chunkSum yp v rows cols b n o ho := by
  rw [chunk_apply o ho hs, Finset.sum_filter]
  refine congrArg _ (Finset.sum_congr rfl (fun q _ => ?_))
  rfl

/-! ## The seven chunks together -/

/-- The product at (b, n) as a sum over 7 blocks of 262144 entries. -/
theorem ya_eq_blocks (yp : FVec Ideal S32x262144 .f32) (v : FVec Ideal S1835008 .f32) (rows cols : IVec S1835008 32)
    (b : Fin 32) (n : Fin 262144) :
    RidgeSpec.ya yp v rows cols b n
      = ∑ p : Fin 7, ∑ q : Fin 262144,
          term yp v rows cols b n ⟨p.val * 262144 + q.val, Cert.LibSumBlocks.blk_lt p.isLt q.isLt⟩ := by
  unfold RidgeSpec.ya RidgeSpec.lands
  rw [Finset.sum_filter]
  exact Cert.LibSumBlocks.sum_fin_blocks2 7 262144 (fun e : Fin (7 * 262144) => term yp v rows cols b n e)

/-- The product at (b, n) as the seven chunk sums added in order. -/
theorem ya_eq_chunks (yp : FVec Ideal S32x262144 .f32) (v : FVec Ideal S1835008 .f32) (rows cols : IVec S1835008 32)
    (b : Fin 32) (n : Fin 262144) :
    RidgeSpec.ya yp v rows cols b n
      = chunkSum yp v rows cols b n 0 (by norm_num) + chunkSum yp v rows cols b n 262144 (by norm_num)
        + chunkSum yp v rows cols b n 524288 (by norm_num) + chunkSum yp v rows cols b n 786432 (by norm_num)
        + chunkSum yp v rows cols b n 1048576 (by norm_num) + chunkSum yp v rows cols b n 1310720 (by norm_num)
        + chunkSum yp v rows cols b n 1572864 (by norm_num) := by
  have key : ∀ (k : Fin 7) (o : Nat) (ho : o + 262144 ≤ 1835008), k.val * 262144 = o →
      (∑ q : Fin 262144, term yp v rows cols b n ⟨k.val * 262144 + q.val, Cert.LibSumBlocks.blk_lt k.isLt q.isLt⟩)
        = chunkSum yp v rows cols b n o ho := by
    intro k o ho hk
    subst hk
    rfl
  rw [ya_eq_blocks, Fin.sum_univ_seven, key 0 0 (by norm_num) (by decide), key 1 262144 (by norm_num) (by decide),
    key 2 524288 (by norm_num) (by decide), key 3 786432 (by norm_num) (by decide),
    key 4 1048576 (by norm_num) (by decide), key 5 1310720 (by norm_num) (by decide),
    key 6 1572864 (by norm_num) (by decide)]

/-- THE PREFIX'S VALUE READ AT (b, n): the sparse product. -/
theorem prefixVal_apply (yp : FVec Ideal S32x262144 .f32) (v : FVec Ideal S1835008 .f32)
    (rows cols : IVec S1835008 32) (b : Fin 32) (n : Fin 262144) :
    prefixVal yp v rows cols (ix2 b n) = RidgeSpec.ya yp v rows cols b n := by
  unfold prefixVal
  rw [transpose_ix2_apply]
  unfold acc
  rw [addf_apply, addf_apply, addf_apply, addf_apply, addf_apply, addf_apply, addf_apply]
  rw [zeros_apply, chunk_apply' 0 (by norm_num), chunk_apply' 262144 (by norm_num),
    chunk_apply' 524288 (by norm_num), chunk_apply' 786432 (by norm_num), chunk_apply' 1048576 (by norm_num),
    chunk_apply' 1310720 (by norm_num), chunk_apply' 1572864 (by norm_num), ya_eq_chunks]
  simp only [zero_add]

/-- THE HOST LINES BEFORE THE REGION COMPUTE THE SPARSE PRODUCT: the array they leave for the region's third input
    is RidgeSpec.yaArr of the argument arrays. -/
theorem prefix_eq (yp : FVec Ideal S32x262144 .f32) (v : FVec Ideal S1835008 .f32) (rows cols : IVec S1835008 32) :
    prefixVal yp v rows cols = RidgeSpec.yaArr yp v rows cols := by
  funext i
  obtain ⟨b, n, rfl⟩ : ∃ (b : Fin 32) (n : Fin 262144), i = ix2 b n := ⟨i 0, i 1, eq_ix2 i⟩
  exact prefixVal_apply yp v rows cols b n

end Cert.KernelIdeal.PrefixValue

end
-- ==== Proof.PrefixRun.lean ====
/-
  WHAT THE REGION FINDS IN ITS THIRD INPUT.

  When the region is entered its third input holds what the host lines before it computed from the argument arrays;
  that term, operation by operation, is PrefixValue.prefixVal, which PrefixValue.prefix_eq shows to be the sparse
  product RidgeSpec.yaArr.  The first two inputs are the argument arrays themselves, which no host line writes (the
  generated V_main_arg0 and V_main_arg1).
-/
import proofs.«111848_j11364483465834_2_alg».proof.Proof.Gen.KernelIdeal.Frame
import proofs.«111848_j11364483465834_2_alg».proof.Proof.PrefixValue

set_option maxRecDepth 16384

noncomputable section

namespace Cert.KernelIdeal.PrefixValue

open Idealize.ShloMosaic Idealize.ShloMosaic.TcCoe Idealize.ShloMosaic.Tactic
open Idealize.ShloMosaic.StableHlo
open Idealize.SL.Sem

set_option maxHeartbeats 4000000 in
/-- The third input of the region, as the composed term of the host lines before it over the argument arrays. -/
theorem V_ya_term (m : (ℓ : Loc nD τ sig) → Buf (Elt Ideal) ℓ) (c : Dev nD) :
    (Gen.V m c main_v121 : S32x262144.Idx → EReal)
      = prefixVal (m ((c : Thread nD τ).loc main_arg0)) (m ((c : Thread nD τ).loc main_arg2))
          (m ((c : Thread nD τ).loc main_arg3)) (m ((c : Thread nD τ).loc main_arg4)) := by
  show StableHlo.after Gen.hostOps0 (fun b => m (c, b)) (Proc.devRef .tc main_v121) = _
  after_results_simp
  rfl

/-- THE THIRD INPUT OF THE REGION IS THE SPARSE PRODUCT of the argument arrays. -/
theorem V_ya (m : (ℓ : Loc nD τ sig) → Buf (Elt Ideal) ℓ) (c : Dev nD) :
    (Gen.V m c main_v121 : S32x262144.Idx → EReal)
      = RidgeSpec.yaArr (m ((c : Thread nD τ).loc main_arg0)) (m ((c : Thread nD τ).loc main_arg2))
          (m ((c : Thread nD τ).loc main_arg3)) (m ((c : Thread nD τ).loc main_arg4)) :=
  (V_ya_term m c).trans (prefix_eq _ _ _ _)

end Cert.KernelIdeal.PrefixValue

end
-- ==== Proof.KernelRun.lean ====
/-
  THE KERNEL'S RUN, READ: every weakly fair execution of the idealized kernel ends with its result at the loss with the
  square expanded — of the argument arrays as launched — and with the argument arrays unchanged.

  The region is handed the predictions and the targets as launched, and the sparse product the host lines before it
  computed from the arguments; the frame run gives the five output arrays and the host lines after the region.
-/
import proofs.«111848_j11364483465834_2_alg».proof.Proof.KernelValue
import proofs.«111848_j11364483465834_2_alg».proof.Proof.PrefixRun

noncomputable section

namespace Cert.KernelIdeal.KernelRun

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v142)
        = (fun _ => RidgeSpec.lossQuad (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v142 (Pipeline.mem_restRefs_of main_v142 (by decide) (by decide))).trans
        ((KernelValue.tail_run m c).trans
          (KernelValue.value_eq m c _ _ _ _ _ (V_main_arg0 m c) (V_main_arg1 m c) (PrefixValue.V_ya m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.lean ====
/-
  The proof of `Cert.Claim`: a ridge-regression loss computed two ways.

  Both programs take predictions `yp` and targets `yt` (32 batch rows of 262144 unknowns) and a sparse matrix `A` in
  coordinate form (1835008 entries), form the product `ya = A · yp` row by row, fit the scale
  `alpha[b] = ⟨yt[b], yp[b]⟩ / ⟨yp[b], ya[b]⟩`, and return the mean over the batch of `∑ n, (yt − alpha · ya)²`.
  The reference gathers columns of `yp`, scatter-adds all the entries at once, builds the residual and squares it.
  The kernel gathers rows of the transposed `yp` and scatter-adds the entries in 7 chunks of 262144; one region of 16
  grid points accumulates the five dot products `⟨yt, yp⟩`, `⟨yp, ya⟩`, `⟨yt, yt⟩`, `⟨yt, ya⟩`, `⟨ya, ya⟩`, each in two
  halves; and the host lines after it add the halves and expand the square:
  `⟨yt, yt⟩ − (2 · alpha) · ⟨yt, ya⟩ + (alpha · alpha) · ⟨ya, ya⟩`.

  Over the extended reals the two agree where every float input is a real number AND no denominator `⟨yp[b], ya[b]⟩` is
  zero (the precondition): then every quantity is real and the expansion is the binomial identity, summed.  At a zero
  denominator the scale is infinite and the two forms differ (`−∞` against `+∞`), which is why the precondition carries
  the second conjunct: it is the domain on which the reference's own quotient is defined.

  The modules: `Spec` (the mathematics, over the argument arrays), `Algebra` (the two forms agree), `LibColGather`,
  `YaStage`, `RefValue` (the reference's run is the residual form), `PreDecode` (what the precondition says),
  `PrefixValue`, `PrefixRun` (the seven chunks are the product), `RegionPay`, `RegionCases`, `RegionSum`, `RegionFinal`,
  `DotBlocks`, `TailValue`, `KernelValue`, `KernelRun` (the kernel's run is the expanded form).
  The three frames are the generated ones (the reference's: its generated run with the result dropped); the ideal pass
  rewrote nothing, so `preserves` is `True`.
-/
import proofs.«111848_j11364483465834_2_alg».proof.Defs
import proofs.«111848_j11364483465834_2_alg».proof.Proof.Gen.Kernel
import proofs.«111848_j11364483465834_2_alg».proof.Proof.Gen.Kernel.Skeleton
import proofs.«111848_j11364483465834_2_alg».proof.Proof.Gen.Kernel.Launch
import proofs.«111848_j11364483465834_2_alg».proof.Proof.Gen.Kernel.Points
import proofs.«111848_j11364483465834_2_alg».proof.Proof.Gen.Kernel.Frame
import proofs.«111848_j11364483465834_2_alg».proof.Proof.Gen.KernelIdeal
import proofs.«111848_j11364483465834_2_alg».proof.Proof.Gen.KernelIdeal.Skeleton
import proofs.«111848_j11364483465834_2_alg».proof.Proof.Gen.KernelIdeal.Launch
import proofs.«111848_j11364483465834_2_alg».proof.Proof.Gen.KernelIdeal.Points
import proofs.«111848_j11364483465834_2_alg».proof.Proof.Gen.KernelIdeal.Frame
import proofs.«111848_j11364483465834_2_alg».proof.Proof.Gen.ReferenceIdeal
import proofs.«111848_j11364483465834_2_alg».proof.Proof.Gen.Pre_finite_inputs
import proofs.«111848_j11364483465834_2_alg».proof.Proof.Gen.ReferenceIdeal.Run
import proofs.«111848_j11364483465834_2_alg».proof.Proof.Gen.ReferenceIdeal.Read
import proofs.«111848_j11364483465834_2_alg».proof.Proof.Algebra
import proofs.«111848_j11364483465834_2_alg».proof.Proof.RefValue
import proofs.«111848_j11364483465834_2_alg».proof.Proof.PreDecode
import proofs.«111848_j11364483465834_2_alg».proof.Proof.KernelRun
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The printed kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel ends at the loss with the square expanded, the reference at the residual squared and summed, of
    arguments that agree; under the precondition — real inputs, nonzero denominators — the two are one number. -/
theorem algebraic : Cert.algebraic_KernelIdeal_ReferenceIdeal := by
  intro m ρ m' ρ' hpre hagree
  refine ⟨fun c => fun _ => RidgeSpec.lossQuad (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun _ h c => ⟨?_, (h c).2⟩)
    (Cert.ReferenceIdeal.Value.run (F := Ideal) m' ρ')
  obtain ⟨hyp, hyt, hv, hden⟩ := Cert.PreDecode.of_pre _ _ _ _ _ (hpre c)
  rw [(h c).1, Cert.ReferenceIdeal.Read.val_main_v27_eq, Cert.ReferenceIdeal.RefValue.result_eq,
    (hagree c).1, (hagree c).2.1, (hagree c).2.2.1, (hagree c).2.2.2.1, (hagree c).2.2.2.2]
  exact funext fun _ => RidgeSpec.loss_eq _ _ _ _ _ hyp hyt hv hden

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
